-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel
  bcast_S_S8x3x4 : S_.BroadcastsInDim S8x3x4 (![] : Fin 0 → Fin S8x3x4.rank)
  reducesTo_S8x3x4_S_d0_1_2 : S8x3x4.ReducesTo [0, 1, 2] S_
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x1_0_0_2 : S8x4096x3.Slices ![0, 0, 2] S8x4096x1
  reducesTo_S8x4096x1_S_d0_1_2 : S8x4096x1.ReducesTo [0, 1, 2] S_
  dot_S8x4096x4_S8x3x4_S8x4096x3_2_2_1_1_0_0_wf : DotDims.WF S8x4096x4 S8x3x4 S8x4096x3 [2] [2] [1] [1] [0] [0]

variable [Facts]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf
def fn_part1 {F : FTy → Type} [FloatOps F] (main_arg0 : FVec F S8x4096x3 .f32) (main_arg2 : FVec F S8x3x4 .f32) (main_v13 : IVec S_ 1) (main_v16 : FVec F S8x4096x3 .f32) : IVec S_ 1 :=
  let main_v17 : FVec F S8x4096x1 .f32 := (extractStridedSlice S8x4096x1 ![0, 0, 2] · slices_S8x4096x3_S8x4096x1_0_0_2) main_v16
  let main_cst_5 : FVec F S_ .f32 := constant S_ .f32 0x00000000#32
  let main_v18 : FVec F S8x4096x1 .f32 := broadcastInDim S8x4096x1 ![] bcast_S_S8x4096x1 main_cst_5
  let main_v19 : IVec S8x4096x1 1 := cmpf .une main_v17 main_v18
  let main_c_6 : IVec S_ 1 := constantI S_ 1 1#1
  let main_v20 : IVec S_ 1 := (fun x v => Host.reduce IntOp.andi x v reducesTo_S8x4096x1_S_d0_1_2 h_S_) main_v19 main_c_6
  let main_v21 : IVec S_ 1 := andi main_v13 main_v20
  let main_cst_7 : FVec F S_ .f32 := constant S_ .f32 0x3F800000#32
  let main_v22 : FVec F S8x4096x1 .f32 := broadcastInDim S8x4096x1 ![] bcast_S_S8x4096x1 main_cst_7
  let main_v23 : FVec F S8x4096x4 .f32 := (fun a b => concatenate S8x4096x4 2 [⟨S8x4096x3, a⟩, ⟨S8x4096x1, b⟩] concatenates_S8x4096x3_S8x4096x1_S8x4096x4_d2) main_arg0 main_v22
  let main_v24 : FVec F S8x4096x3 .f32 := (fun l r => Host.dotGeneral dot_S8x4096x4_S8x3x4_S8x4096x3_2_2_1_1_0_0 none l r) main_v23 main_arg2
  let main_v25 : FVec F S8x4096x1 .f32 := (extractStridedSlice S8x4096x1 ![0, 0, 2] · slices_S8x4096x3_S8x4096x1_0_0_2) main_v24
  let main_cst_8 : FVec F S_ .f32 := constant S_ .f32 0x00000000#32
  let main_v26 : FVec F S8x4096x1 .f32 := broadcastInDim S8x4096x1 ![] bcast_S_S8x4096x1 main_cst_8
  let main_v27 : IVec S8x4096x1 1 := cmpf .une main_v25 main_v26
  let main_c_9 : IVec S_ 1 := constantI S_ 1 1#1
  let main_v28 : IVec S_ 1 := (fun x v => Host.reduce IntOp.andi x v reducesTo_S8x4096x1_S_d0_1_2 h_S_) main_v27 main_c_9
  let main_v29 : IVec S_ 1 := andi main_v21 main_v28
  main_v29

def fn {F : FTy → Type} [FloatOps F] (main_arg0 : FVec F S8x4096x3 .f32) (main_arg1 : FVec F S8x4096x3 .f32) (main_arg2 : FVec F S8x3x4 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  let main_v9 : FVec F S8x3x4 .f32 := Host.absf main_arg2
  let main_cst_2 : FVec F S_ .f32 := constant S_ .f32 0x7F800000#32
  let main_v10 : FVec F S8x3x4 .f32 := broadcastInDim S8x3x4 ![] bcast_S_S8x3x4 main_cst_2
  let main_v11 : IVec S8x3x4 1 := cmpf .olt main_v9 main_v10
  let main_c_3 : IVec S_ 1 := constantI S_ 1 1#1
  let main_v12 : IVec S_ 1 := (fun x v => Host.reduce IntOp.andi x v reducesTo_S8x3x4_S_d0_1_2 h_S_) main_v11 main_c_3
  let main_v13 : IVec S_ 1 := andi main_v8 main_v12
  let main_cst_4 : FVec F S_ .f32 := constant S_ .f32 0x3F800000#32
  let main_v14 : FVec F S8x4096x1 .f32 := broadcastInDim S8x4096x1 ![] bcast_S_S8x4096x1 main_cst_4
  let main_v15 : FVec F S8x4096x4 .f32 := (fun a b => concatenate S8x4096x4 2 [⟨S8x4096x3, a⟩, ⟨S8x4096x1, b⟩] concatenates_S8x4096x3_S8x4096x1_S8x4096x4_d2) main_arg1 main_v14
  let main_v16 : FVec F S8x4096x3 .f32 := (fun l r => Host.dotGeneral dot_S8x4096x4_S8x3x4_S8x4096x3_2_2_1_1_0_0 none l r) main_v15 main_arg2
  fn_part1 (F := F) main_arg0 main_arg2 main_v13 main_v16
-- ==== Kernel.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x2x4096 : Shape := ⟨3, ![8, 2, 4096]⟩
abbrev S8x1x4096 : Shape := ⟨3, ![8, 1, 4096]⟩
abbrev S1x1024x2 : Shape := ⟨3, ![1, 1024, 2]⟩
abbrev S1x2x1024 : Shape := ⟨3, ![1, 2, 1024]⟩
abbrev S1x1x4096 : Shape := ⟨3, ![1, 1, 4096]⟩
abbrev S1x1x1024 : Shape := ⟨3, ![1, 1, 1024]⟩
abbrev S1x4096 : Shape := ⟨2, ![1, 4096]⟩
abbrev S1024x2 : Shape := ⟨2, ![1024, 2]⟩
abbrev S2x1024 : Shape := ⟨2, ![2, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 53
  | .vmem => 9
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S_, .f32⟩
  | .hbm, ⟨18, _⟩ => ⟨S8x4096x1, .f32⟩
  | .hbm, ⟨19, _⟩ => ⟨S8x4096x4, .f32⟩
  | .hbm, ⟨20, _⟩ => ⟨S8x4096x3, .f32⟩
  | .hbm, ⟨21, _⟩ => ⟨S8x4096x2, .f32⟩
  | .hbm, ⟨22, _⟩ => ⟨S8x4096x1, .f32⟩
  | .hbm, ⟨23, _⟩ => ⟨S8x4096x2, .f32⟩
  | .hbm, ⟨24, _⟩ => ⟨S8x4096x2, .f32⟩
  | .hbm, ⟨25, _⟩ => ⟨S_, .f32⟩
  | .hbm, ⟨26, _⟩ => ⟨S8x4096x2, .f32⟩
  | .hbm, ⟨27, _⟩ => ⟨S8x4096x2, .f32⟩
  | .hbm, ⟨28, _⟩ => ⟨S_, .f32⟩
  | .hbm, ⟨29, _⟩ => ⟨S8x4096x2, .f32⟩
  | .hbm, ⟨30, _⟩ => ⟨S8x4096x2, .f32⟩
  | .hbm, ⟨31, _⟩ => ⟨S8x2x4096, .f32⟩
  | .hbm, ⟨32, _⟩ => ⟨S8x1x4096, .f32⟩
  | .hbm, ⟨33, _⟩ => ⟨S8x1x4096, .f32⟩
  | .hbm, ⟨34, _⟩ => ⟨S_, .f32⟩
  | .hbm, ⟨35, _⟩ => ⟨S8x1x4096, .f32⟩
  | .hbm, ⟨36, _⟩ => ⟨S8x1x4096, .f32⟩
  | .hbm, ⟨37, _⟩ => ⟨S_, .f32⟩
  | .hbm, ⟨38, _⟩ => ⟨S8x1x4096, .f32⟩
  | .hbm, ⟨39, _⟩ => ⟨S8x1x4096, .f32⟩
  | .hbm, ⟨40, _⟩ => ⟨S8x1x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8x1x4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S1x1024x2, .f32⟩
  | .local _ .vmem, ⟨1, _⟩ => ⟨S1x1024x2, .f32⟩
  | .local _ .vmem, ⟨2, _⟩ => ⟨S1x2x1024, .f32⟩
  | .local _ .vmem, ⟨3, _⟩ => ⟨S1x2x1024, .f32⟩
  | .local _ .vmem, ⟨4, _⟩ => ⟨S1x1x4096, .f32⟩
  | .local _ .vmem, ⟨5, _⟩ => ⟨S1x1x4096, .f32⟩
  | .local _ .vmem, ⟨6, _⟩ => ⟨S1x1x1024, .f32⟩
  | .local _ .vmem, ⟨7, _⟩ => ⟨S1x1x1024, .f32⟩
  | .local _ .vmem, ⟨8, _⟩ => ⟨S1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_cst_11 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v19 : BitVec 32 := Scalar.muli arg2 c1024_i32
  v19
def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_6 : BitVec 32 := 0#32
  let v23 : BitVec 1 := Scalar.cmpi .ne v22 c0_i32_6
  v23

def k0_off1 (i : grid0.Coords) : Fin 2 → Nat :=
  let c0_15 : Index := 0#32
  let arg2 : BitVec 32 := BitVec.ofNat 32 (i 2).val
  let c1024_i32 : BitVec 32 := 1024#32
  let v19 : BitVec 32 := Scalar.muli arg2 c1024_i32
  let v20 : BitVec 32 := v19
  let v39 : Index := Scalar.indexCast v20
  ![0, v39.toNat]
def k0_cond2 (i : grid0.Coords) : BitVec 1 :=
  let arg1 : BitVec 32 := BitVec.ofNat 32 (i 1).val
  let c0_i32_7 : BitVec 32 := 0#32
  let v24 : BitVec 1 := Scalar.cmpi .sgt arg1 c0_i32_7
  let v25 : BitVec 32 := Scalar.extui v24
  let c0_i32_8 : BitVec 32 := 0#32
  let v26 : BitVec 1 := Scalar.cmpi .ne v25 c0_i32_8
  v26

def k0_off2 (i : grid0.Coords) : Fin 2 → Nat :=
  let c0_15 : Index := 0#32
  let arg2 : BitVec 32 := BitVec.ofNat 32 (i 2).val
  let c1024_i32 : BitVec 32 := 1024#32
  let v19 : BitVec 32 := Scalar.muli arg2 c1024_i32
  let v20 : BitVec 32 := v19
  let v38 : Index := Scalar.indexCast v20
  ![0, v38.toNat]
def k0_cond5 (i : grid0.Coords) : BitVec 1 :=
  let arg1 : BitVec 32 := BitVec.ofNat 32 (i 1).val
  let c3_i32 : BitVec 32 := 3#32
  let v33 : BitVec 1 := Scalar.cmpi .eq arg1 c3_i32
  let arg2 : BitVec 32 := BitVec.ofNat 32 (i 2).val
  let c3_i32_13 : BitVec 32 := 3#32
  let v34 : BitVec 1 := Scalar.cmpi .eq arg2 c3_i32_13
  let v35 : BitVec 1 := Scalar.andi v33 v34
  let v36 : BitVec 32 := Scalar.extui v35
  let c0_i32_14 : BitVec 32 := 0#32
  let v37 : BitVec 1 := Scalar.cmpi .ne v36 c0_i32_14
  v37

def k0_cond3 (i : grid0.Coords) : BitVec 1 :=
  let arg2 : BitVec 32 := BitVec.ofNat 32 (i 2).val
  let c0_i32_9 : BitVec 32 := 0#32
  let v27 : BitVec 1 := Scalar.cmpi .eq arg2 c0_i32_9
  let v28 : BitVec 32 := Scalar.extui v27
  let c0_i32_10 : BitVec 32 := 0#32
  let v29 : BitVec 1 := Scalar.cmpi .ne v28 c0_i32_10
  v29

def k0_cond4 (i : grid0.Coords) : BitVec 1 :=
  let arg2 : BitVec 32 := BitVec.ofNat 32 (i 2).val
  let c0_i32_11 : BitVec 32 := 0#32
  let v30 : BitVec 1 := Scalar.cmpi .sgt arg2 c0_i32_11
  let v31 : BitVec 32 := Scalar.extui v30
  let c0_i32_12 : BitVec 32 := 0#32
  let v32 : BitVec 1 := Scalar.cmpi .ne v31 c0_i32_12
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  bcast_S_S8x4096x2 : S_.BroadcastsInDim S8x4096x2 (![] : Fin 0 → Fin S8x4096x2.rank)
  transposes_S8x4096x2_S8x2x4096_0_2_1 : S8x4096x2.Transposes [0, 2, 1] S8x2x4096
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  inb_S1x2x1024_S1x2x1024_0_0_0 : ∀ a, (![0, 0, 0] : Fin 3 → Nat) a + S1x2x1024.size a ≤ S1x2x1024.size a
  h_S1x2x1024 : 0 < S1x2x1024.numel
  shapeCasts_S1x2x1024_S2x1024 : S1x2x1024.ShapeCasts S2x1024
  slices_S1024x2_o0_0_S1024x1 : S1024x2.Slices ![0, 0] S1024x1
  slices_S1024x2_o0_1_S1024x1 : S1024x2.Slices ![0, 1] S1024x1
  slices_S2x1024_o0_0_S1x1024 : S2x1024.Slices ![0, 0] S1x1024
  slices_S2x1024_o1_0_S1x1024 : S2x1024.Slices ![1, 0] S1x1024
  broadcasts_S1024x1_S1024x1024 : S1024x1.Broadcasts S1024x1024
  broadcasts_S1x1024_S1024x1024 : S1x1024.Broadcasts S1024x1024
  reduces_S1024x1024_S1024 : S1024x1024.Reduces [0] S1024
  reduces_S1024x1024_S1024_2 : S1024x1024.Reduces [1] S1024
  shapeCasts_S1024_S1x1024 : S1024.ShapeCasts S1x1024
  h_S1x1024 : 0 < S1x1024.numel
  shapeCasts_S1x1024_S1x1024 : S1x1024.ShapeCasts S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x4096_S1x4096_0_0 : ∀ a, (![0, 0] : Fin 2 → Nat) a + S1x4096.size a ≤ S1x4096.size a
  h_S1x4096 : 0 < S1x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  shapeCasts_S1x4096_S1x1x4096 : S1x4096.ShapeCasts S1x1x4096
  bcast_S_S8x1x4096 : S_.BroadcastsInDim S8x1x4096 (![] : Fin 0 → Fin S8x1x4096.rank)
  reducesTo_S8x1x4096_S_d0_1_2 : S8x1x4096.ReducesTo [0, 1, 2] S_
  h_S_ : 0 < S_.numel
  dot_S8x4096x4_S8x3x4_S8x4096x3_2_2_1_1_0_0_wf : DotDims.WF S8x4096x4 S8x3x4 S8x4096x3 [2] [2] [1] [1] [0] [0]
  hrank0 : 0 < grid0.rank
  k0_mult1_dvd : ∀ i : grid0.Coords, 1024 ∣ (k0_mult1 i).toNat
  k0_off1_inb : ∀ i : grid0.Coords, ∀ (k0_h1 : k0_cond1 i = 1#1), ∀ a, (k0_off1 i) a + S1x1024.size a ≤ S1x4096.size a
  k0_off2_inb : ∀ i : grid0.Coords, ∀ (k0_h2 : k0_cond2 i = 1#1), ∀ a, (k0_off2 i) a + S1x1024.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2.size a ≤ S8x4096x2.size a
  hwx0_0 : ∀ i : grid0.Coords, EltTy.bits .f32 = 32 ∨ (Rect.block (s := S8x4096x2) S1x1024x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x1024.size a ≤ S8x2x4096.size a
  hwx0_1 : ∀ i : grid0.Coords, EltTy.bits .f32 = 32 ∨ (Rect.block (s := S8x2x4096) S1x2x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096.size a ≤ S8x1x4096.size a
  hwx0_2 : ∀ i : grid0.Coords, EltTy.bits .f32 = 32 ∨ (Rect.block (s := S8x1x4096) S1x1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x4096.size a
  hwx0_3 : ∀ i : grid0.Coords, EltTy.bits .f32 = 32 ∨ (Rect.block (s := S8x1x4096) S1x1x1024.size (cc0_transform_3 i) (hinb0_3 i)).WholeWords (EltTy.packing .f32)

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf

abbrev win0_0 : Pipeline.Window sig grid0 :=
  Pipeline.Window.ofSpec (Memref.whole main_v10) S1x1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x2x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23_0) S1x1x4096.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23_1) S1x1x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond5 i == 1#1) | 3 => fun i => !(k0_cond3 i == 1#1) && !(k0_cond4 i == 1#1) | ⟨_ + 4, h⟩ => absurd h (Nat.not_lt.2 (Nat.le_add_left _ _))

class Facts : Prop extends Facts₀ where

variable [Facts]
-- ==== ReferenceIdeal.lean ====
abbrev S8x4096x3 : Shape := ⟨3, ![8, 4096, 3]⟩
abbrev S8x3x4 : Shape := ⟨3, ![8, 3, 4]⟩
abbrev S_ : Shape := ⟨0, ![]⟩
abbrev S8x4096x1 : Shape := ⟨3, ![8, 4096, 1]⟩
abbrev S8x4096x4 : Shape := ⟨3, ![8, 4096, 4]⟩
abbrev S8x4096x2 : Shape := ⟨3, ![8, 4096, 2]⟩
abbrev S8x4096 : Shape := ⟨2, ![8, 4096]⟩
abbrev S8x1x4096 : Shape := ⟨3, ![8, 1, 4096]⟩
abbrev S8x4096x4096 : Shape := ⟨3, ![8, 4096, 4096]⟩

abbrev nBuf : Space → Nat
  | .hbm => 67
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x3x4, .f32⟩
  | .hbm, ⟨3, _⟩ => ⟨S_, .f32⟩
  | .hbm, ⟨4, _⟩ => ⟨S8x4096x1, .f32⟩
  | .hbm, ⟨5, _⟩ => ⟨S8x4096x4, .f32⟩
  | .hbm, ⟨6, _⟩ => ⟨S8x4096x3, .f32⟩
  | .hbm, ⟨7, _⟩ => ⟨S8x4096x2, .f32⟩
  | .hbm, ⟨8, _⟩ => ⟨S8x4096x1, .f32⟩
  | .hbm, ⟨9, _⟩ => ⟨S8x4096x2, .f32⟩
  | .hbm, ⟨10, _⟩ => ⟨S8x4096x2, .f32⟩
  | .hbm, ⟨11, _⟩ => ⟨S_, .f32⟩
  | .hbm, ⟨12, _⟩ => ⟨S8x4096x2, .f32⟩
  | .hbm, ⟨13, _⟩ => ⟨S8x4096x2, .f32⟩
  | .hbm, ⟨14, _⟩ => ⟨S_, .f32⟩
  | .hbm, ⟨15, _⟩ => ⟨S8x4096x2, .f32⟩
  | .hbm, ⟨16, _⟩ => ⟨S8x4096x2, .f32⟩
  | .hbm, ⟨17, _⟩ => ⟨S_, .f32⟩
  | .hbm, ⟨18, _⟩ => ⟨S8x4096x1, .f32⟩
  | .hbm, ⟨19, _⟩ => ⟨S8x4096x4, .f32⟩
  | .hbm, ⟨20, _⟩ => ⟨S8x4096x3, .f32⟩
  | .hbm, ⟨21, _⟩ => ⟨S8x4096x2, .f32⟩
  | .hbm, ⟨22, _⟩ => ⟨S8x4096x1, .f32⟩
  | .hbm, ⟨23, _⟩ => ⟨S8x4096x2, .f32⟩
  | .hbm, ⟨24, _⟩ => ⟨S8x4096x2, .f32⟩
  | .hbm, ⟨25, _⟩ => ⟨S_, .f32⟩
  | .hbm, ⟨26, _⟩ => ⟨S8x4096x2, .f32⟩
  | .hbm, ⟨27, _⟩ => ⟨S8x4096x2, .f32⟩
  | .hbm, ⟨28, _⟩ => ⟨S_, .f32⟩
  | .hbm, ⟨29, _⟩ => ⟨S8x4096x2, .f32⟩
  | .hbm, ⟨30, _⟩ => ⟨S8x4096x2, .f32⟩
  | .hbm, ⟨31, _⟩ => ⟨S8x4096x2, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S8x4096x2, .f32⟩
  | .hbm, ⟨36, _⟩ => ⟨S_, .f32⟩
  | .hbm, ⟨37, _⟩ => ⟨S8x4096, .f32⟩
  | .hbm, ⟨38, _⟩ => ⟨S8x1x4096, .f32⟩
  | .hbm, ⟨39, _⟩ => ⟨S8x4096x4096, .f32⟩
  | .hbm, ⟨40, _⟩ => ⟨S8x4096x4096, .f32⟩
  | .hbm, ⟨41, _⟩ => ⟨S8x4096x4096, .f32⟩
  | .hbm, ⟨42, _⟩ => ⟨S8x4096x4096, .f32⟩
  | .hbm, ⟨43, _⟩ => ⟨S_, .f32⟩
  | .hbm, ⟨44, _⟩ => ⟨S8x4096x4096, .f32⟩
  | .hbm, ⟨45, _⟩ => ⟨S8x4096x4096, .f32⟩
  | .hbm, ⟨46, _⟩ => ⟨S8x4096x4096, .f32⟩
  | .hbm, ⟨47, _⟩ => ⟨S_, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096, .f32⟩
  | .hbm, ⟨52, _⟩ => ⟨S_, .f32⟩
  | .hbm, ⟨53, _⟩ => ⟨S8x4096, .f32⟩
  | .hbm, ⟨54, _⟩ => ⟨S8x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S8x4096, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_8 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_cst_11 : Ref sig .tc := ⟨.hbm, 55, rfl⟩
abbrev main_v40 : Ref sig .tc := ⟨.hbm, 56, rfl⟩
abbrev main_cst_12 : Ref sig .tc := ⟨.hbm, 57, rfl⟩
abbrev main_v41 : Ref sig .tc := ⟨.hbm, 58, rfl⟩
abbrev main_v42 : Ref sig .tc := ⟨.hbm, 59, rfl⟩
abbrev main_cst_13 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S8x4096x1 : S_.BroadcastsInDim S8x4096x1 (![] : Fin 0 → Fin S8x4096x1.rank)
  concatenates_S8x4096x3_S8x4096x1_S8x4096x4_d2 : Shape.Concatenates [S8x4096x3, S8x4096x1] S8x4096x4 2
  slices_S8x4096x3_S8x4096x2_0_0_0 : S8x4096x3.Slices ![0, 0, 0] S8x4096x2
  slices_S8x4096x3_S8x4096x1_0_0_2 : S8x4096x3.Slices ![0, 0, 2] S8x4096x1
  bcast_S8x4096x1_S8x4096x2_0_1_2 : S8x4096x1.BroadcastsInDim S8x4096x2 (![0, 1, 2] : Fin 3 → Fin S8x4096x2.rank)
  bcast_S_S8x4096x2 : S_.BroadcastsInDim S8x4096x2 (![] : Fin 0 → Fin S8x4096x2.rank)
  reducesTo_S8x4096x2_S8x4096_d2 : S8x4096x2.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d1 : S8x4096x4096.ReducesTo [1] S8x4096
  reducesTo_S8x4096x4096_S8x4096_d2 : S8x4096x4096.ReducesTo [2] S8x4096
  reducesTo_S8x4096_S_d0_1 : S8x4096.ReducesTo [0, 1] S_
  dot_S8x4096x4_S8x3x4_S8x4096x3_2_2_1_1_0_0_wf : DotDims.WF S8x4096x4 S8x3x4 S8x4096x3 [2] [2] [1] [1] [0] [0]
  dot_S8x4096x2_S8x4096x2_S8x4096x4096_2_2_1_1_0_0_wf : DotDims.WF S8x4096x2 S8x4096x2 S8x4096x4096 [2] [2] [1] [1] [0] [0]

variable [Facts₀]

def dot_S8x4096x4_S8x3x4_S8x4096x3_2_2_1_1_0_0 : DotDims S8x4096x4 S8x3x4 S8x4096x3 where
  lhsContracting := [2]
  rhsContracting := [2]
  lhsNonContracting := [1]
  rhsNonContracting := [1]
  lhsBatch := [0]
  rhsBatch := [0]
  wf := dot_S8x4096x4_S8x3x4_S8x4096x3_2_2_1_1_0_0_wf
def dot_S8x4096x2_S8x4096x2_S8x4096x4096_2_2_1_1_0_0 : DotDims S8x4096x2 S8x4096x2 S8x4096x4096 where
  lhsContracting := [2]
  rhsContracting := [2]
  lhsNonContracting := [1]
  rhsNonContracting := [1]
  lhsBatch := [0]
  rhsBatch := [0]
  wf := dot_S8x4096x2_S8x4096x2_S8x4096x4096_2_2_1_1_0_0_wf

class Facts : Prop extends Facts₀ where

variable [Facts]
-- ==== Proof.Word.Cases.lean ====
/-
  The grid of the tiled kernel is 8 batches × 4 row tiles × 4 column tiles, visited with the column tile fastest:
  point `t` is batch `t / 16`, row tile `(t / 4) % 4`, column tile `t % 4`.  This module decides, once over the 128
  points, what the body's five conditions say there — the row tile is the first one or a later one, the column tile
  is the first one or a later one, the point is the last of its batch — where each output block is written back, and
  where the column accumulator's slice starts.
-/
import proofs.«101472_j35115652612620_2_alg».proof.Proof.Gen.Kernel.Frame
import proofs.«101472_j35115652612620_2_alg».proof.Proof.Gen.Kernel.Skeleton

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The five conditions over the grid -/

/-- A later row tile is exactly "not the first row tile". -/
theorem laterRow_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- A later column tile is exactly "not the first column tile". -/
theorem laterCol_iff : ∀ t : Fin cfg0.N, k0_cond4 (grid0.coords t) = 1#1 ↔ ¬ k0_cond3 (grid0.coords t) = 1#1 :=
  (by decide +kernel : ∀ t : Fin grid0.N, k0_cond4 (grid0.coords t) = 1#1 ↔ ¬ k0_cond3 (grid0.coords t) = 1#1)

/-- The first row tile of a batch: the four points `16 β + m`. -/
theorem firstRow_iff : ∀ t : Fin cfg0.N, k0_cond1 (grid0.coords t) = 1#1 ↔ t.val % 16 < 4 :=
  (by decide +kernel : ∀ t : Fin grid0.N, k0_cond1 (grid0.coords t) = 1#1 ↔ t.val % 16 < 4)

/-- The first column tile of a row tile: the points divisible by 4. -/
theorem firstCol_iff : ∀ t : Fin cfg0.N, k0_cond3 (grid0.coords t) = 1#1 ↔ t.val % 4 = 0 :=
  (by decide +kernel : ∀ t : Fin grid0.N, k0_cond3 (grid0.coords t) = 1#1 ↔ t.val % 4 = 0)

/-- The last point of a batch. -/
theorem lastOfBatch_iff : ∀ t : Fin cfg0.N, k0_cond5 (grid0.coords t) = 1#1 ↔ t.val % 16 = 15 :=
  (by decide +kernel : ∀ t : Fin grid0.N, k0_cond5 (grid0.coords t) = 1#1 ↔ t.val % 16 = 15)

/-! ## Where the accumulator's slice starts: column `1024 · (t % 4)` -/

theorem sliceStart_first : ∀ t : Fin cfg0.N, k0_off1 (grid0.coords t) = ![0, 1024 * (t.val % 4)] :=
  (by decide +kernel : ∀ t : Fin grid0.N, k0_off1 (grid0.coords t) = ![0, 1024 * (t.val % 4)])

theorem sliceStart_later : ∀ t : Fin cfg0.N, k0_off2 (grid0.coords t) = ![0, 1024 * (t.val % 4)] :=
  (by decide +kernel : ∀ t : Fin grid0.N, k0_off2 (grid0.coords t) = ![0, 1024 * (t.val % 4)])

/-! ## Idle points and write-backs of the two output windows -/

/-- The inputs are never idle. -/
theorem live_in0 : ∀ t : Fin cfg0.N, cfg0.idle 0 (grid0.coords t) = false := by decide +kernel
theorem live_in1 : ∀ t : Fin cfg0.N, cfg0.idle 1 (grid0.coords t) = false := by decide +kernel
/-- The column-minimum output is stored only at the last point of a batch, and written back exactly there. -/
theorem idle_colOut : ∀ t : Fin cfg0.N, ¬ k0_cond5 (grid0.coords t) = 1#1 → cfg0.idle 2 (grid0.coords t) = true := by decide +kernel
theorem live_colOut : ∀ t : Fin cfg0.N, k0_cond5 (grid0.coords t) = 1#1 → cfg0.idle 2 (grid0.coords t) = false := by decide +kernel
theorem noFlush_colOut : ∀ t : Fin cfg0.N, ¬ k0_cond5 (grid0.coords t) = 1#1 → (cfg0.win 2).flush t = false := by decide +kernel
/-- The row-minimum output is stored at every point. -/
theorem live_rowOut : ∀ t : Fin cfg0.N, cfg0.idle 3 (grid0.coords t) = false := by decide +kernel
/-- Neither output window is ever fetched. -/
theorem noFetch_rowOut : ∀ t : Fin cfg0.N, (cfg0.win 3).fetch t = false := by decide +kernel
/-- Between two column tiles of one row tile the row-minimum block is not written back. -/
theorem noFlush_rowOut_prev : ∀ t : Fin cfg0.N, ¬ k0_cond3 (grid0.coords t) = 1#1 →
    ∀ h : t.val - 1 < cfg0.N, (cfg0.win 3).flush ⟨t.val - 1, h⟩ = false := by decide +kernel
theorem pos_of_laterCol : ∀ t : Fin cfg0.N, ¬ k0_cond3 (grid0.coords t) = 1#1 → t.val ≠ 0 := by decide +kernel

/-! ## The staging memrefs at a point, and the scratch -/

abbrev mA (t : Fin cfg0.N) : Memref sig .tc .vmem S1x1024x2 .f32 := win0_0.stage (cfg0.slots t 0)
abbrev hA (t : Fin cfg0.N) : (mA t).IsWhole := hstage0_0 ((cfg0.slots t 0).cast nbuf0_0)
abbrev mB (t : Fin cfg0.N) : Memref sig .tc .vmem S1x2x1024 .f32 := win0_1.stage (cfg0.slots t 1)
abbrev hB (t : Fin cfg0.N) : (mB t).IsWhole := hstage0_1 ((cfg0.slots t 1).cast nbuf0_1)
abbrev mC (t : Fin cfg0.N) : Memref sig .tc .vmem S1x1x4096 .f32 := win0_2.stage (cfg0.slots t 2)
abbrev hC (t : Fin cfg0.N) : (mC t).IsWhole := hstage0_2 ((cfg0.slots t 2).cast nbuf0_2)
abbrev mR (t : Fin cfg0.N) : Memref sig .tc .vmem S1x1x1024 .f32 := win0_3.stage (cfg0.slots t 3)
abbrev hR (t : Fin cfg0.N) : (mR t).IsWhole := hstage0_3 ((cfg0.slots t 3).cast nbuf0_3)
/-- The column accumulator: a whole scoped buffer of the kernel's own. -/
abbrev mS : Memref sig .tc .vmem S1x4096 .f32 := Memref.whole cc0_scratch0
abbrev hS : (mS : Memref sig .tc .vmem S1x4096 .f32).IsWhole := Memref.isWhole_whole _

/-- What the region is handed besides its windows: the accumulator at some contents and the generator register. -/
theorem regionRest_eq (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.Kernel.Tile

end
-- ==== Proof.Word.RunFirstFirst.lean ====
/-
  The body at the first column tile of a batch's first row tile: the accumulator's slice and the row-minimum block are both stored fresh, the column-minimum block is left alone.
-/
import proofs.«101472_j35115652612620_2_alg».proof.Proof.Word.Cases

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def runFF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : k0_cond1 i = 1#1) (h2 : ¬ k0_cond2 i = 1#1) (h3 : k0_cond3 i = 1#1) (h4 : ¬ k0_cond4 i = 1#1) (h5 : ¬ k0_cond5 i = 1#1)
    (xa : Vec F S1x1024x2 .f32) (xb : Vec F S1x2x1024 .f32)  (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ (∃ d, owns (c : Thread nD τ) arg6 fullShare d) ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%dr, %fr, -, HR⟩, ⟨%fs, %hfs, HS⟩, Hk⟩
    obtain rfl := harg3.eq_unread hfa; obtain rfl := harg4.eq_unread hfb; obtain rfl := harg5.eq_unread hfc; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.Kernel.Tile

end
-- ==== Proof.Word.RunFirstLater.lean ====
/-
  The body at a later column tile of a batch's first row tile: the accumulator's slice is stored fresh, the row-minimum block is lowered by this tile's row minima.
-/
import proofs.«101472_j35115652612620_2_alg».proof.Proof.Word.RunFirstFirst

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def runFL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : k0_cond1 i = 1#1) (h2 : ¬ k0_cond2 i = 1#1) (h3 : ¬ k0_cond3 i = 1#1) (h4 : k0_cond4 i = 1#1) (h5 : ¬ k0_cond5 i = 1#1)
    (xa : Vec F S1x1024x2 .f32) (xb : Vec F S1x2x1024 .f32) (xr : Vec F S1x1x1024 .f32) (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ owns (c : Thread nD τ) arg6 fullShare xr ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%fr, %hfr, HR⟩, ⟨%fs, %hfs, HS⟩, Hk⟩
    obtain rfl := harg3.eq_unread hfa; obtain rfl := harg4.eq_unread hfb; obtain rfl := harg5.eq_unread hfc; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.Kernel.Tile

end
-- ==== Proof.Word.RunLaterFirst.lean ====
/-
  The body at the first column tile of a later row tile: the accumulator's slice is lowered by this tile's column minima, the row-minimum block is stored fresh.
-/
import proofs.«101472_j35115652612620_2_alg».proof.Proof.Word.RunFirstLater

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def runLF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : k0_cond3 i = 1#1) (h4 : ¬ k0_cond4 i = 1#1) (h5 : ¬ k0_cond5 i = 1#1)
    (xa : Vec F S1x1024x2 .f32) (xb : Vec F S1x2x1024 .f32)  (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ (∃ d, owns (c : Thread nD τ) arg6 fullShare d) ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%dr, %fr, -, HR⟩, ⟨%fs, %hfs, HS⟩, Hk⟩
    obtain rfl := harg3.eq_unread hfa; obtain rfl := harg4.eq_unread hfb; obtain rfl := harg5.eq_unread hfc; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.Kernel.Tile

end
-- ==== Proof.Word.RunLaterLater.lean ====
/-
  The body at a later column tile of a later row tile, not the batch's last point: both running minima are lowered.
-/
import proofs.«101472_j35115652612620_2_alg».proof.Proof.Word.RunLaterFirst

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def runLL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : ¬ k0_cond3 i = 1#1) (h4 : k0_cond4 i = 1#1) (h5 : ¬ k0_cond5 i = 1#1)
    (xa : Vec F S1x1024x2 .f32) (xb : Vec F S1x2x1024 .f32) (xr : Vec F S1x1x1024 .f32) (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ owns (c : Thread nD τ) arg6 fullShare xr ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%fr, %hfr, HR⟩, ⟨%fs, %hfs, HS⟩, Hk⟩
    obtain rfl := harg3.eq_unread hfa; obtain rfl := harg4.eq_unread hfb; obtain rfl := harg5.eq_unread hfc; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.Kernel.Tile

end
-- ==== Proof.Word.RunLast.lean ====
/-
  The body at the last point of a batch: both running minima are lowered, then the whole accumulator is copied into the column-minimum block.
-/
import proofs.«101472_j35115652612620_2_alg».proof.Proof.Word.RunLaterLater

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
noncomputable def runLast (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : ¬ k0_cond3 i = 1#1) (h4 : k0_cond4 i = 1#1) (h5 : k0_cond5 i = 1#1)
    (xa : Vec F S1x1024x2 .f32) (xb : Vec F S1x2x1024 .f32) (xr : Vec F S1x1x1024 .f32) (xs : Vec F S1x4096 .f32) :
    Σ' (LC : List (View.Piece (Elt F) S1x1x4096 .f32)) (LR : List (View.Piece (Elt F) S1x1x1024 .f32)), { LS : List (View.Piece (Elt F) S1x4096 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xr ∗ owns (c : Thread nD τ) arg7 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LC)
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%dc, %fc, -, HC⟩, ⟨%fr, %hfr, HR⟩, ⟨%fs, %hfs, HS⟩, Hk⟩
    obtain rfl := harg3.eq_unread hfa; obtain rfl := harg4.eq_unread hfb; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]; · iexists _; iexact HC
    isplitl [HR]; · iexists _; iexact HR
    iexact HS

end Cert.Kernel.Tile

end
-- ==== Proof.Word.Leaves.lean ====
/-
  What the body leaves behind, case by case, read back as plain values.  The row-minimum block is stored whole at
  every point: fresh (this tile's row minima) at the first column tile, lowered by them at a later one.  The column
  accumulator is a row of 4096 entries of which one point rewrites only the 1024 of its own column tile: fresh at a
  batch's first row tile, lowered at a later one; the other 3072 entries keep what they held.  At the last point
  of a batch the whole accumulator is copied into the column-minimum block.
-/
import proofs.«101472_j35115652612620_2_alg».proof.Proof.Word.RunLast
import Idealize.ShloMosaic.Lib.Pipeline.Value
import Idealize.ShloMosaic.Lib.WritesUnit

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl

/-- A load of a whole staging buffer reads its contents. -/
theorem loadA {arg3 : Memref sig .tc .vmem S1x1024x2 .f32} (harg3 : arg3.IsWhole) (xa : Vec F S1x1024x2 .f32) :
    View.readAt (Elt F) arg3.view (Rect.unit (s := S1x1024x2) ![0, 0, 0] S1x1024x2.size inb_S1x1024x2_S1x1024x2_0_0_0).toLoadRect (harg3.unread xa) = xa := by
  rw [View.readAt_eq_ld, harg3.read_unread]; exact View.ld_unit_zero (S := S1x1024x2) zero3 _ xa
theorem loadB {arg4 : Memref sig .tc .vmem S1x2x1024 .f32} (harg4 : arg4.IsWhole) (xb : Vec F S1x2x1024 .f32) :
    View.readAt (Elt F) arg4.view (Rect.unit (s := S1x2x1024) ![0, 0, 0] S1x2x1024.size inb_S1x2x1024_S1x2x1024_0_0_0).toLoadRect (harg4.unread xb) = xb := by
  rw [View.readAt_eq_ld, harg4.read_unread]; exact View.ld_unit_zero (S := S1x2x1024) zero3 _ xb
theorem loadR {arg6 : Memref sig .tc .vmem S1x1x1024 .f32} (harg6 : arg6.IsWhole) (xr : Vec F S1x1x1024 .f32) :
    View.readAt (Elt F) arg6.view (Rect.unit (s := S1x1x1024) ![0, 0, 0] S1x1x1024.size inb_S1x1x1024_S1x1x1024_0_0_0).toLoadRect (harg6.unread xr) = xr := by
  rw [View.readAt_eq_ld, harg6.read_unread]; exact View.ld_unit_zero (S := S1x1x1024) zero3 _ xr

/-- One whole-block store leaves its payload, whatever the buffer held. -/
theorem wholeStoreR {arg6 : Memref sig .tc .vmem S1x1x1024 .f32} (f : arg6.view.ty.Contents (Elt F)) (w : Vec F S1x1x1024 .f32) :
    arg6.view.read (Elt F) (arg6.view.writes (Elt F) f [(⟨Rect.unit (s := S1x1x1024) ![0, 0, 0] S1x1x1024.size inb_S1x1x1024_S1x1x1024_0_0_0, w⟩ : View.Piece (Elt F) S1x1x1024 .f32)]) = w := by
  funext y
  exact View.read_writes_cons_unit_of_mem arg6.view f inb_S1x1x1024_S1x1x1024_0_0_0 w [] y y zero3 (fun a => (Nat.zero_add _).symm)
theorem wholeStoreC {arg5 : Memref sig .tc .vmem S1x1x4096 .f32} (f : arg5.view.ty.Contents (Elt F)) (w : Vec F S1x1x4096 .f32) :
    arg5.view.read (Elt F) (arg5.view.writes (Elt F) f [(⟨Rect.unit (s := S1x1x4096) ![0, 0, 0] S1x1x4096.size inb_S1x1x4096_S1x1x4096_0_0_0, w⟩ : View.Piece (Elt F) S1x1x4096 .f32)]) = w := by
  funext y
  exact View.read_writes_cons_unit_of_mem arg5.view f inb_S1x1x4096_S1x1x4096_0_0_0 w [] y y zero3 (fun a => (Nat.zero_add _).symm)

section
variable (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (xa : Vec F S1x1024x2 .f32) (xb : Vec F S1x2x1024 .f32) (xr : Vec F S1x1x1024 .f32) (xs : Vec F S1x4096 .f32)

theorem rowPieces_FF (h1 : k0_cond1 i = 1#1) (h2 : ¬ k0_cond2 i = 1#1) (h3 : k0_cond3 i = 1#1) (h4 : ¬ k0_cond4 i = 1#1) (h5 : ¬ k0_cond5 i = 1#1) :
    (runFF c i arg3 harg3 arg4 harg4 arg5 harg5 arg6 harg6 arg7 harg7 h1 h2 h3 h4 h5 xa xb xs).1
      = [⟨Rect.unit (s := S1x1x1024) ![0, 0, 0] S1x1x1024.size inb_S1x1x1024_S1x1x1024_0_0_0, k0_pay7 xa xb⟩] := by
  unfold runFF; dsimp only; rw [loadA harg3 xa, loadB harg4 xb]
theorem accPieces_FF (h1 : k0_cond1 i = 1#1) (h2 : ¬ k0_cond2 i = 1#1) (h3 : k0_cond3 i = 1#1) (h4 : ¬ k0_cond4 i = 1#1) (h5 : ¬ k0_cond5 i = 1#1) :
    (runFF c i arg3 harg3 arg4 harg4 arg5 harg5 arg6 harg6 arg7 harg7 h1 h2 h3 h4 h5 xa xb xs).2.1
      = [⟨Rect.unit (s := S1x4096) (k0_off1 i) S1x1024.size (k0_off1_inb i h1), k0_pay5 xa xb⟩] := by
  unfold runFF; dsimp only; rw [loadA harg3 xa, loadB harg4 xb]

theorem rowPieces_FL (h1 : k0_cond1 i = 1#1) (h2 : ¬ k0_cond2 i = 1#1) (h3 : ¬ k0_cond3 i = 1#1) (h4 : k0_cond4 i = 1#1) (h5 : ¬ k0_cond5 i = 1#1) :
    (runFL c i arg3 harg3 arg4 harg4 arg5 harg5 arg6 harg6 arg7 harg7 h1 h2 h3 h4 h5 xa xb xr xs).1
      = [⟨Rect.unit (s := S1x1x1024) ![0, 0, 0] S1x1x1024.size inb_S1x1x1024_S1x1x1024_0_0_0, k0_pay8 xa xb xr⟩] := by
  unfold runFL; dsimp only; rw [loadA harg3 xa, loadB harg4 xb, loadR harg6 xr]
theorem accPieces_FL (h1 : k0_cond1 i = 1#1) (h2 : ¬ k0_cond2 i = 1#1) (h3 : ¬ k0_cond3 i = 1#1) (h4 : k0_cond4 i = 1#1) (h5 : ¬ k0_cond5 i = 1#1) :
    (runFL c i arg3 harg3 arg4 harg4 arg5 harg5 arg6 harg6 arg7 harg7 h1 h2 h3 h4 h5 xa xb xr xs).2.1
      = [⟨Rect.unit (s := S1x4096) (k0_off1 i) S1x1024.size (k0_off1_inb i h1), k0_pay5 xa xb⟩] := by
  unfold runFL; dsimp only; rw [loadA harg3 xa, loadB harg4 xb]

theorem rowPieces_LF (h1 : ¬ k0_cond1 i = 1#1) (h2 : k0_cond2 i = 1#1) (h3 : k0_cond3 i = 1#1) (h4 : ¬ k0_cond4 i = 1#1) (h5 : ¬ k0_cond5 i = 1#1) :
    (runLF c i arg3 harg3 arg4 harg4 arg5 harg5 arg6 harg6 arg7 harg7 h1 h2 h3 h4 h5 xa xb xs).1
      = [⟨Rect.unit (s := S1x1x1024) ![0, 0, 0] S1x1x1024.size inb_S1x1x1024_S1x1x1024_0_0_0, k0_pay7 xa xb⟩] := by
  unfold runLF; dsimp only; rw [loadA harg3 xa, loadB harg4 xb]
theorem accPieces_LF (h1 : ¬ k0_cond1 i = 1#1) (h2 : k0_cond2 i = 1#1) (h3 : k0_cond3 i = 1#1) (h4 : ¬ k0_cond4 i = 1#1) (h5 : ¬ k0_cond5 i = 1#1) :
    (runLF c i arg3 harg3 arg4 harg4 arg5 harg5 arg6 harg6 arg7 harg7 h1 h2 h3 h4 h5 xa xb xs).2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLF; dsimp only; rw [loadA harg3 xa, loadB harg4 xb, View.readAt_eq_ld, harg7.read_unread]

theorem rowPieces_LL (h1 : ¬ k0_cond1 i = 1#1) (h2 : k0_cond2 i = 1#1) (h3 : ¬ k0_cond3 i = 1#1) (h4 : k0_cond4 i = 1#1) (h5 : ¬ k0_cond5 i = 1#1) :
    (runLL c i arg3 harg3 arg4 harg4 arg5 harg5 arg6 harg6 arg7 harg7 h1 h2 h3 h4 h5 xa xb xr xs).1
      = [⟨Rect.unit (s := S1x1x1024) ![0, 0, 0] S1x1x1024.size inb_S1x1x1024_S1x1x1024_0_0_0, k0_pay8 xa xb xr⟩] := by
  unfold runLL; dsimp only; rw [loadA harg3 xa, loadB harg4 xb, loadR harg6 xr]
theorem accPieces_LL (h1 : ¬ k0_cond1 i = 1#1) (h2 : k0_cond2 i = 1#1) (h3 : ¬ k0_cond3 i = 1#1) (h4 : k0_cond4 i = 1#1) (h5 : ¬ k0_cond5 i = 1#1) :
    (runLL c i arg3 harg3 arg4 harg4 arg5 harg5 arg6 harg6 arg7 harg7 h1 h2 h3 h4 h5 xa xb xr xs).2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLL; dsimp only; rw [loadA harg3 xa, loadB harg4 xb, View.readAt_eq_ld, harg7.read_unread]

theorem rowPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).2.1
      = [⟨Rect.unit (s := S1x1x1024) ![0, 0, 0] S1x1x1024.size inb_S1x1x1024_S1x1x1024_0_0_0, k0_pay8 xa xb xr⟩] := by
  unfold runLast; dsimp only; rw [loadA harg3 xa, loadB harg4 xb, loadR harg6 xr]
theorem accPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).2.2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLast; dsimp only; sl_unfold_run_names; rw [loadA harg3 xa, loadB harg4 xb, View.readAt_eq_ld, harg7.read_unread]
theorem colPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).1
      = [⟨Rect.unit (s := S1x1x4096) ![0, 0, 0] S1x1x4096.size inb_S1x1x4096_S1x1x4096_0_0_0,
          k0_pay1 (arg7.view.read (Elt F) (arg7.view.writes (Elt F) (harg7.unread xs)
            [⟨Rect.unit (s := S1x4096) (k0_off2 i) S1x1024.size (k0_off2_inb i h2),
              k0_pay6 xa xb (View.ld xs (Rect.unit (s := S1x4096) (k0_off2 i) S1x1024.size (k0_off2_inb i h2)))⟩]))⟩] := by
  unfold runLast; dsimp only; sl_unfold_run_names
  rw [loadA harg3 xa, loadB harg4 xb]
  simp only [View.readAt_eq_ld, harg7.read_unread]
  rw [View.ld_unit_zero (S := S1x4096) zero2]
end

end Cert.Kernel.Tile

end
-- ==== Proof.Word.Quarters.lean ====
/-
  A row of 4096 entries as four consecutive quarters of 1024.  Storing 1024 entries at the start of one quarter
  replaces that quarter and keeps the other three; a row is determined by its four quarters.
-/
import proofs.«101472_j35115652612620_2_alg».proof.Proof.Word.Leaves
import Idealize.ShloMosaic.Lib.ValueIdx

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open ValueIdx

variable {F : FTy → Type} [FloatOps F]

local notation "𝕄" => MT nD τ sig Unit (Elt F) ℕ (UR sig nD τ) ℕ

theorem quarter_inb (q : Fin 4) : ∀ a : Fin 2, (![0, 1024 * q.val] : Fin 2 → ℕ) a + S1x1024.size a ≤ S1x4096.size a := by
  intro a; fin_cases a
  · show 0 + 1 ≤ 1; omega
  · show 1024 * q.val + 1024 ≤ 4096; have := q.isLt; omega

/-- Quarter `q` of the row: columns `1024 q … 1024 q + 1023`. -/
abbrev quarter (q : Fin 4) : Rect S1x4096 := Rect.unit (s := S1x4096) ![0, 1024 * q.val] S1x1024.size (quarter_inb q)

theorem unit_congr {off off' : Fin 2 → ℕ} (h : off = off') (inb : ∀ a, off a + S1x1024.size a ≤ S1x4096.size a)
    (inb' : ∀ a, off' a + S1x1024.size a ≤ S1x4096.size a) :
    Rect.unit (s := S1x4096) off S1x1024.size inb = Rect.unit (s := S1x4096) off' S1x1024.size inb' := by
  subst h; rfl

section
variable {arg7 : Memref sig .tc .vmem S1x4096 .f32} (f : arg7.view.ty.Contents (Elt F))

/-- The quarter just stored reads the stored values. -/
theorem quarter_hit {off : Fin 2 → ℕ} (inb : ∀ a, off a + S1x1024.size a ≤ S1x4096.size a) (w : Vec F S1x1024 .f32)
    (q : Fin 4) (h : off = ![0, 1024 * q.val]) :
    View.ld (arg7.view.read (Elt F) (arg7.view.writes (Elt F) f [(⟨Rect.unit (s := S1x4096) off S1x1024.size inb, w⟩ : View.Piece (Elt F) S1x4096 .f32)])) (quarter q) = w := by
  funext x
  exact View.read_writes_cons_unit_of_mem arg7.view f inb w [] ((quarter q).idx x) x h
    (fun a => by show (![0, 1024 * q.val] : Fin 2 → ℕ) a + 1 * (x a).val = _; rw [Nat.one_mul])

/-- Another quarter keeps what it held. -/
theorem quarter_miss {off : Fin 2 → ℕ} (inb : ∀ a, off a + S1x1024.size a ≤ S1x4096.size a) (w : Vec F S1x1024 .f32)
    (q q' : Fin 4) (h : off = ![0, 1024 * q.val]) (hne : q' ≠ q) :
    View.ld (arg7.view.read (Elt F) (arg7.view.writes (Elt F) f [(⟨Rect.unit (s := S1x4096) off S1x1024.size inb, w⟩ : View.Piece (Elt F) S1x4096 .f32)])) (quarter q')
      = View.ld (arg7.view.read (Elt F) f) (quarter q') := by
  funext x
  refine View.read_writes_cons_unit_of_not_mem arg7.view f inb w [] ((quarter q').idx x) h 1 ?_
  have hx : (x 1).val < 1024 := (x 1).isLt
  have hv : (((quarter q').idx x) 1).val = 1024 * q'.val + 1 * (x 1).val := rfl
  have hq : q'.val ≠ q.val := fun e => hne (Fin.ext e)
  show _ < 1024 * q.val ∨ 1024 * q.val + 1024 ≤ _
  rw [hv]; omega
end

/-- A row is determined by its four quarters. -/
theorem row_ext (d d' : Vec F S1x4096 .f32) (h : ∀ q : Fin 4, View.ld d (quarter q) = View.ld d' (quarter q)) : d = d' := by
  funext y
  have hy : (y 1).val < 4096 := (y 1).isLt
  let q : Fin 4 := ⟨(y 1).val / 1024, by omega⟩
  let x : S1x1024.Idx := ix2 (0 : Fin 1) (⟨(y 1).val % 1024, Nat.mod_lt _ (by norm_num)⟩ : Fin 1024)
  have e : (quarter q).idx x = y := by
    funext a; apply Fin.ext
    fin_cases a
    · show 0 + 1 * 0 = (y 0).val; have h0 : (y 0).val < 1 := (y 0).isLt; omega
    · show 1024 * ((y 1).val / 1024) + 1 * ((y 1).val % 1024) = (y 1).val; omega
  have := congrFun (h q) x
  show d y = d' y
  rw [← e]; exact this

end Cert.Kernel.Tile

end
-- ==== Proof.Word.Tracked.lean ====
/-
  What the kernel's buffers hold after each grid point, as functions of the two input arrays.  Point `t` works on
  batch `t / 16`, row tile `(t % 16) / 4`, column tile `t % 4`.  The row-minimum block after point `t` is the
  minimum, over the column tiles visited so far in its row tile, of the tiles' row minima.  Quarter `q` of the
  column accumulator holds, once the batch has reached column tile `q`, the minimum over the row tiles that have
  visited that column tile so far of the tiles' column minima; after the last point of a batch every quarter has
  seen all four row tiles.
-/
import proofs.«101472_j35115652612620_2_alg».proof.Proof.Word.Quarters

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open ValueIdx

variable {F : FTy → Type} [FloatOps F]

local notation "𝕄" => MT nD τ sig Unit (Elt F) ℕ (UR sig nD τ) ℕ

variable (m : (ℓ : Loc nD τ sig) → Buf (Elt F) ℓ)

/-- The grid point numbered `x` (read modulo 128, so that every number names one). -/
def pt (x : ℕ) : Fin cfg0.N := ⟨x % 128, by show _ < grid0.N; rw [N_0]; exact Nat.mod_lt _ (by norm_num)⟩

theorem lt_128 (t : Fin cfg0.N) : t.val < 128 := by have h := t.isLt; rw [← N_0]; exact h

theorem pt_val (t : Fin cfg0.N) : pt t.val = t := Fin.ext (Nat.mod_eq_of_lt (lt_128 t))

/-- The block of 1024 points of the first cloud the point works on, and the block of the second cloud. -/
abbrev blkA (c : Dev nD) (t : Fin cfg0.N) : Vec F S1x1024x2 .f32 := iblk m c 0 t
abbrev blkB (c : Dev nD) (t : Fin cfg0.N) : Vec F S1x2x1024 .f32 := iblk m c 1 t

/-- Column tile `q` of batch `β`: the running column minima after row tiles `0 … k`. -/
def colRun (c : Dev nD) (β q : ℕ) : ℕ → Vec F S1x1024 .f32
  | 0 => k0_pay5 (blkA m c (pt (16 * β + q))) (blkB m c (pt (16 * β + q)))
  | k + 1 => k0_pay6 (blkA m c (pt (16 * β + 4 * (k + 1) + q))) (blkB m c (pt (16 * β + 4 * (k + 1) + q))) (colRun c β q k)

/-- The row-minimum block after point `n`. -/
def rowAt (c : Dev nD) : ℕ → Vec F S1x1x1024 .f32
  | 0 => k0_pay7 (blkA m c (pt 0)) (blkB m c (pt 0))
  | n + 1 => if (n + 1) % 4 = 0 then k0_pay7 (blkA m c (pt (n + 1))) (blkB m c (pt (n + 1)))
      else k0_pay8 (blkA m c (pt (n + 1))) (blkB m c (pt (n + 1))) (rowAt c n)

/-- The whole accumulator row at the end of batch `β`. -/
def colFull (c : Dev nD) (β : ℕ) : Vec F S1x4096 .f32 := fun y =>
  colRun m c β ((y 1).val / 1024) 3 (ix2 (0 : Fin 1) (⟨(y 1).val % 1024, Nat.mod_lt _ (by norm_num)⟩ : Fin 1024))

/-- How many row tiles beyond the first have visited column tile `q` after point `t`. -/
def seen (t q : ℕ) : ℕ := if q ≤ t % 4 then t % 16 / 4 else t % 16 / 4 - 1

/-- What is known of the accumulator row `d` after point `t`: the quarters the batch has reached. -/
def Known (c : Dev nD) (t : ℕ) (d : Vec F S1x4096 .f32) : Prop :=
  ∀ q : Fin 4, q.val ≤ t % 16 → View.ld d (quarter q) = colRun m c (t / 16) q.val (seen t q.val)

theorem rowAt_first (c : Dev nD) (t : ℕ) (h : t % 4 = 0) : rowAt m c t = k0_pay7 (blkA m c (pt t)) (blkB m c (pt t)) := by
  cases t with
  | zero => rfl
  | succ n => exact if_pos h

theorem rowAt_later (c : Dev nD) (t : ℕ) (h : t % 4 ≠ 0) :
    rowAt m c t = k0_pay8 (blkA m c (pt t)) (blkB m c (pt t)) (rowAt m c (t - 1)) := by
  cases t with
  | zero => exact absurd rfl h
  | succ n => exact if_neg h

/-- Reading 1024 entries from a start spelt two ways. -/
theorem ld_start_congr (d : Vec F S1x4096 .f32) {off off' : Fin 2 → ℕ} (h : off = off')
    (inb : ∀ a, off a + S1x1024.size a ≤ S1x4096.size a) (inb' : ∀ a, off' a + S1x1024.size a ≤ S1x4096.size a) :
    (View.ld d (Rect.unit (s := S1x4096) off S1x1024.size inb) : Vec F S1x1024 .f32)
      = View.ld d (Rect.unit (s := S1x4096) off' S1x1024.size inb') := by
  subst h; rfl

section
variable {arg7 : Memref sig .tc .vmem S1x4096 .f32} (harg7 : arg7.IsWhole)

/-- A point of a batch's first row tile: its quarter is stored fresh, the quarters reached before are kept. -/
theorem known_first (c : Dev nD) (t : Fin cfg0.N) (h1 : t.val % 16 < 4) (d : Vec F S1x4096 .f32)
    (hd : t.val % 16 ≠ 0 → Known m c (t.val - 1) d)
    (inb : ∀ a, k0_off1 (grid0.coords t) a + S1x1024.size a ≤ S1x4096.size a) :
    Known m c t.val (arg7.view.read (Elt F) (arg7.view.writes (Elt F) (harg7.unread d)
      [(⟨Rect.unit (s := S1x4096) (k0_off1 (grid0.coords t)) S1x1024.size inb, k0_pay5 (blkA m c t) (blkB m c t)⟩ : View.Piece (Elt F) S1x4096 .f32)])) := by
  intro q hq
  have ht := lt_128 t
  have hql := q.isLt
  have hoff := sliceStart_first t
  by_cases hqm : q.val = t.val % 4
  · have hoff' : k0_off1 (grid0.coords t) = ![0, 1024 * q.val] := by rw [hoff, hqm]
    rw [quarter_hit _ inb _ q hoff']
    have hk : seen t.val q.val = 0 := by unfold seen; split_ifs <;> omega
    rw [hk]
    show _ = k0_pay5 (blkA m c (pt (16 * (t.val / 16) + q.val))) (blkB m c (pt (16 * (t.val / 16) + q.val)))
    have hp : pt (16 * (t.val / 16) + q.val) = t := by
      apply Fin.ext; show (16 * (t.val / 16) + q.val) % 128 = t.val; omega
    rw [hp]
  · have hq' : q ≠ (⟨t.val % 4, Nat.mod_lt _ (by norm_num)⟩ : Fin 4) := fun e => hqm (by rw [e])
    rw [quarter_miss _ inb _ (⟨t.val % 4, Nat.mod_lt _ (by norm_num)⟩ : Fin 4) q hoff hq', harg7.read_unread]
    have h0 : t.val % 16 ≠ 0 := by omega
    rw [hd h0 q (by omega)]
    have e1 : (t.val - 1) / 16 = t.val / 16 := by omega
    have e2 : seen (t.val - 1) q.val = seen t.val q.val := by unfold seen; split_ifs <;> omega
    rw [e1, e2]

/-- A point of a later row tile: its quarter is lowered by this tile's column minima, the others are kept. -/
theorem known_later (c : Dev nD) (t : Fin cfg0.N) (h2 : 4 ≤ t.val % 16) (d : Vec F S1x4096 .f32)
    (hd : Known m c (t.val - 1) d)
    (inb : ∀ a, k0_off2 (grid0.coords t) a + S1x1024.size a ≤ S1x4096.size a) :
    Known m c t.val (arg7.view.read (Elt F) (arg7.view.writes (Elt F) (harg7.unread d)
      [(⟨Rect.unit (s := S1x4096) (k0_off2 (grid0.coords t)) S1x1024.size inb,
          k0_pay6 (blkA m c t) (blkB m c t) (View.ld d (Rect.unit (s := S1x4096) (k0_off2 (grid0.coords t)) S1x1024.size inb))⟩ : View.Piece (Elt F) S1x4096 .f32)])) := by
  intro q hq
  have ht := lt_128 t
  have hql := q.isLt
  have hoff := sliceStart_later t
  by_cases hqm : q.val = t.val % 4
  · have hoff' : k0_off2 (grid0.coords t) = ![0, 1024 * q.val] := by rw [hoff, hqm]
    rw [quarter_hit _ inb _ q hoff']
    rw [ld_start_congr d hoff' inb (quarter_inb q)]
    have hprev := hd q (by omega)
    show k0_pay6 _ _ (View.ld d (quarter q)) = _
    rw [hprev]
    have e1 : (t.val - 1) / 16 = t.val / 16 := by omega
    have hk : seen t.val q.val = seen (t.val - 1) q.val + 1 := by unfold seen; split_ifs <;> omega
    rw [e1, hk]
    show _ = k0_pay6 (blkA m c (pt (16 * (t.val / 16) + 4 * (seen (t.val - 1) q.val + 1) + q.val))) (blkB m c (pt (16 * (t.val / 16) + 4 * (seen (t.val - 1) q.val + 1) + q.val))) _
    have hp : pt (16 * (t.val / 16) + 4 * (seen (t.val - 1) q.val + 1) + q.val) = t := by
      apply Fin.ext; show (16 * (t.val / 16) + 4 * (seen (t.val - 1) q.val + 1) + q.val) % 128 = t.val
      have : seen (t.val - 1) q.val + 1 = t.val % 16 / 4 := by unfold seen; split_ifs <;> omega
      rw [this]; omega
    rw [hp]
  · have hq' : q ≠ (⟨t.val % 4, Nat.mod_lt _ (by norm_num)⟩ : Fin 4) := fun e => hqm (by rw [e])
    rw [quarter_miss _ inb _ (⟨t.val % 4, Nat.mod_lt _ (by norm_num)⟩ : Fin 4) q hoff hq', harg7.read_unread]
    rw [hd q (by omega)]
    have e1 : (t.val - 1) / 16 = t.val / 16 := by omega
    have e2 : seen (t.val - 1) q.val = seen t.val q.val := by unfold seen; split_ifs <;> omega
    rw [e1, e2]
end

/-- After the last point of a batch the whole row is known. -/
theorem known_last (c : Dev nD) (t : ℕ) (h : t % 16 = 15) (d : Vec F S1x4096 .f32) (hd : Known m c t d) :
    d = colFull m c (t / 16) := by
  apply row_ext
  intro q
  have hql := q.isLt
  rw [hd q (by omega)]
  have hk : seen t q.val = 3 := by unfold seen; split_ifs <;> omega
  rw [hk]
  funext x
  have hx : (x 1).val < 1024 := (x 1).isLt
  show colRun m c (t / 16) q.val 3 x = colRun m c (t / 16) ((1024 * q.val + 1 * (x 1).val) / 1024) 3 _
  have e : (1024 * q.val + 1 * (x 1).val) / 1024 = q.val := by omega
  rw [e]
  congr 1
  funext a; apply Fin.ext
  fin_cases a
  · show (x 0).val = 0; have h0 : (x 0).val < 1 := (x 0).isLt; omega
  · show (x 1).val = (1024 * q.val + 1 * (x 1).val) % 1024; omega

end Cert.Kernel.Tile

end
-- ==== Proof.Word.Body.lean ====
/-
  The pipeline's proof data for the tiled kernel and the body's obligation at every grid point.  After point `t`
  each input's staging buffer still holds its block; the row-minimum block's buffer holds the running row minima of
  its row tile; the column-minimum block's buffer is untouched except at the last point of a batch, where it receives
  the whole column accumulator; and the accumulator, a buffer of the kernel's own that the region hands over at
  unknown contents, holds the running column minima on the quarters its batch has reached so far.
-/
import proofs.«101472_j35115652612620_2_alg».proof.Proof.Word.Tracked

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
open ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem notLast_of_firstRow : ∀ t : Fin cfg0.N, k0_cond1 (grid0.coords t) = 1#1 → ¬ k0_cond5 (grid0.coords t) = 1#1 := by decide +kernel
theorem notLast_of_firstCol : ∀ t : Fin cfg0.N, k0_cond3 (grid0.coords t) = 1#1 → ¬ k0_cond5 (grid0.coords t) = 1#1 := by decide +kernel
theorem live_rowOut_all : ∀ i : grid0.Coords, cfg0.idle 3 i = false := by decide +kernel
theorem clip_rowOut : ∀ (i : cfg0.grid.Coords) a, (cfg0.win 3).clip i a = none := by decide +kernel

/-- The region invariant before position `n`: what the launch hands over before the first point; afterwards the
    accumulator at contents known on the quarters reached (`Known`), and the generator register at some state. -/
def PhiS (c : Dev nD) : ℕ → sProp 𝕄
  | 0 => Pipeline.ΦA spec0 c
  | n + 1 => iprop(iprop(∃ d, ⌜Known m c n d⌝ ∗ owns (c : Thread nD τ) mS fullShare d) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (colFull m c (t.val / 16))
    | ⟨3, _⟩ => rowAt m c t.val
  Φ t := PhiS m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_col (c : Dev nD) (t : Fin cfg0.N) : (dats m 0 c).after 2 t = k0_pay1 (colFull m c (t.val / 16)) := by dsimp only [dats]
theorem after_row (c : Dev nD) (t : Fin cfg0.N) : (dats m 0 c).after 3 t = rowAt m c t.val := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At a later column tile the row-minimum block's buffer holds what the point before left. -/
theorem before_row (c : Dev nD) (t : Fin cfg0.N) (h3 : ¬ k0_cond3 (grid0.coords t) = 1#1) (d) :
    (dats m 0 c).before 3 t d = rowAt m c (t.val - 1) :=
  ((dats m 0 c).before_out_kept 3 rfl t (pos_of_laterCol t h3) (noFlush_rowOut_prev t h3 _) live_rowOut_all clip_rowOut d).trans
    (after_row m c _)

theorem phi_open (c : Dev nD) (t : Fin cfg0.N) :
    (dats m 0 c).Φ t.castSucc ⊢ iprop(∃ d, ⌜t.val ≠ 0 → Known m c (t.val - 1) d⌝ ∗ owns (c : Thread nD τ) mS fullShare d ∗ (∃ r, prngReg c r)) := by
  rw [show (dats m 0 c).Φ t.castSucc = PhiS m c t.val from by dsimp only [dats]; simp only [Fin.coe_castSucc]]
  rcases ht : t.val with _ | n
  · show Pipeline.ΦA spec0 c ⊢ _
    rw [regionRest_eq]
    iintro ⟨⟨%d, HS⟩, Hg⟩
    iexists d; isplitr
    · ipureintro; intro h; exact absurd rfl h
    isplitl [HS]; · iexact HS
    iexact Hg
  · show iprop(iprop(∃ d, ⌜Known m c n d⌝ ∗ owns (c : Thread nD τ) mS fullShare d) ∗ (∃ r, prngReg c r)) ⊢ _
    iintro ⟨⟨%d, %hd, HS⟩, Hg⟩
    iexists d; isplitr
    · ipureintro; intro _; exact hd
    isplitl [HS]; · iexact HS
    iexact Hg

/-- What the body is called with at point `t`, the accumulator's contents named, -/
def bodyPre (c : Dev nD) (t : Fin cfg0.N) : sProp 𝕄 :=
  iprop(iprop(∃ d, ⌜t.val ≠ 0 → Known m c (t.val - 1) d⌝ ∗ owns (c : Thread nD τ) mS fullShare d ∗ (∃ r, prngReg c r))
    ∗ (dats m 0 c).owesAt () t.castSucc
    ∗ (∃ d, owns (c : Thread nD τ) (mA t) fullShare ((dats m 0 c).before 0 t d))
    ∗ (∃ d, owns (c : Thread nD τ) (mB t) fullShare ((dats m 0 c).before 1 t d))
    ∗ (∃ d, owns (c : Thread nD τ) (mC t) fullShare ((dats m 0 c).before 2 t d))
    ∗ (∃ d, owns (c : Thread nD τ) (mR t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = iprop(iprop(∃ d, ⌜Known m c t.val d⌝ ∗ owns (c : Thread nD τ) mS fullShare d) ∗ (∃ r, prngReg c r)) from rfl]
  rw [show (dats m 0 c).leavesExact 0 t = owns (c : Thread nD τ) (mA t) fullShare ((dats m 0 c).after 0 t) from by
    unfold Dat.leavesExact; rw [live_in0 t], after_in0]
  rw [show (dats m 0 c).leavesExact 1 t = owns (c : Thread nD τ) (mB t) fullShare ((dats m 0 c).after 1 t) from by
    unfold Dat.leavesExact; rw [live_in1 t], after_in1]
  rw [show (dats m 0 c).leavesExact 3 t = owns (c : Thread nD τ) (mR t) fullShare ((dats m 0 c).after 3 t) from by
    unfold Dat.leavesExact; rw [live_rowOut t], after_row]
  have ht := lt_128 t
  by_cases h1 : k0_cond1 (grid0.coords t) = 1#1
  · have h2 : ¬ k0_cond2 (grid0.coords t) = 1#1 := fun h => ((laterRow_iff t).mp h) h1
    have h5 : ¬ k0_cond5 (grid0.coords t) = 1#1 := notLast_of_firstRow t h1
    have hr := (firstRow_iff t).mp h1
    rw [Dat.leavesExact_idle (dats m 0 c) 2 t (idle_colOut t h5) (noFlush_colOut t h5)]
    by_cases h3 : k0_cond3 (grid0.coords t) = 1#1
    · have h4 : ¬ k0_cond4 (grid0.coords t) = 1#1 := fun h => ((laterCol_iff t).mp h) h3
      rw [rowAt_first m c t.val ((firstCol_iff t).mp h3), pt_val]
      iintro ⟨⟨%d0, %hd0, HS, Hg⟩, Ho, ⟨%da, HA⟩, ⟨%db, HB⟩, ⟨%dc, HC⟩, ⟨%dr, HR⟩⟩
      iapply ((runFF c (grid0.coords t) _ _ _ _ _ _ _ _ _ _ h1 h2 h3 h4 h5 (blkA m c t) (blkB m c t) d0).2.2 _ Set.univ _)
      isplitl [HA]; · iexact HA
      isplitl [HB]; · iexact HB
      isplitl [HC]; · iexact HC
      isplitl [HR]; · iexists _; iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_FF]
          exact known_first m hS c t hr d0 (fun h => hd0 (by omega)) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_FF]; exact wholeStoreR _ _
    · have h4 : k0_cond4 (grid0.coords t) = 1#1 := (laterCol_iff t).mpr h3
      rw [rowAt_later m c t.val (fun h => h3 ((firstCol_iff t).mpr h)), pt_val]
      simp only [before_row m c t h3]
      iintro ⟨⟨%d0, %hd0, HS, Hg⟩, Ho, ⟨%da, HA⟩, ⟨%db, HB⟩, ⟨%dc, HC⟩, ⟨%dr, HR⟩⟩
      iapply ((runFL c (grid0.coords t) _ _ _ _ _ _ _ _ _ _ h1 h2 h3 h4 h5 (blkA m c t) (blkB m c t) (rowAt m c (t.val - 1)) d0).2.2 _ Set.univ _)
      isplitl [HA]; · iexact HA
      isplitl [HB]; · iexact HB
      isplitl [HC]; · iexact HC
      isplitl [HR]; · iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_FL]
          exact known_first m hS c t hr d0 (fun h => hd0 (by omega)) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_FL]; exact wholeStoreR _ _
  · have h2 : k0_cond2 (grid0.coords t) = 1#1 := (laterRow_iff t).mpr h1
    have hr : 4 ≤ t.val % 16 := by have := (firstRow_iff t).not.mp h1; omega
    have hz : t.val ≠ 0 := by omega
    by_cases h3 : k0_cond3 (grid0.coords t) = 1#1
    · have h4 : ¬ k0_cond4 (grid0.coords t) = 1#1 := fun h => ((laterCol_iff t).mp h) h3
      have h5 : ¬ k0_cond5 (grid0.coords t) = 1#1 := notLast_of_firstCol t h3
      rw [Dat.leavesExact_idle (dats m 0 c) 2 t (idle_colOut t h5) (noFlush_colOut t h5)]
      rw [rowAt_first m c t.val ((firstCol_iff t).mp h3), pt_val]
      iintro ⟨⟨%d0, %hd0, HS, Hg⟩, Ho, ⟨%da, HA⟩, ⟨%db, HB⟩, ⟨%dc, HC⟩, ⟨%dr, HR⟩⟩
      iapply ((runLF c (grid0.coords t) _ _ _ _ _ _ _ _ _ _ h1 h2 h3 h4 h5 (blkA m c t) (blkB m c t) d0).2.2 _ Set.univ _)
      isplitl [HA]; · iexact HA
      isplitl [HB]; · iexact HB
      isplitl [HC]; · iexact HC
      isplitl [HR]; · iexists _; iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_LF]
          exact known_later m hS c t hr d0 (hd0 hz) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_LF]; exact wholeStoreR _ _
    · have h4 : k0_cond4 (grid0.coords t) = 1#1 := (laterCol_iff t).mpr h3
      rw [rowAt_later m c t.val (fun h => h3 ((firstCol_iff t).mpr h)), pt_val]
      simp only [before_row m c t h3]
      by_cases h5 : k0_cond5 (grid0.coords t) = 1#1
      · rw [show (dats m 0 c).leavesExact 2 t = owns (c : Thread nD τ) (mC t) fullShare ((dats m 0 c).after 2 t) from by
          unfold Dat.leavesExact; rw [live_colOut t h5], after_col]
        iintro ⟨⟨%d0, %hd0, HS, Hg⟩, Ho, ⟨%da, HA⟩, ⟨%db, HB⟩, ⟨%dc, HC⟩, ⟨%dr, HR⟩⟩
        iapply ((runLast c (grid0.coords t) _ _ _ _ _ _ _ _ _ _ h1 h2 h3 h4 h5 (blkA m c t) (blkB m c t) (rowAt m c (t.val - 1)) d0).2.2.2 Set.univ _)
        isplitl [HA]; · iexact HA
        isplitl [HB]; · iexact HB
        isplitl [HC]; · iexists _; iexact HC
        isplitl [HR]; · iexact HR
        isplitl [HS]; · iexact HS
        iintro ⟨HA, HB, ⟨%fc, HC⟩, ⟨%fr, HR⟩, HS⟩
        have hk := known_later m hS c t hr d0 (hd0 hz) (k0_off2_inb (grid0.coords t) h2)
        isplitl [HS Hg]
        · isplitl [HS]
          · iexists _; isplitr
            swap
            · unfold owns; iexists _; isplitr
              swap; · iexact HS
              ipureintro; rfl
            ipureintro; rw [accPieces_Last]; exact hk
          iexact Hg
        isplitl [Ho]; · iexact Ho
        isplitl [HA]; · iexact HA
        isplitl [HB]; · iexact HB
        isplitl [HC]
        · unfold owns; iexists _; isplitr
          swap; · iexact HC
          ipureintro; rw [colPieces_Last, wholeStoreC]
          exact congrArg k0_pay1 (known_last m c t.val ((lastOfBatch_iff t).mp h5) _ hk)
        unfold owns; iexists _; isplitr
        swap; · iexact HR
        ipureintro; rw [rowPieces_Last]; exact wholeStoreR _ _
      · rw [Dat.leavesExact_idle (dats m 0 c) 2 t (idle_colOut t h5) (noFlush_colOut t h5)]
        iintro ⟨⟨%d0, %hd0, HS, Hg⟩, Ho, ⟨%da, HA⟩, ⟨%db, HB⟩, ⟨%dc, HC⟩, ⟨%dr, HR⟩⟩
        iapply ((runLL c (grid0.coords t) _ _ _ _ _ _ _ _ _ _ h1 h2 h3 h4 h5 (blkA m c t) (blkB m c t) (rowAt m c (t.val - 1)) d0).2.2 _ Set.univ _)
        isplitl [HA]; · iexact HA
        isplitl [HB]; · iexact HB
        isplitl [HC]; · iexact HC
        isplitl [HR]; · iexact HR
        isplitl [HS]; · iexact HS
        iintro ⟨HA, HB, HC, ⟨%fr, HR⟩, HS⟩
        isplitl [HS Hg]
        · isplitl [HS]
          · iexists _; isplitr
            swap
            · unfold owns; iexists _; isplitr
              swap; · iexact HS
              ipureintro; rfl
            ipureintro; rw [accPieces_LL]
            exact known_later m hS c t hr d0 (hd0 hz) _
          iexact Hg
        isplitl [Ho]; · iexact Ho
        isplitl [HA]; · iexact HA
        isplitl [HB]; · iexact HB
        isplitl [HC]; · iexists _; iexact HC
        unfold owns; iexists _; isplitr
        swap; · iexact HR
        ipureintro; rw [rowPieces_LL]; exact wholeStoreR _ _

/-- The library's body obligation, at every point. -/
theorem body_obligation (c : Dev nD) : BodyObligation (dats (F := F) m 0 c) (defs₀ (F := F)) Variants.none () Set.univ := fun t => by
  rw [bigSep_W0, bigSep_W0]
  exact (Idealize.SL.BI.sep_mono_l (phi_open m c t)).trans (sound_body m c t)

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (127 + 1) from by
    dsimp only [dats]; rw [Fin.val_last]; congr 1]
  show iprop(iprop(∃ d, ⌜Known m c 127 d⌝ ∗ owns (c : Thread nD τ) mS fullShare d) ∗ (∃ r, prngReg c r)) ⊢ _
  rw [regionRest_eq]
  iintro ⟨⟨%d, %hd, HS⟩, Hg⟩
  isplitl [HS]
  · iexists _; iexact HS
  iexact Hg

set_option backward.isDefEq.respectTransparency.types false in
/-- Every weakly fair execution of the program terminates, with every array of the pipeline at what the proof data
    computes and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Tile

end
-- ==== Proof.Ideal.Cases.lean ====
/-
  The grid of the tiled kernel is 8 batches × 4 row tiles × 4 column tiles, visited with the column tile fastest:
  point `t` is batch `t / 16`, row tile `(t / 4) % 4`, column tile `t % 4`.  This module decides, once over the 128
  points, what the body's five conditions say there — the row tile is the first one or a later one, the column tile
  is the first one or a later one, the point is the last of its batch — where each output block is written back, and
  where the column accumulator's slice starts.
-/
import proofs.«101472_j35115652612620_2_alg».proof.Proof.Gen.KernelIdeal.Frame
import proofs.«101472_j35115652612620_2_alg».proof.Proof.Gen.KernelIdeal.Skeleton

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The five conditions over the grid -/

/-- A later row tile is exactly "not the first row tile". -/
theorem laterRow_iff : ∀ t : Fin cfg0.N, k0_cond2 (grid0.coords t) = 1#1 ↔ ¬ k0_cond1 (grid0.coords t) = 1#1 :=
  (by decide +kernel : ∀ t : Fin grid0.N, k0_cond2 (grid0.coords t) = 1#1 ↔ ¬ k0_cond1 (grid0.coords t) = 1#1)

/-- A later column tile is exactly "not the first column tile". -/
theorem laterCol_iff : ∀ t : Fin cfg0.N, k0_cond4 (grid0.coords t) = 1#1 ↔ ¬ k0_cond3 (grid0.coords t) = 1#1 :=
  (by decide +kernel : ∀ t : Fin grid0.N, k0_cond4 (grid0.coords t) = 1#1 ↔ ¬ k0_cond3 (grid0.coords t) = 1#1)

/-- The first row tile of a batch: the four points `16 β + m`. -/
theorem firstRow_iff : ∀ t : Fin cfg0.N, k0_cond1 (grid0.coords t) = 1#1 ↔ t.val % 16 < 4 :=
  (by decide +kernel : ∀ t : Fin grid0.N, k0_cond1 (grid0.coords t) = 1#1 ↔ t.val % 16 < 4)

/-- The first column tile of a row tile: the points divisible by 4. -/
theorem firstCol_iff : ∀ t : Fin cfg0.N, k0_cond3 (grid0.coords t) = 1#1 ↔ t.val % 4 = 0 :=
  (by decide +kernel : ∀ t : Fin grid0.N, k0_cond3 (grid0.coords t) = 1#1 ↔ t.val % 4 = 0)

/-- The last point of a batch. -/
theorem lastOfBatch_iff : ∀ t : Fin cfg0.N, k0_cond5 (grid0.coords t) = 1#1 ↔ t.val % 16 = 15 :=
  (by decide +kernel : ∀ t : Fin grid0.N, k0_cond5 (grid0.coords t) = 1#1 ↔ t.val % 16 = 15)

/-! ## Where the accumulator's slice starts: column `1024 · (t % 4)` -/

theorem sliceStart_first : ∀ t : Fin cfg0.N, k0_off1 (grid0.coords t) = ![0, 1024 * (t.val % 4)] :=
  (by decide +kernel : ∀ t : Fin grid0.N, k0_off1 (grid0.coords t) = ![0, 1024 * (t.val % 4)])

theorem sliceStart_later : ∀ t : Fin cfg0.N, k0_off2 (grid0.coords t) = ![0, 1024 * (t.val % 4)] :=
  (by decide +kernel : ∀ t : Fin grid0.N, k0_off2 (grid0.coords t) = ![0, 1024 * (t.val % 4)])

/-! ## Idle points and write-backs of the two output windows -/

/-- The inputs are never idle. -/
theorem live_in0 : ∀ t : Fin cfg0.N, cfg0.idle 0 (grid0.coords t) = false := by decide +kernel
theorem live_in1 : ∀ t : Fin cfg0.N, cfg0.idle 1 (grid0.coords t) = false := by decide +kernel
/-- The column-minimum output is stored only at the last point of a batch, and written back exactly there. -/
theorem idle_colOut : ∀ t : Fin cfg0.N, ¬ k0_cond5 (grid0.coords t) = 1#1 → cfg0.idle 2 (grid0.coords t) = true := by decide +kernel
theorem live_colOut : ∀ t : Fin cfg0.N, k0_cond5 (grid0.coords t) = 1#1 → cfg0.idle 2 (grid0.coords t) = false := by decide +kernel
theorem noFlush_colOut : ∀ t : Fin cfg0.N, ¬ k0_cond5 (grid0.coords t) = 1#1 → (cfg0.win 2).flush t = false := by decide +kernel
/-- The row-minimum output is stored at every point. -/
theorem live_rowOut : ∀ t : Fin cfg0.N, cfg0.idle 3 (grid0.coords t) = false := by decide +kernel
/-- Neither output window is ever fetched. -/
theorem noFetch_rowOut : ∀ t : Fin cfg0.N, (cfg0.win 3).fetch t = false := by decide +kernel
/-- Between two column tiles of one row tile the row-minimum block is not written back. -/
theorem noFlush_rowOut_prev : ∀ t : Fin cfg0.N, ¬ k0_cond3 (grid0.coords t) = 1#1 →
    ∀ h : t.val - 1 < cfg0.N, (cfg0.win 3).flush ⟨t.val - 1, h⟩ = false := by decide +kernel
theorem pos_of_laterCol : ∀ t : Fin cfg0.N, ¬ k0_cond3 (grid0.coords t) = 1#1 → t.val ≠ 0 := by decide +kernel

/-! ## The staging memrefs at a point, and the scratch -/

abbrev mA (t : Fin cfg0.N) : Memref sig .tc .vmem S1x1024x2 .f32 := win0_0.stage (cfg0.slots t 0)
abbrev hA (t : Fin cfg0.N) : (mA t).IsWhole := hstage0_0 ((cfg0.slots t 0).cast nbuf0_0)
abbrev mB (t : Fin cfg0.N) : Memref sig .tc .vmem S1x2x1024 .f32 := win0_1.stage (cfg0.slots t 1)
abbrev hB (t : Fin cfg0.N) : (mB t).IsWhole := hstage0_1 ((cfg0.slots t 1).cast nbuf0_1)
abbrev mC (t : Fin cfg0.N) : Memref sig .tc .vmem S1x1x4096 .f32 := win0_2.stage (cfg0.slots t 2)
abbrev hC (t : Fin cfg0.N) : (mC t).IsWhole := hstage0_2 ((cfg0.slots t 2).cast nbuf0_2)
abbrev mR (t : Fin cfg0.N) : Memref sig .tc .vmem S1x1x1024 .f32 := win0_3.stage (cfg0.slots t 3)
abbrev hR (t : Fin cfg0.N) : (mR t).IsWhole := hstage0_3 ((cfg0.slots t 3).cast nbuf0_3)
/-- The column accumulator: a whole scoped buffer of the kernel's own. -/
abbrev mS : Memref sig .tc .vmem S1x4096 .f32 := Memref.whole cc0_scratch0
abbrev hS : (mS : Memref sig .tc .vmem S1x4096 .f32).IsWhole := Memref.isWhole_whole _

/-- What the region is handed besides its windows: the accumulator at some contents and the generator register. -/
theorem regionRest_eq (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.KernelIdeal.Tile

end
-- ==== Proof.Ideal.RunFirstFirst.lean ====
/-
  The body at the first column tile of a batch's first row tile: the accumulator's slice and the row-minimum block are both stored fresh, the column-minimum block is left alone.
-/
import proofs.«101472_j35115652612620_2_alg».proof.Proof.Ideal.Cases

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def runFF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : k0_cond1 i = 1#1) (h2 : ¬ k0_cond2 i = 1#1) (h3 : k0_cond3 i = 1#1) (h4 : ¬ k0_cond4 i = 1#1) (h5 : ¬ k0_cond5 i = 1#1)
    (xa : Vec F S1x1024x2 .f32) (xb : Vec F S1x2x1024 .f32)  (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ (∃ d, owns (c : Thread nD τ) arg6 fullShare d) ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%dr, %fr, -, HR⟩, ⟨%fs, %hfs, HS⟩, Hk⟩
    obtain rfl := harg3.eq_unread hfa; obtain rfl := harg4.eq_unread hfb; obtain rfl := harg5.eq_unread hfc; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.KernelIdeal.Tile

end
-- ==== Proof.Ideal.RunFirstLater.lean ====
/-
  The body at a later column tile of a batch's first row tile: the accumulator's slice is stored fresh, the row-minimum block is lowered by this tile's row minima.
-/
import proofs.«101472_j35115652612620_2_alg».proof.Proof.Ideal.RunFirstFirst

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def runFL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : k0_cond1 i = 1#1) (h2 : ¬ k0_cond2 i = 1#1) (h3 : ¬ k0_cond3 i = 1#1) (h4 : k0_cond4 i = 1#1) (h5 : ¬ k0_cond5 i = 1#1)
    (xa : Vec F S1x1024x2 .f32) (xb : Vec F S1x2x1024 .f32) (xr : Vec F S1x1x1024 .f32) (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ owns (c : Thread nD τ) arg6 fullShare xr ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%fr, %hfr, HR⟩, ⟨%fs, %hfs, HS⟩, Hk⟩
    obtain rfl := harg3.eq_unread hfa; obtain rfl := harg4.eq_unread hfb; obtain rfl := harg5.eq_unread hfc; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.KernelIdeal.Tile

end
-- ==== Proof.Ideal.RunLaterFirst.lean ====
/-
  The body at the first column tile of a later row tile: the accumulator's slice is lowered by this tile's column minima, the row-minimum block is stored fresh.
-/
import proofs.«101472_j35115652612620_2_alg».proof.Proof.Ideal.RunFirstLater

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def runLF (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : k0_cond3 i = 1#1) (h4 : ¬ k0_cond4 i = 1#1) (h5 : ¬ k0_cond5 i = 1#1)
    (xa : Vec F S1x1024x2 .f32) (xb : Vec F S1x2x1024 .f32)  (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ (∃ d, owns (c : Thread nD τ) arg6 fullShare d) ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%dr, %fr, -, HR⟩, ⟨%fs, %hfs, HS⟩, Hk⟩
    obtain rfl := harg3.eq_unread hfa; obtain rfl := harg4.eq_unread hfb; obtain rfl := harg5.eq_unread hfc; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.KernelIdeal.Tile

end
-- ==== Proof.Ideal.RunLaterLater.lean ====
/-
  The body at a later column tile of a later row tile, not the batch's last point: both running minima are lowered.
-/
import proofs.«101472_j35115652612620_2_alg».proof.Proof.Ideal.RunLaterFirst

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def runLL (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : ¬ k0_cond3 i = 1#1) (h4 : k0_cond4 i = 1#1) (h5 : ¬ k0_cond5 i = 1#1)
    (xa : Vec F S1x1024x2 .f32) (xb : Vec F S1x2x1024 .f32) (xr : Vec F S1x1x1024 .f32) (xs : Vec F S1x4096 .f32) :
    Σ' (LR : List (View.Piece (Elt F) S1x1x1024 .f32)), { LS : List (View.Piece (Elt F) S1x4096 .f32) //
      ∀ (xc : Vec F S1x1x4096 .f32) (E : Set ℕ) (K : PUnit → sProp 𝕄),
        iprop(owns (c : Thread nD τ) arg3 fullShare xa ∗ owns (c : Thread nD τ) arg4 fullShare xb ∗ owns (c : Thread nD τ) arg5 fullShare xc ∗ owns (c : Thread nD τ) arg6 fullShare xr ∗ owns (c : Thread nD τ) arg7 fullShare xs
            ∗ (iprop(owns (c : Thread nD τ) arg3 fullShare xa ∗ owns (c : Thread nD τ) arg4 fullShare xb ∗ owns (c : Thread nD τ) arg5 fullShare xc
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, fun xc E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%fc, %hfc, HC⟩, ⟨%fr, %hfr, HR⟩, ⟨%fs, %hfs, HS⟩, Hk⟩
    obtain rfl := harg3.eq_unread hfa; obtain rfl := harg4.eq_unread hfb; obtain rfl := harg5.eq_unread hfc; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]
    · iexists _; isplitr; · ipureintro; exact harg5.read_unread _
      iexact HC
    isplitl [HR]; · iexists _; iexact HR
    iexact HS

end Cert.KernelIdeal.Tile

end
-- ==== Proof.Ideal.RunLast.lean ====
/-
  The body at the last point of a batch: both running minima are lowered, then the whole accumulator is copied into the column-minimum block.
-/
import proofs.«101472_j35115652612620_2_alg».proof.Proof.Ideal.RunLaterLater

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
noncomputable def runLast (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (h1 : ¬ k0_cond1 i = 1#1) (h2 : k0_cond2 i = 1#1) (h3 : ¬ k0_cond3 i = 1#1) (h4 : k0_cond4 i = 1#1) (h5 : k0_cond5 i = 1#1)
    (xa : Vec F S1x1024x2 .f32) (xb : Vec F S1x2x1024 .f32) (xr : Vec F S1x1x1024 .f32) (xs : Vec F S1x4096 .f32) :
    Σ' (LC : List (View.Piece (Elt F) S1x1x4096 .f32)) (LR : List (View.Piece (Elt F) S1x1x1024 .f32)), { LS : List (View.Piece (Elt F) S1x4096 .f32) //
      ∀ (E : Set ℕ) (K : PUnit → sProp 𝕄),
        iprop(owns (c : Thread nD τ) arg3 fullShare xa ∗ owns (c : Thread nD τ) arg4 fullShare xb ∗ (∃ d, owns (c : Thread nD τ) arg5 fullShare d) ∗ owns (c : Thread nD τ) arg6 fullShare xr ∗ owns (c : Thread nD τ) arg7 fullShare xs
            ∗ (iprop(owns (c : Thread nD τ) arg3 fullShare xa ∗ owns (c : Thread nD τ) arg4 fullShare xb ∗ (∃ f, arg5.view.loc (c : Thread nD τ) ↦[arg5.view.set]{fullShare} arg5.view.writes (Elt F) f LC)
                ∗ (∃ f, arg6.view.loc (c : Thread nD τ) ↦[arg6.view.set]{fullShare} arg6.view.writes (Elt F) f LR)
                ∗ (arg7.view.loc (c : Thread nD τ) ↦[arg7.view.set]{fullShare} arg7.view.writes (Elt F) (harg7.unread xs) LS)) -∗ K ⟨⟩))
          ⊢ wp frame (wpE (defs₀ (F := F)) Variants.none c none) E (cc0_kernel i arg3 harg3 arg4 harg4 arg5 harg5 arg6 harg6 arg7 harg7) K } := by
  refine ⟨?_, ?_, ?_, fun E K => ?run⟩
  case run =>
    simp only [cc0_kernel_eq_skeleton]; unfold cc0_kernel_skel
    simp only [k0_part1_eq_skeleton]; unfold k0_part1_skel
    unfold owns
    iintro ⟨⟨%fa, %hfa, HA⟩, ⟨%fb, %hfb, HB⟩, ⟨%dc, %fc, -, HC⟩, ⟨%fr, %hfr, HR⟩, ⟨%fs, %hfs, HS⟩, Hk⟩
    obtain rfl := harg3.eq_unread hfa; obtain rfl := harg4.eq_unread hfb; obtain rfl := harg6.eq_unread hfr; obtain rfl := harg7.eq_unread hfs
    sl_exec (disch := first | exact h1 | exact h2 | exact h3 | exact h4 | exact h5)
    sl_step
    iapply Hk
    isplitl [HA]
    · iexists _; isplitr; · ipureintro; exact harg3.read_unread _
      iexact HA
    isplitl [HB]
    · iexists _; isplitr; · ipureintro; exact harg4.read_unread _
      iexact HB
    isplitl [HC]; · iexists _; iexact HC
    isplitl [HR]; · iexists _; iexact HR
    iexact HS

end Cert.KernelIdeal.Tile

end
-- ==== Proof.Ideal.Leaves.lean ====
/-
  What the body leaves behind, case by case, read back as plain values.  The row-minimum block is stored whole at
  every point: fresh (this tile's row minima) at the first column tile, lowered by them at a later one.  The column
  accumulator is a row of 4096 entries of which one point rewrites only the 1024 of its own column tile: fresh at a
  batch's first row tile, lowered at a later one; the other 3072 entries keep what they held.  At the last point
  of a batch the whole accumulator is copied into the column-minimum block.
-/
import proofs.«101472_j35115652612620_2_alg».proof.Proof.Ideal.RunLast
import Idealize.ShloMosaic.Lib.Pipeline.Value
import Idealize.ShloMosaic.Lib.WritesUnit

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zero3 : (![0, 0, 0] : Fin 3 → ℕ) = fun _ => 0 := by funext a; fin_cases a <;> rfl
theorem zero2 : (![0, 0] : Fin 2 → ℕ) = fun _ => 0 := by funext a; fin_cases a <;> rfl

/-- A load of a whole staging buffer reads its contents. -/
theorem loadA {arg3 : Memref sig .tc .vmem S1x1024x2 .f32} (harg3 : arg3.IsWhole) (xa : Vec F S1x1024x2 .f32) :
    View.readAt (Elt F) arg3.view (Rect.unit (s := S1x1024x2) ![0, 0, 0] S1x1024x2.size inb_S1x1024x2_S1x1024x2_0_0_0).toLoadRect (harg3.unread xa) = xa := by
  rw [View.readAt_eq_ld, harg3.read_unread]; exact View.ld_unit_zero (S := S1x1024x2) zero3 _ xa
theorem loadB {arg4 : Memref sig .tc .vmem S1x2x1024 .f32} (harg4 : arg4.IsWhole) (xb : Vec F S1x2x1024 .f32) :
    View.readAt (Elt F) arg4.view (Rect.unit (s := S1x2x1024) ![0, 0, 0] S1x2x1024.size inb_S1x2x1024_S1x2x1024_0_0_0).toLoadRect (harg4.unread xb) = xb := by
  rw [View.readAt_eq_ld, harg4.read_unread]; exact View.ld_unit_zero (S := S1x2x1024) zero3 _ xb
theorem loadR {arg6 : Memref sig .tc .vmem S1x1x1024 .f32} (harg6 : arg6.IsWhole) (xr : Vec F S1x1x1024 .f32) :
    View.readAt (Elt F) arg6.view (Rect.unit (s := S1x1x1024) ![0, 0, 0] S1x1x1024.size inb_S1x1x1024_S1x1x1024_0_0_0).toLoadRect (harg6.unread xr) = xr := by
  rw [View.readAt_eq_ld, harg6.read_unread]; exact View.ld_unit_zero (S := S1x1x1024) zero3 _ xr

/-- One whole-block store leaves its payload, whatever the buffer held. -/
theorem wholeStoreR {arg6 : Memref sig .tc .vmem S1x1x1024 .f32} (f : arg6.view.ty.Contents (Elt F)) (w : Vec F S1x1x1024 .f32) :
    arg6.view.read (Elt F) (arg6.view.writes (Elt F) f [(⟨Rect.unit (s := S1x1x1024) ![0, 0, 0] S1x1x1024.size inb_S1x1x1024_S1x1x1024_0_0_0, w⟩ : View.Piece (Elt F) S1x1x1024 .f32)]) = w := by
  funext y
  exact View.read_writes_cons_unit_of_mem arg6.view f inb_S1x1x1024_S1x1x1024_0_0_0 w [] y y zero3 (fun a => (Nat.zero_add _).symm)
theorem wholeStoreC {arg5 : Memref sig .tc .vmem S1x1x4096 .f32} (f : arg5.view.ty.Contents (Elt F)) (w : Vec F S1x1x4096 .f32) :
    arg5.view.read (Elt F) (arg5.view.writes (Elt F) f [(⟨Rect.unit (s := S1x1x4096) ![0, 0, 0] S1x1x4096.size inb_S1x1x4096_S1x1x4096_0_0_0, w⟩ : View.Piece (Elt F) S1x1x4096 .f32)]) = w := by
  funext y
  exact View.read_writes_cons_unit_of_mem arg5.view f inb_S1x1x4096_S1x1x4096_0_0_0 w [] y y zero3 (fun a => (Nat.zero_add _).symm)

section
variable (c : Dev nD) (i : grid0.Coords) (arg3 : Memref sig .tc .vmem S1x1024x2 .f32) (harg3 : arg3.IsWhole) (arg4 : Memref sig .tc .vmem S1x2x1024 .f32) (harg4 : arg4.IsWhole) (arg5 : Memref sig .tc .vmem S1x1x4096 .f32) (harg5 : arg5.IsWhole) (arg6 : Memref sig .tc .vmem S1x1x1024 .f32) (harg6 : arg6.IsWhole) (arg7 : Memref sig .tc .vmem S1x4096 .f32) (harg7 : arg7.IsWhole) (xa : Vec F S1x1024x2 .f32) (xb : Vec F S1x2x1024 .f32) (xr : Vec F S1x1x1024 .f32) (xs : Vec F S1x4096 .f32)

theorem rowPieces_FF (h1 : k0_cond1 i = 1#1) (h2 : ¬ k0_cond2 i = 1#1) (h3 : k0_cond3 i = 1#1) (h4 : ¬ k0_cond4 i = 1#1) (h5 : ¬ k0_cond5 i = 1#1) :
    (runFF c i arg3 harg3 arg4 harg4 arg5 harg5 arg6 harg6 arg7 harg7 h1 h2 h3 h4 h5 xa xb xs).1
      = [⟨Rect.unit (s := S1x1x1024) ![0, 0, 0] S1x1x1024.size inb_S1x1x1024_S1x1x1024_0_0_0, k0_pay7 xa xb⟩] := by
  unfold runFF; dsimp only; rw [loadA harg3 xa, loadB harg4 xb]
theorem accPieces_FF (h1 : k0_cond1 i = 1#1) (h2 : ¬ k0_cond2 i = 1#1) (h3 : k0_cond3 i = 1#1) (h4 : ¬ k0_cond4 i = 1#1) (h5 : ¬ k0_cond5 i = 1#1) :
    (runFF c i arg3 harg3 arg4 harg4 arg5 harg5 arg6 harg6 arg7 harg7 h1 h2 h3 h4 h5 xa xb xs).2.1
      = [⟨Rect.unit (s := S1x4096) (k0_off1 i) S1x1024.size (k0_off1_inb i h1), k0_pay5 xa xb⟩] := by
  unfold runFF; dsimp only; rw [loadA harg3 xa, loadB harg4 xb]

theorem rowPieces_FL (h1 : k0_cond1 i = 1#1) (h2 : ¬ k0_cond2 i = 1#1) (h3 : ¬ k0_cond3 i = 1#1) (h4 : k0_cond4 i = 1#1) (h5 : ¬ k0_cond5 i = 1#1) :
    (runFL c i arg3 harg3 arg4 harg4 arg5 harg5 arg6 harg6 arg7 harg7 h1 h2 h3 h4 h5 xa xb xr xs).1
      = [⟨Rect.unit (s := S1x1x1024) ![0, 0, 0] S1x1x1024.size inb_S1x1x1024_S1x1x1024_0_0_0, k0_pay8 xa xb xr⟩] := by
  unfold runFL; dsimp only; rw [loadA harg3 xa, loadB harg4 xb, loadR harg6 xr]
theorem accPieces_FL (h1 : k0_cond1 i = 1#1) (h2 : ¬ k0_cond2 i = 1#1) (h3 : ¬ k0_cond3 i = 1#1) (h4 : k0_cond4 i = 1#1) (h5 : ¬ k0_cond5 i = 1#1) :
    (runFL c i arg3 harg3 arg4 harg4 arg5 harg5 arg6 harg6 arg7 harg7 h1 h2 h3 h4 h5 xa xb xr xs).2.1
      = [⟨Rect.unit (s := S1x4096) (k0_off1 i) S1x1024.size (k0_off1_inb i h1), k0_pay5 xa xb⟩] := by
  unfold runFL; dsimp only; rw [loadA harg3 xa, loadB harg4 xb]

theorem rowPieces_LF (h1 : ¬ k0_cond1 i = 1#1) (h2 : k0_cond2 i = 1#1) (h3 : k0_cond3 i = 1#1) (h4 : ¬ k0_cond4 i = 1#1) (h5 : ¬ k0_cond5 i = 1#1) :
    (runLF c i arg3 harg3 arg4 harg4 arg5 harg5 arg6 harg6 arg7 harg7 h1 h2 h3 h4 h5 xa xb xs).1
      = [⟨Rect.unit (s := S1x1x1024) ![0, 0, 0] S1x1x1024.size inb_S1x1x1024_S1x1x1024_0_0_0, k0_pay7 xa xb⟩] := by
  unfold runLF; dsimp only; rw [loadA harg3 xa, loadB harg4 xb]
theorem accPieces_LF (h1 : ¬ k0_cond1 i = 1#1) (h2 : k0_cond2 i = 1#1) (h3 : k0_cond3 i = 1#1) (h4 : ¬ k0_cond4 i = 1#1) (h5 : ¬ k0_cond5 i = 1#1) :
    (runLF c i arg3 harg3 arg4 harg4 arg5 harg5 arg6 harg6 arg7 harg7 h1 h2 h3 h4 h5 xa xb xs).2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLF; dsimp only; rw [loadA harg3 xa, loadB harg4 xb, View.readAt_eq_ld, harg7.read_unread]

theorem rowPieces_LL (h1 : ¬ k0_cond1 i = 1#1) (h2 : k0_cond2 i = 1#1) (h3 : ¬ k0_cond3 i = 1#1) (h4 : k0_cond4 i = 1#1) (h5 : ¬ k0_cond5 i = 1#1) :
    (runLL c i arg3 harg3 arg4 harg4 arg5 harg5 arg6 harg6 arg7 harg7 h1 h2 h3 h4 h5 xa xb xr xs).1
      = [⟨Rect.unit (s := S1x1x1024) ![0, 0, 0] S1x1x1024.size inb_S1x1x1024_S1x1x1024_0_0_0, k0_pay8 xa xb xr⟩] := by
  unfold runLL; dsimp only; rw [loadA harg3 xa, loadB harg4 xb, loadR harg6 xr]
theorem accPieces_LL (h1 : ¬ k0_cond1 i = 1#1) (h2 : k0_cond2 i = 1#1) (h3 : ¬ k0_cond3 i = 1#1) (h4 : k0_cond4 i = 1#1) (h5 : ¬ k0_cond5 i = 1#1) :
    (runLL c i arg3 harg3 arg4 harg4 arg5 harg5 arg6 harg6 arg7 harg7 h1 h2 h3 h4 h5 xa xb xr xs).2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLL; dsimp only; rw [loadA harg3 xa, loadB harg4 xb, View.readAt_eq_ld, harg7.read_unread]

theorem rowPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).2.1
      = [⟨Rect.unit (s := S1x1x1024) ![0, 0, 0] S1x1x1024.size inb_S1x1x1024_S1x1x1024_0_0_0, k0_pay8 xa xb xr⟩] := by
  unfold runLast; dsimp only; rw [loadA harg3 xa, loadB harg4 xb, loadR harg6 xr]
theorem accPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).2.2.1
      = [⟨Rect.unit (s := S1x4096) (k0_off2 i) S1x1024.size (k0_off2_inb i h2),
          k0_pay6 xa xb (View.ld xs (Rect.unit (s := S1x4096) (k0_off2 i) S1x1024.size (k0_off2_inb i h2)))⟩] := by
  unfold runLast; dsimp only; sl_unfold_run_names; rw [loadA harg3 xa, loadB harg4 xb, View.readAt_eq_ld, harg7.read_unread]
theorem colPieces_Last (h1 : ¬ k0_cond1 i = 1#1) (h2 : k0_cond2 i = 1#1) (h3 : ¬ k0_cond3 i = 1#1) (h4 : k0_cond4 i = 1#1) (h5 : k0_cond5 i = 1#1) :
    (runLast c i arg3 harg3 arg4 harg4 arg5 harg5 arg6 harg6 arg7 harg7 h1 h2 h3 h4 h5 xa xb xr xs).1
      = [⟨Rect.unit (s := S1x1x4096) ![0, 0, 0] S1x1x4096.size inb_S1x1x4096_S1x1x4096_0_0_0,
          k0_pay1 (arg7.view.read (Elt F) (arg7.view.writes (Elt F) (harg7.unread xs)
            [⟨Rect.unit (s := S1x4096) (k0_off2 i) S1x1024.size (k0_off2_inb i h2),
              k0_pay6 xa xb (View.ld xs (Rect.unit (s := S1x4096) (k0_off2 i) S1x1024.size (k0_off2_inb i h2)))⟩]))⟩] := by
  unfold runLast; dsimp only; sl_unfold_run_names
  rw [loadA harg3 xa, loadB harg4 xb]
  simp only [View.readAt_eq_ld, harg7.read_unread]
  rw [View.ld_unit_zero (S := S1x4096) zero2]
end

end Cert.KernelIdeal.Tile

end
-- ==== Proof.Ideal.Quarters.lean ====
/-
  A row of 4096 entries as four consecutive quarters of 1024.  Storing 1024 entries at the start of one quarter
  replaces that quarter and keeps the other three; a row is determined by its four quarters.
-/
import proofs.«101472_j35115652612620_2_alg».proof.Proof.Ideal.Leaves
import Idealize.ShloMosaic.Lib.ValueIdx

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable {F : FTy → Type} [FloatOps F]

local notation "𝕄" => MT nD τ sig Unit (Elt F) ℕ (UR sig nD τ) ℕ

theorem quarter_inb (q : Fin 4) : ∀ a : Fin 2, (![0, 1024 * q.val] : Fin 2 → ℕ) a + S1x1024.size a ≤ S1x4096.size a := by
  intro a; fin_cases a
  · show 0 + 1 ≤ 1; omega
  · show 1024 * q.val + 1024 ≤ 4096; have := q.isLt; omega

/-- Quarter `q` of the row: columns `1024 q … 1024 q + 1023`. -/
abbrev quarter (q : Fin 4) : Rect S1x4096 := Rect.unit (s := S1x4096) ![0, 1024 * q.val] S1x1024.size (quarter_inb q)

theorem unit_congr {off off' : Fin 2 → ℕ} (h : off = off') (inb : ∀ a, off a + S1x1024.size a ≤ S1x4096.size a)
    (inb' : ∀ a, off' a + S1x1024.size a ≤ S1x4096.size a) :
    Rect.unit (s := S1x4096) off S1x1024.size inb = Rect.unit (s := S1x4096) off' S1x1024.size inb' := by
  subst h; rfl

section
variable {arg7 : Memref sig .tc .vmem S1x4096 .f32} (f : arg7.view.ty.Contents (Elt F))

/-- The quarter just stored reads the stored values. -/
theorem quarter_hit {off : Fin 2 → ℕ} (inb : ∀ a, off a + S1x1024.size a ≤ S1x4096.size a) (w : Vec F S1x1024 .f32)
    (q : Fin 4) (h : off = ![0, 1024 * q.val]) :
    View.ld (arg7.view.read (Elt F) (arg7.view.writes (Elt F) f [(⟨Rect.unit (s := S1x4096) off S1x1024.size inb, w⟩ : View.Piece (Elt F) S1x4096 .f32)])) (quarter q) = w := by
  funext x
  exact View.read_writes_cons_unit_of_mem arg7.view f inb w [] ((quarter q).idx x) x h
    (fun a => by show (![0, 1024 * q.val] : Fin 2 → ℕ) a + 1 * (x a).val = _; rw [Nat.one_mul])

/-- Another quarter keeps what it held. -/
theorem quarter_miss {off : Fin 2 → ℕ} (inb : ∀ a, off a + S1x1024.size a ≤ S1x4096.size a) (w : Vec F S1x1024 .f32)
    (q q' : Fin 4) (h : off = ![0, 1024 * q.val]) (hne : q' ≠ q) :
    View.ld (arg7.view.read (Elt F) (arg7.view.writes (Elt F) f [(⟨Rect.unit (s := S1x4096) off S1x1024.size inb, w⟩ : View.Piece (Elt F) S1x4096 .f32)])) (quarter q')
      = View.ld (arg7.view.read (Elt F) f) (quarter q') := by
  funext x
  refine View.read_writes_cons_unit_of_not_mem arg7.view f inb w [] ((quarter q').idx x) h 1 ?_
  have hx : (x 1).val < 1024 := (x 1).isLt
  have hv : (((quarter q').idx x) 1).val = 1024 * q'.val + 1 * (x 1).val := rfl
  have hq : q'.val ≠ q.val := fun e => hne (Fin.ext e)
  show _ < 1024 * q.val ∨ 1024 * q.val + 1024 ≤ _
  rw [hv]; omega
end

/-- A row is determined by its four quarters. -/
theorem row_ext (d d' : Vec F S1x4096 .f32) (h : ∀ q : Fin 4, View.ld d (quarter q) = View.ld d' (quarter q)) : d = d' := by
  funext y
  have hy : (y 1).val < 4096 := (y 1).isLt
  let q : Fin 4 := ⟨(y 1).val / 1024, by omega⟩
  let x : S1x1024.Idx := ix2 (0 : Fin 1) (⟨(y 1).val % 1024, Nat.mod_lt _ (by norm_num)⟩ : Fin 1024)
  have e : (quarter q).idx x = y := by
    funext a; apply Fin.ext
    fin_cases a
    · show 0 + 1 * 0 = (y 0).val; have h0 : (y 0).val < 1 := (y 0).isLt; omega
    · show 1024 * ((y 1).val / 1024) + 1 * ((y 1).val % 1024) = (y 1).val; omega
  have := congrFun (h q) x
  show d y = d' y
  rw [← e]; exact this

end Cert.KernelIdeal.Tile

end
-- ==== Proof.Ideal.Tracked.lean ====
/-
  What the kernel's buffers hold after each grid point, as functions of the two input arrays.  Point `t` works on
  batch `t / 16`, row tile `(t % 16) / 4`, column tile `t % 4`.  The row-minimum block after point `t` is the
  minimum, over the column tiles visited so far in its row tile, of the tiles' row minima.  Quarter `q` of the
  column accumulator holds, once the batch has reached column tile `q`, the minimum over the row tiles that have
  visited that column tile so far of the tiles' column minima; after the last point of a batch every quarter has
  seen all four row tiles.
-/
import proofs.«101472_j35115652612620_2_alg».proof.Proof.Ideal.Quarters

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable {F : FTy → Type} [FloatOps F]

local notation "𝕄" => MT nD τ sig Unit (Elt F) ℕ (UR sig nD τ) ℕ

variable (m : (ℓ : Loc nD τ sig) → Buf (Elt F) ℓ)

/-- The grid point numbered `x` (read modulo 128, so that every number names one). -/
def pt (x : ℕ) : Fin cfg0.N := ⟨x % 128, by show _ < grid0.N; rw [N_0]; exact Nat.mod_lt _ (by norm_num)⟩

theorem lt_128 (t : Fin cfg0.N) : t.val < 128 := by have h := t.isLt; rw [← N_0]; exact h

theorem pt_val (t : Fin cfg0.N) : pt t.val = t := Fin.ext (Nat.mod_eq_of_lt (lt_128 t))

/-- The block of 1024 points of the first cloud the point works on, and the block of the second cloud. -/
abbrev blkA (c : Dev nD) (t : Fin cfg0.N) : Vec F S1x1024x2 .f32 := iblk m c 0 t
abbrev blkB (c : Dev nD) (t : Fin cfg0.N) : Vec F S1x2x1024 .f32 := iblk m c 1 t

/-- Column tile `q` of batch `β`: the running column minima after row tiles `0 … k`. -/
def colRun (c : Dev nD) (β q : ℕ) : ℕ → Vec F S1x1024 .f32
  | 0 => k0_pay5 (blkA m c (pt (16 * β + q))) (blkB m c (pt (16 * β + q)))
  | k + 1 => k0_pay6 (blkA m c (pt (16 * β + 4 * (k + 1) + q))) (blkB m c (pt (16 * β + 4 * (k + 1) + q))) (colRun c β q k)

/-- The row-minimum block after point `n`. -/
def rowAt (c : Dev nD) : ℕ → Vec F S1x1x1024 .f32
  | 0 => k0_pay7 (blkA m c (pt 0)) (blkB m c (pt 0))
  | n + 1 => if (n + 1) % 4 = 0 then k0_pay7 (blkA m c (pt (n + 1))) (blkB m c (pt (n + 1)))
      else k0_pay8 (blkA m c (pt (n + 1))) (blkB m c (pt (n + 1))) (rowAt c n)

/-- The whole accumulator row at the end of batch `β`. -/
def colFull (c : Dev nD) (β : ℕ) : Vec F S1x4096 .f32 := fun y =>
  colRun m c β ((y 1).val / 1024) 3 (ix2 (0 : Fin 1) (⟨(y 1).val % 1024, Nat.mod_lt _ (by norm_num)⟩ : Fin 1024))

/-- How many row tiles beyond the first have visited column tile `q` after point `t`. -/
def seen (t q : ℕ) : ℕ := if q ≤ t % 4 then t % 16 / 4 else t % 16 / 4 - 1

/-- What is known of the accumulator row `d` after point `t`: the quarters the batch has reached. -/
def Known (c : Dev nD) (t : ℕ) (d : Vec F S1x4096 .f32) : Prop :=
  ∀ q : Fin 4, q.val ≤ t % 16 → View.ld d (quarter q) = colRun m c (t / 16) q.val (seen t q.val)

theorem rowAt_first (c : Dev nD) (t : ℕ) (h : t % 4 = 0) : rowAt m c t = k0_pay7 (blkA m c (pt t)) (blkB m c (pt t)) := by
  cases t with
  | zero => rfl
  | succ n => exact if_pos h

theorem rowAt_later (c : Dev nD) (t : ℕ) (h : t % 4 ≠ 0) :
    rowAt m c t = k0_pay8 (blkA m c (pt t)) (blkB m c (pt t)) (rowAt m c (t - 1)) := by
  cases t with
  | zero => exact absurd rfl h
  | succ n => exact if_neg h

/-- Reading 1024 entries from a start spelt two ways. -/
theorem ld_start_congr (d : Vec F S1x4096 .f32) {off off' : Fin 2 → ℕ} (h : off = off')
    (inb : ∀ a, off a + S1x1024.size a ≤ S1x4096.size a) (inb' : ∀ a, off' a + S1x1024.size a ≤ S1x4096.size a) :
    (View.ld d (Rect.unit (s := S1x4096) off S1x1024.size inb) : Vec F S1x1024 .f32)
      = View.ld d (Rect.unit (s := S1x4096) off' S1x1024.size inb') := by
  subst h; rfl

section
variable {arg7 : Memref sig .tc .vmem S1x4096 .f32} (harg7 : arg7.IsWhole)

/-- A point of a batch's first row tile: its quarter is stored fresh, the quarters reached before are kept. -/
theorem known_first (c : Dev nD) (t : Fin cfg0.N) (h1 : t.val % 16 < 4) (d : Vec F S1x4096 .f32)
    (hd : t.val % 16 ≠ 0 → Known m c (t.val - 1) d)
    (inb : ∀ a, k0_off1 (grid0.coords t) a + S1x1024.size a ≤ S1x4096.size a) :
    Known m c t.val (arg7.view.read (Elt F) (arg7.view.writes (Elt F) (harg7.unread d)
      [(⟨Rect.unit (s := S1x4096) (k0_off1 (grid0.coords t)) S1x1024.size inb, k0_pay5 (blkA m c t) (blkB m c t)⟩ : View.Piece (Elt F) S1x4096 .f32)])) := by
  intro q hq
  have ht := lt_128 t
  have hql := q.isLt
  have hoff := sliceStart_first t
  by_cases hqm : q.val = t.val % 4
  · have hoff' : k0_off1 (grid0.coords t) = ![0, 1024 * q.val] := by rw [hoff, hqm]
    rw [quarter_hit _ inb _ q hoff']
    have hk : seen t.val q.val = 0 := by unfold seen; split_ifs <;> omega
    rw [hk]
    show _ = k0_pay5 (blkA m c (pt (16 * (t.val / 16) + q.val))) (blkB m c (pt (16 * (t.val / 16) + q.val)))
    have hp : pt (16 * (t.val / 16) + q.val) = t := by
      apply Fin.ext; show (16 * (t.val / 16) + q.val) % 128 = t.val; omega
    rw [hp]
  · have hq' : q ≠ (⟨t.val % 4, Nat.mod_lt _ (by norm_num)⟩ : Fin 4) := fun e => hqm (by rw [e])
    rw [quarter_miss _ inb _ (⟨t.val % 4, Nat.mod_lt _ (by norm_num)⟩ : Fin 4) q hoff hq', harg7.read_unread]
    have h0 : t.val % 16 ≠ 0 := by omega
    rw [hd h0 q (by omega)]
    have e1 : (t.val - 1) / 16 = t.val / 16 := by omega
    have e2 : seen (t.val - 1) q.val = seen t.val q.val := by unfold seen; split_ifs <;> omega
    rw [e1, e2]

/-- A point of a later row tile: its quarter is lowered by this tile's column minima, the others are kept. -/
theorem known_later (c : Dev nD) (t : Fin cfg0.N) (h2 : 4 ≤ t.val % 16) (d : Vec F S1x4096 .f32)
    (hd : Known m c (t.val - 1) d)
    (inb : ∀ a, k0_off2 (grid0.coords t) a + S1x1024.size a ≤ S1x4096.size a) :
    Known m c t.val (arg7.view.read (Elt F) (arg7.view.writes (Elt F) (harg7.unread d)
      [(⟨Rect.unit (s := S1x4096) (k0_off2 (grid0.coords t)) S1x1024.size inb,
          k0_pay6 (blkA m c t) (blkB m c t) (View.ld d (Rect.unit (s := S1x4096) (k0_off2 (grid0.coords t)) S1x1024.size inb))⟩ : View.Piece (Elt F) S1x4096 .f32)])) := by
  intro q hq
  have ht := lt_128 t
  have hql := q.isLt
  have hoff := sliceStart_later t
  by_cases hqm : q.val = t.val % 4
  · have hoff' : k0_off2 (grid0.coords t) = ![0, 1024 * q.val] := by rw [hoff, hqm]
    rw [quarter_hit _ inb _ q hoff']
    rw [ld_start_congr d hoff' inb (quarter_inb q)]
    have hprev := hd q (by omega)
    show k0_pay6 _ _ (View.ld d (quarter q)) = _
    rw [hprev]
    have e1 : (t.val - 1) / 16 = t.val / 16 := by omega
    have hk : seen t.val q.val = seen (t.val - 1) q.val + 1 := by unfold seen; split_ifs <;> omega
    rw [e1, hk]
    show _ = k0_pay6 (blkA m c (pt (16 * (t.val / 16) + 4 * (seen (t.val - 1) q.val + 1) + q.val))) (blkB m c (pt (16 * (t.val / 16) + 4 * (seen (t.val - 1) q.val + 1) + q.val))) _
    have hp : pt (16 * (t.val / 16) + 4 * (seen (t.val - 1) q.val + 1) + q.val) = t := by
      apply Fin.ext; show (16 * (t.val / 16) + 4 * (seen (t.val - 1) q.val + 1) + q.val) % 128 = t.val
      have : seen (t.val - 1) q.val + 1 = t.val % 16 / 4 := by unfold seen; split_ifs <;> omega
      rw [this]; omega
    rw [hp]
  · have hq' : q ≠ (⟨t.val % 4, Nat.mod_lt _ (by norm_num)⟩ : Fin 4) := fun e => hqm (by rw [e])
    rw [quarter_miss _ inb _ (⟨t.val % 4, Nat.mod_lt _ (by norm_num)⟩ : Fin 4) q hoff hq', harg7.read_unread]
    rw [hd q (by omega)]
    have e1 : (t.val - 1) / 16 = t.val / 16 := by omega
    have e2 : seen (t.val - 1) q.val = seen t.val q.val := by unfold seen; split_ifs <;> omega
    rw [e1, e2]
end

/-- After the last point of a batch the whole row is known. -/
theorem known_last (c : Dev nD) (t : ℕ) (h : t % 16 = 15) (d : Vec F S1x4096 .f32) (hd : Known m c t d) :
    d = colFull m c (t / 16) := by
  apply row_ext
  intro q
  have hql := q.isLt
  rw [hd q (by omega)]
  have hk : seen t q.val = 3 := by unfold seen; split_ifs <;> omega
  rw [hk]
  funext x
  have hx : (x 1).val < 1024 := (x 1).isLt
  show colRun m c (t / 16) q.val 3 x = colRun m c (t / 16) ((1024 * q.val + 1 * (x 1).val) / 1024) 3 _
  have e : (1024 * q.val + 1 * (x 1).val) / 1024 = q.val := by omega
  rw [e]
  congr 1
  funext a; apply Fin.ext
  fin_cases a
  · show (x 0).val = 0; have h0 : (x 0).val < 1 := (x 0).isLt; omega
  · show (x 1).val = (1024 * q.val + 1 * (x 1).val) % 1024; omega

end Cert.KernelIdeal.Tile

end
-- ==== Proof.Ideal.Body.lean ====
/-
  The pipeline's proof data for the tiled kernel and the body's obligation at every grid point.  After point `t`
  each input's staging buffer still holds its block; the row-minimum block's buffer holds the running row minima of
  its row tile; the column-minimum block's buffer is untouched except at the last point of a batch, where it receives
  the whole column accumulator; and the accumulator, a buffer of the kernel's own that the region hands over at
  unknown contents, holds the running column minima on the quarters its batch has reached so far.
-/
import proofs.«101472_j35115652612620_2_alg».proof.Proof.Ideal.Tracked

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem notLast_of_firstRow : ∀ t : Fin cfg0.N, k0_cond1 (grid0.coords t) = 1#1 → ¬ k0_cond5 (grid0.coords t) = 1#1 := by decide +kernel
theorem notLast_of_firstCol : ∀ t : Fin cfg0.N, k0_cond3 (grid0.coords t) = 1#1 → ¬ k0_cond5 (grid0.coords t) = 1#1 := by decide +kernel
theorem live_rowOut_all : ∀ i : grid0.Coords, cfg0.idle 3 i = false := by decide +kernel
theorem clip_rowOut : ∀ (i : cfg0.grid.Coords) a, (cfg0.win 3).clip i a = none := by decide +kernel

/-- The region invariant before position `n`: what the launch hands over before the first point; afterwards the
    accumulator at contents known on the quarters reached (`Known`), and the generator register at some state. -/
def PhiS (c : Dev nD) : ℕ → sProp 𝕄
  | 0 => Pipeline.ΦA spec0 c
  | n + 1 => iprop(iprop(∃ d, ⌜Known m c n d⌝ ∗ owns (c : Thread nD τ) mS fullShare d) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (colFull m c (t.val / 16))
    | ⟨3, _⟩ => rowAt m c t.val
  Φ t := PhiS m c t.val
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_col (c : Dev nD) (t : Fin cfg0.N) : (dats m 0 c).after 2 t = k0_pay1 (colFull m c (t.val / 16)) := by dsimp only [dats]
theorem after_row (c : Dev nD) (t : Fin cfg0.N) : (dats m 0 c).after 3 t = rowAt m c t.val := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

/-- At a later column tile the row-minimum block's buffer holds what the point before left. -/
theorem before_row (c : Dev nD) (t : Fin cfg0.N) (h3 : ¬ k0_cond3 (grid0.coords t) = 1#1) (d) :
    (dats m 0 c).before 3 t d = rowAt m c (t.val - 1) :=
  ((dats m 0 c).before_out_kept 3 rfl t (pos_of_laterCol t h3) (noFlush_rowOut_prev t h3 _) live_rowOut_all clip_rowOut d).trans
    (after_row m c _)

theorem phi_open (c : Dev nD) (t : Fin cfg0.N) :
    (dats m 0 c).Φ t.castSucc ⊢ iprop(∃ d, ⌜t.val ≠ 0 → Known m c (t.val - 1) d⌝ ∗ owns (c : Thread nD τ) mS fullShare d ∗ (∃ r, prngReg c r)) := by
  rw [show (dats m 0 c).Φ t.castSucc = PhiS m c t.val from by dsimp only [dats]; simp only [Fin.coe_castSucc]]
  rcases ht : t.val with _ | n
  · show Pipeline.ΦA spec0 c ⊢ _
    rw [regionRest_eq]
    iintro ⟨⟨%d, HS⟩, Hg⟩
    iexists d; isplitr
    · ipureintro; intro h; exact absurd rfl h
    isplitl [HS]; · iexact HS
    iexact Hg
  · show iprop(iprop(∃ d, ⌜Known m c n d⌝ ∗ owns (c : Thread nD τ) mS fullShare d) ∗ (∃ r, prngReg c r)) ⊢ _
    iintro ⟨⟨%d, %hd, HS⟩, Hg⟩
    iexists d; isplitr
    · ipureintro; intro _; exact hd
    isplitl [HS]; · iexact HS
    iexact Hg

/-- What the body is called with at point `t`, the accumulator's contents named, -/
def bodyPre (c : Dev nD) (t : Fin cfg0.N) : sProp 𝕄 :=
  iprop(iprop(∃ d, ⌜t.val ≠ 0 → Known m c (t.val - 1) d⌝ ∗ owns (c : Thread nD τ) mS fullShare d ∗ (∃ r, prngReg c r))
    ∗ (dats m 0 c).owesAt () t.castSucc
    ∗ (∃ d, owns (c : Thread nD τ) (mA t) fullShare ((dats m 0 c).before 0 t d))
    ∗ (∃ d, owns (c : Thread nD τ) (mB t) fullShare ((dats m 0 c).before 1 t d))
    ∗ (∃ d, owns (c : Thread nD τ) (mC t) fullShare ((dats m 0 c).before 2 t d))
    ∗ (∃ d, owns (c : Thread nD τ) (mR t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = iprop(iprop(∃ d, ⌜Known m c t.val d⌝ ∗ owns (c : Thread nD τ) mS fullShare d) ∗ (∃ r, prngReg c r)) from rfl]
  rw [show (dats m 0 c).leavesExact 0 t = owns (c : Thread nD τ) (mA t) fullShare ((dats m 0 c).after 0 t) from by
    unfold Dat.leavesExact; rw [live_in0 t], after_in0]
  rw [show (dats m 0 c).leavesExact 1 t = owns (c : Thread nD τ) (mB t) fullShare ((dats m 0 c).after 1 t) from by
    unfold Dat.leavesExact; rw [live_in1 t], after_in1]
  rw [show (dats m 0 c).leavesExact 3 t = owns (c : Thread nD τ) (mR t) fullShare ((dats m 0 c).after 3 t) from by
    unfold Dat.leavesExact; rw [live_rowOut t], after_row]
  have ht := lt_128 t
  by_cases h1 : k0_cond1 (grid0.coords t) = 1#1
  · have h2 : ¬ k0_cond2 (grid0.coords t) = 1#1 := fun h => ((laterRow_iff t).mp h) h1
    have h5 : ¬ k0_cond5 (grid0.coords t) = 1#1 := notLast_of_firstRow t h1
    have hr := (firstRow_iff t).mp h1
    rw [Dat.leavesExact_idle (dats m 0 c) 2 t (idle_colOut t h5) (noFlush_colOut t h5)]
    by_cases h3 : k0_cond3 (grid0.coords t) = 1#1
    · have h4 : ¬ k0_cond4 (grid0.coords t) = 1#1 := fun h => ((laterCol_iff t).mp h) h3
      rw [rowAt_first m c t.val ((firstCol_iff t).mp h3), pt_val]
      iintro ⟨⟨%d0, %hd0, HS, Hg⟩, Ho, ⟨%da, HA⟩, ⟨%db, HB⟩, ⟨%dc, HC⟩, ⟨%dr, HR⟩⟩
      iapply ((runFF c (grid0.coords t) _ _ _ _ _ _ _ _ _ _ h1 h2 h3 h4 h5 (blkA m c t) (blkB m c t) d0).2.2 _ Set.univ _)
      isplitl [HA]; · iexact HA
      isplitl [HB]; · iexact HB
      isplitl [HC]; · iexact HC
      isplitl [HR]; · iexists _; iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_FF]
          exact known_first m hS c t hr d0 (fun h => hd0 (by omega)) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_FF]; exact wholeStoreR _ _
    · have h4 : k0_cond4 (grid0.coords t) = 1#1 := (laterCol_iff t).mpr h3
      rw [rowAt_later m c t.val (fun h => h3 ((firstCol_iff t).mpr h)), pt_val]
      simp only [before_row m c t h3]
      iintro ⟨⟨%d0, %hd0, HS, Hg⟩, Ho, ⟨%da, HA⟩, ⟨%db, HB⟩, ⟨%dc, HC⟩, ⟨%dr, HR⟩⟩
      iapply ((runFL c (grid0.coords t) _ _ _ _ _ _ _ _ _ _ h1 h2 h3 h4 h5 (blkA m c t) (blkB m c t) (rowAt m c (t.val - 1)) d0).2.2 _ Set.univ _)
      isplitl [HA]; · iexact HA
      isplitl [HB]; · iexact HB
      isplitl [HC]; · iexact HC
      isplitl [HR]; · iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_FL]
          exact known_first m hS c t hr d0 (fun h => hd0 (by omega)) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_FL]; exact wholeStoreR _ _
  · have h2 : k0_cond2 (grid0.coords t) = 1#1 := (laterRow_iff t).mpr h1
    have hr : 4 ≤ t.val % 16 := by have := (firstRow_iff t).not.mp h1; omega
    have hz : t.val ≠ 0 := by omega
    by_cases h3 : k0_cond3 (grid0.coords t) = 1#1
    · have h4 : ¬ k0_cond4 (grid0.coords t) = 1#1 := fun h => ((laterCol_iff t).mp h) h3
      have h5 : ¬ k0_cond5 (grid0.coords t) = 1#1 := notLast_of_firstCol t h3
      rw [Dat.leavesExact_idle (dats m 0 c) 2 t (idle_colOut t h5) (noFlush_colOut t h5)]
      rw [rowAt_first m c t.val ((firstCol_iff t).mp h3), pt_val]
      iintro ⟨⟨%d0, %hd0, HS, Hg⟩, Ho, ⟨%da, HA⟩, ⟨%db, HB⟩, ⟨%dc, HC⟩, ⟨%dr, HR⟩⟩
      iapply ((runLF c (grid0.coords t) _ _ _ _ _ _ _ _ _ _ h1 h2 h3 h4 h5 (blkA m c t) (blkB m c t) d0).2.2 _ Set.univ _)
      isplitl [HA]; · iexact HA
      isplitl [HB]; · iexact HB
      isplitl [HC]; · iexact HC
      isplitl [HR]; · iexists _; iexact HR
      isplitl [HS]; · iexact HS
      iintro ⟨HA, HB, HC, ⟨%fr, HR⟩, HS⟩
      isplitl [HS Hg]
      · isplitl [HS]
        · iexists _; isplitr
          swap
          · unfold owns; iexists _; isplitr
            swap; · iexact HS
            ipureintro; rfl
          ipureintro; rw [accPieces_LF]
          exact known_later m hS c t hr d0 (hd0 hz) _
        iexact Hg
      isplitl [Ho]; · iexact Ho
      isplitl [HA]; · iexact HA
      isplitl [HB]; · iexact HB
      isplitl [HC]; · iexists _; iexact HC
      unfold owns; iexists _; isplitr
      swap; · iexact HR
      ipureintro; rw [rowPieces_LF]; exact wholeStoreR _ _
    · have h4 : k0_cond4 (grid0.coords t) = 1#1 := (laterCol_iff t).mpr h3
      rw [rowAt_later m c t.val (fun h => h3 ((firstCol_iff t).mpr h)), pt_val]
      simp only [before_row m c t h3]
      by_cases h5 : k0_cond5 (grid0.coords t) = 1#1
      · rw [show (dats m 0 c).leavesExact 2 t = owns (c : Thread nD τ) (mC t) fullShare ((dats m 0 c).after 2 t) from by
          unfold Dat.leavesExact; rw [live_colOut t h5], after_col]
        iintro ⟨⟨%d0, %hd0, HS, Hg⟩, Ho, ⟨%da, HA⟩, ⟨%db, HB⟩, ⟨%dc, HC⟩, ⟨%dr, HR⟩⟩
        iapply ((runLast c (grid0.coords t) _ _ _ _ _ _ _ _ _ _ h1 h2 h3 h4 h5 (blkA m c t) (blkB m c t) (rowAt m c (t.val - 1)) d0).2.2.2 Set.univ _)
        isplitl [HA]; · iexact HA
        isplitl [HB]; · iexact HB
        isplitl [HC]; · iexists _; iexact HC
        isplitl [HR]; · iexact HR
        isplitl [HS]; · iexact HS
        iintro ⟨HA, HB, ⟨%fc, HC⟩, ⟨%fr, HR⟩, HS⟩
        have hk := known_later m hS c t hr d0 (hd0 hz) (k0_off2_inb (grid0.coords t) h2)
        isplitl [HS Hg]
        · isplitl [HS]
          · iexists _; isplitr
            swap
            · unfold owns; iexists _; isplitr
              swap; · iexact HS
              ipureintro; rfl
            ipureintro; rw [accPieces_Last]; exact hk
          iexact Hg
        isplitl [Ho]; · iexact Ho
        isplitl [HA]; · iexact HA
        isplitl [HB]; · iexact HB
        isplitl [HC]
        · unfold owns; iexists _; isplitr
          swap; · iexact HC
          ipureintro; rw [colPieces_Last, wholeStoreC]
          exact congrArg k0_pay1 (known_last m c t.val ((lastOfBatch_iff t).mp h5) _ hk)
        unfold owns; iexists _; isplitr
        swap; · iexact HR
        ipureintro; rw [rowPieces_Last]; exact wholeStoreR _ _
      · rw [Dat.leavesExact_idle (dats m 0 c) 2 t (idle_colOut t h5) (noFlush_colOut t h5)]
        iintro ⟨⟨%d0, %hd0, HS, Hg⟩, Ho, ⟨%da, HA⟩, ⟨%db, HB⟩, ⟨%dc, HC⟩, ⟨%dr, HR⟩⟩
        iapply ((runLL c (grid0.coords t) _ _ _ _ _ _ _ _ _ _ h1 h2 h3 h4 h5 (blkA m c t) (blkB m c t) (rowAt m c (t.val - 1)) d0).2.2 _ Set.univ _)
        isplitl [HA]; · iexact HA
        isplitl [HB]; · iexact HB
        isplitl [HC]; · iexact HC
        isplitl [HR]; · iexact HR
        isplitl [HS]; · iexact HS
        iintro ⟨HA, HB, HC, ⟨%fr, HR⟩, HS⟩
        isplitl [HS Hg]
        · isplitl [HS]
          · iexists _; isplitr
            swap
            · unfold owns; iexists _; isplitr
              swap; · iexact HS
              ipureintro; rfl
            ipureintro; rw [accPieces_LL]
            exact known_later m hS c t hr d0 (hd0 hz) _
          iexact Hg
        isplitl [Ho]; · iexact Ho
        isplitl [HA]; · iexact HA
        isplitl [HB]; · iexact HB
        isplitl [HC]; · iexists _; iexact HC
        unfold owns; iexists _; isplitr
        swap; · iexact HR
        ipureintro; rw [rowPieces_LL]; exact wholeStoreR _ _

/-- The library's body obligation, at every point. -/
theorem body_obligation (c : Dev nD) : BodyObligation (dats (F := F) m 0 c) (defs₀ (F := F)) Variants.none () Set.univ := fun t => by
  rw [bigSep_W0, bigSep_W0]
  exact (Idealize.SL.BI.sep_mono_l (phi_open m c t)).trans (sound_body m c t)

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (127 + 1) from by
    dsimp only [dats]; rw [Fin.val_last]; congr 1]
  show iprop(iprop(∃ d, ⌜Known m c 127 d⌝ ∗ owns (c : Thread nD τ) mS fullShare d) ∗ (∃ r, prngReg c r)) ⊢ _
  rw [regionRest_eq]
  iintro ⟨⟨%d, %hd, HS⟩, Hg⟩
  isplitl [HS]
  · iexists _; iexact HS
  iexact Hg

set_option backward.isDefEq.respectTransparency.types false in
/-- Every weakly fair execution of the program terminates, with every array of the pipeline at what the proof data
    computes and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The program runs to the end, faults nowhere, and leaves its three argument arrays as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Tile

end
-- ==== Proof.Ideal.FinalArrays.lean ====
/-
  The two result arrays after the run.  The column-minimum array's block of batch `β` is written back once, after
  the batch's last point, from the whole accumulator row; the row-minimum array's block (batch `β`, row tile `n`) is
  written back after the row tile's last column tile.  The blocks tile both arrays, so each array ends as one
  function of its index.
-/
import proofs.«101472_j35115652612620_2_alg».proof.Proof.Ideal.Body
import Idealize.ShloMosaic.Lib.Pipeline.Value

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block indices of the two output windows, decided over the grid. -/
theorem colOut_index : ∀ t : Fin cfg0.N, win0_2.index t = ![t.val / 16, 0, 0] :=
  (by decide +kernel : ∀ t : Fin grid0.N, win0_2.index t = ![t.val / 16, 0, 0])
theorem rowOut_index : ∀ t : Fin cfg0.N, win0_3.index t = ![t.val / 16, 0, t.val % 16 / 4] :=
  (by decide +kernel : ∀ t : Fin grid0.N, win0_3.index t = ![t.val / 16, 0, t.val % 16 / 4])

/-- The column-minimum array after the run: entry `(β, 0, j)` is entry `j` of batch `β`'s accumulator row. -/
def colArray (c : Dev nD) : S8x1x4096.Idx → Elt F .f32 := fun i =>
  k0_pay1 (colFull m c (i 0).val) (ix3 (0 : Fin 1) (0 : Fin 1) (i 2))

/-- The row-minimum array after the run: entry `(β, 0, 1024 n + r)` is entry `r` of the row-minimum block after the
    last column tile of row tile `n` of batch `β`. -/
def rowArray (c : Dev nD) : S8x1x4096.Idx → Elt F .f32 := fun i =>
  rowAt m c (16 * (i 0).val + 4 * ((i 2).val / 1024) + 3)
    (ix3 (0 : Fin 1) (0 : Fin 1) (⟨(i 2).val % 1024, Nat.mod_lt _ (by norm_num)⟩ : Fin 1024))

theorem colFlushed (c : Dev nD) (t : Fin cfg0.N) :
    (dats m 0 c).flushed 2 t = ((cfg0.win 2).blk t).view.read (Elt F) (colArray m c) := by
  show (cfg0.win 2).cut (grid0.coords t) ((dats m 0 c).after 2 t) = _
  rw [after_col]
  funext x
  show k0_pay1 (colFull m c (t.val / 16)) x = colArray m c (((cfg0.win 2).blk t).view.emb x)
  have hx0 : (x 0).val < 1 := (x 0).isLt
  have hx1 : (x 1).val < 1 := (x 1).isLt
  have e0 : ((((cfg0.win 2).blk t).view.emb x) 0).val = t.val / 16 := by
    show win0_2.index t (0 : Fin 3) * 1 + 1 * (x 0).val = _
    rw [colOut_index t]; show t.val / 16 * 1 + 1 * (x 0).val = _; omega
  have e2 : (((cfg0.win 2).blk t).view.emb x) 2 = x 2 := by
    apply Fin.ext
    show win0_2.index t (2 : Fin 3) * 4096 + 1 * (x 2).val = _
    rw [colOut_index t]; show 0 * 4096 + 1 * (x 2).val = _; omega
  unfold colArray
  rw [e0, e2]
  congr 1
  funext a; apply Fin.ext
  fin_cases a
  · show (x 0).val = 0; omega
  · show (x 1).val = 0; omega
  · rfl

theorem rowFlushed (c : Dev nD) (t : Fin cfg0.N) (hf : (cfg0.win 3).flush t = true) :
    (dats m 0 c).flushed 3 t = ((cfg0.win 3).blk t).view.read (Elt F) (rowArray m c) := by
  show (cfg0.win 3).cut (grid0.coords t) ((dats m 0 c).after 3 t) = _
  rw [after_row]
  have ht := lt_128 t
  have h3 : t.val % 4 = 3 := (flush0_3 t).mp hf
  funext x
  show rowAt m c t.val x = rowArray m c (((cfg0.win 3).blk t).view.emb x)
  have hx0 : (x 0).val < 1 := (x 0).isLt
  have hx1 : (x 1).val < 1 := (x 1).isLt
  have hx2 : (x 2).val < 1024 := (x 2).isLt
  have e0 : ((((cfg0.win 3).blk t).view.emb x) 0).val = t.val / 16 := by
    show win0_3.index t (0 : Fin 3) * 1 + 1 * (x 0).val = _
    rw [rowOut_index t]; show t.val / 16 * 1 + 1 * (x 0).val = _; omega
  have e2 : ((((cfg0.win 3).blk t).view.emb x) 2).val = 1024 * (t.val % 16 / 4) + (x 2).val := by
    show win0_3.index t (2 : Fin 3) * 1024 + 1 * (x 2).val = _
    rw [rowOut_index t]; show t.val % 16 / 4 * 1024 + 1 * (x 2).val = _; omega
  unfold rowArray
  have ep : 16 * ((((cfg0.win 3).blk t).view.emb x) 0).val + 4 * (((((cfg0.win 3).blk t).view.emb x) 2).val / 1024) + 3 = t.val := by
    rw [e0, e2]; omega
  rw [ep]
  congr 1
  funext a; apply Fin.ext
  fin_cases a
  · show (x 0).val = 0; omega
  · show (x 1).val = 0; omega
  · show (x 2).val = ((((cfg0.win 3).blk t).view.emb x) 2).val % 1024; rw [e2]; omega

/-- An index of the array is in point `t`'s block iff each coordinate is in the block's range on its axis. -/
theorem mem_colBlk (t : Fin cfg0.N) (i : S8x1x4096.Idx) :
    i ∈ ((cfg0.win 2).blk t).view.set ↔ ∀ a : Fin 3, win0_2.index t a * S1x1x4096.size a ≤ (i a).val ∧ (i a).val < win0_2.index t a * S1x1x4096.size a + S1x1x4096.size a := by
  show i ∈ ((View.whole main_v23_0).slice (win0_2.rect t)).set ↔ _
  rw [View.set_slice_whole, Rect.mem_set_unit]
  exact Iff.rfl
theorem mem_rowBlk (t : Fin cfg0.N) (i : S8x1x4096.Idx) :
    i ∈ ((cfg0.win 3).blk t).view.set ↔ ∀ a : Fin 3, win0_3.index t a * S1x1x1024.size a ≤ (i a).val ∧ (i a).val < win0_3.index t a * S1x1x1024.size a + S1x1x1024.size a := by
  show i ∈ ((View.whole main_v23_1).slice (win0_3.rect t)).set ↔ _
  rw [View.set_slice_whole, Rect.mem_set_unit]
  exact Iff.rfl

theorem colCover (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  let t : Fin cfg0.N := pt (16 * (i 0).val + 15)
  have tv : t.val = 16 * (i 0).val + 15 := Nat.mod_eq_of_lt (by omega)
  refine ⟨t, (flush0_2 t).mpr (by rw [tv]; omega), ?_⟩
  rw [mem_colBlk]
  have hi := colOut_index t
  intro a
  fin_cases a
  · show win0_2.index t (0 : Fin 3) * 1 ≤ (i 0).val ∧ (i 0).val < win0_2.index t (0 : Fin 3) * 1 + 1
    rw [hi]; show t.val / 16 * 1 ≤ _ ∧ _ < t.val / 16 * 1 + 1; rw [tv]; omega
  · show win0_2.index t (1 : Fin 3) * 1 ≤ (i 1).val ∧ (i 1).val < win0_2.index t (1 : Fin 3) * 1 + 1
    rw [hi]; show 0 * 1 ≤ _ ∧ _ < 0 * 1 + 1; omega
  · show win0_2.index t (2 : Fin 3) * 4096 ≤ (i 2).val ∧ (i 2).val < win0_2.index t (2 : Fin 3) * 4096 + 4096
    rw [hi]; show 0 * 4096 ≤ _ ∧ _ < 0 * 4096 + 4096; omega

theorem rowCover (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  let t : Fin cfg0.N := pt (16 * (i 0).val + 4 * ((i 2).val / 1024) + 3)
  have tv : t.val = 16 * (i 0).val + 4 * ((i 2).val / 1024) + 3 := Nat.mod_eq_of_lt (by omega)
  refine ⟨t, (flush0_3 t).mpr (by rw [tv]; omega), ?_⟩
  rw [mem_rowBlk]
  have hi := rowOut_index t
  intro a
  fin_cases a
  · show win0_3.index t (0 : Fin 3) * 1 ≤ (i 0).val ∧ (i 0).val < win0_3.index t (0 : Fin 3) * 1 + 1
    rw [hi]; show t.val / 16 * 1 ≤ _ ∧ _ < t.val / 16 * 1 + 1; rw [tv]; omega
  · show win0_3.index t (1 : Fin 3) * 1 ≤ (i 1).val ∧ (i 1).val < win0_3.index t (1 : Fin 3) * 1 + 1
    rw [hi]; show 0 * 1 ≤ _ ∧ _ < 0 * 1 + 1; omega
  · show win0_3.index t (2 : Fin 3) * 1024 ≤ (i 2).val ∧ (i 2).val < win0_3.index t (2 : Fin 3) * 1024 + 1024
    rw [hi]; show t.val % 16 / 4 * 1024 ≤ _ ∧ _ < t.val % 16 / 4 * 1024 + 1024; rw [tv]; omega

/-- The two result arrays after the run. -/
theorem colFinal (c : Dev nD) : (dats m 0 c).arrAt 2 cfg0.N = colArray m c :=
  (dats m 0 c).arrAt_eq_of_cover 2 (colArray m c) (fun t _ => colFlushed m c t) colCover
theorem rowFinal (c : Dev nD) : (dats m 0 c).arrAt 3 cfg0.N = rowArray m c :=
  (dats m 0 c).arrAt_eq_of_cover 3 (rowArray m c) (fun t hf => rowFlushed m c t hf) rowCover

end Cert.KernelIdeal.Tile

end
-- ==== Proof.ChamferSpec.lean ====
/-
  The bidirectional nearest-neighbour (chamfer) loss of two families of planar point sets, written once, index by
  index, on the extended reals: for each batch `β` the squared Euclidean distance between point `n` of `a` and
  point `j` of `b`, its minimum over `n` (the nearest `a`-point to each `b`-point) and over `j` (the nearest
  `b`-point to each `a`-point), each clamped below by `ε`, square-rooted, averaged over the 8·4096 points, and
  the two averages halved and added.  The distance is written as the sum of the two squared coordinate differences.
-/
import Idealize.ShloMosaic.PureOps.Ideal
import Idealize.ShloMosaic.Lib.ValueIdx

noncomputable section

namespace Cert.Chamfer

open Idealize.ShloMosaic

/-- A family of 8 sets of 4096 planar points, coordinates in the extended reals. -/
abbrev Pts : Type := Fin 8 → Fin 4096 → Fin 2 → EReal

/-- `(a₀ - b₀)² + (a₁ - b₁)²` for point `n` of `a` and point `j` of `b` in batch `β`. -/
def sqDist (a b : Pts) (β : Fin 8) (n j : Fin 4096) : EReal :=
  (a β n 0 - b β j 0) * (a β n 0 - b β j 0) + (a β n 1 - b β j 1) * (a β n 1 - b β j 1)

/-- The clamp `ε`: the binary32 number nearest `1e-12`. -/
def eps : EReal := Ideal.ofBits .f32 0x2B8CBCCC#32

/-- The least squared distance from point `j` of `b` to a point of `a`. -/
def toNearestA (a b : Pts) (β : Fin 8) (j : Fin 4096) : EReal := Finset.univ.inf fun n => sqDist a b β n j

/-- The least squared distance from point `n` of `a` to a point of `b`. -/
def toNearestB (a b : Pts) (β : Fin 8) (n : Fin 4096) : EReal := Finset.univ.inf fun j => sqDist a b β n j

/-- The mean over all 8·4096 points of `√(max d ε)`, the sum started from the zero word and divided by 32768. -/
def meanRoot (d : Fin 8 → Fin 4096 → EReal) : EReal :=
  Ideal.div (Ideal.ofBits .f32 0x00000000#32 + ∑ β : Fin 8, ∑ j : Fin 4096, Ideal.sqrt (max (d β j) eps))
    (Ideal.ofBits .f32 0x47000000#32)

/-- The loss: half the sum of the two directed mean root distances. -/
def loss (a b : Pts) : EReal :=
  Ideal.ofBits .f32 0x3F000000#32 * (meanRoot (toNearestA a b) + meanRoot (toNearestB a b))

end Cert.Chamfer

end
-- ==== Proof.LibBlockExtrema.lean ====
/-
  Extrema and sums over an index range cut into blocks.

  The infimum over 4096 indices is the infimum of the four infima over its consecutive blocks of 1024 indices
  (in any lattice with a top); and a sum over the indices of an [8, 1, 4096] array is the double sum over its first and
  last coordinates, the middle coordinate being always 0.
-/
import Idealize.ShloMosaic.Lib.ValueIdx

namespace Cert.LibBlockExtrema

open Idealize.ShloMosaic

/-- The infimum of g over 0 ≤ i < 4096 is the infimum of the four block infima
    inf_{r<1024} g(r), inf_{r<1024} g(1024 + r), inf_{r<1024} g(2048 + r), inf_{r<1024} g(3072 + r). -/
theorem inf_four_blocks {α : Type*} [SemilatticeInf α] [OrderTop α] (g : Fin 4096 → α) :
    Finset.univ.inf g
      = (((Finset.univ.inf fun r : Fin 1024 => g ⟨r.val, by omega⟩)
          ⊓ (Finset.univ.inf fun r : Fin 1024 => g ⟨1024 + r.val, by omega⟩))
          ⊓ (Finset.univ.inf fun r : Fin 1024 => g ⟨2048 + r.val, by omega⟩))
          ⊓ (Finset.univ.inf fun r : Fin 1024 => g ⟨3072 + r.val, by omega⟩) := by
  apply le_antisymm
  · exact le_inf (le_inf (le_inf
      (Finset.le_inf fun r _ => Finset.inf_le (Finset.mem_univ _))
      (Finset.le_inf fun r _ => Finset.inf_le (Finset.mem_univ _)))
      (Finset.le_inf fun r _ => Finset.inf_le (Finset.mem_univ _)))
      (Finset.le_inf fun r _ => Finset.inf_le (Finset.mem_univ _))
  · refine Finset.le_inf fun i _ => ?_
    have hi : i.val < 4096 := i.isLt
    by_cases h1 : i.val < 1024
    · have e : (⟨(⟨i.val, h1⟩ : Fin 1024).val, by omega⟩ : Fin 4096) = i := Fin.ext rfl
      exact (inf_le_left.trans (inf_le_left.trans inf_le_left)).trans
        (le_of_le_of_eq (Finset.inf_le (Finset.mem_univ (⟨i.val, h1⟩ : Fin 1024))) (congrArg g e))
    · by_cases h2 : i.val < 2048
      · have e : (⟨1024 + (⟨i.val - 1024, by omega⟩ : Fin 1024).val, by omega⟩ : Fin 4096) = i :=
          Fin.ext (by show 1024 + (i.val - 1024) = i.val; omega)
        exact (inf_le_left.trans (inf_le_left.trans inf_le_right)).trans
          (le_of_le_of_eq (Finset.inf_le (Finset.mem_univ (⟨i.val - 1024, by omega⟩ : Fin 1024))) (congrArg g e))
      · by_cases h3 : i.val < 3072
        · have e : (⟨2048 + (⟨i.val - 2048, by omega⟩ : Fin 1024).val, by omega⟩ : Fin 4096) = i :=
            Fin.ext (by show 2048 + (i.val - 2048) = i.val; omega)
          exact (inf_le_left.trans inf_le_right).trans
            (le_of_le_of_eq (Finset.inf_le (Finset.mem_univ (⟨i.val - 2048, by omega⟩ : Fin 1024))) (congrArg g e))
        · have e : (⟨3072 + (⟨i.val - 3072, by omega⟩ : Fin 1024).val, by omega⟩ : Fin 4096) = i :=
            Fin.ext (by show 3072 + (i.val - 3072) = i.val; omega)
          exact inf_le_right.trans
            (le_of_le_of_eq (Finset.inf_le (Finset.mem_univ (⟨i.val - 3072, by omega⟩ : Fin 1024))) (congrArg g e))

/-- The indices of an [8, 1, 4096] array are the pairs (first coordinate, last coordinate). -/
def idxEquivUnitMid : (⟨3, ![8, 1, 4096]⟩ : Shape).Idx ≃ Fin 8 × Fin 4096 where
  toFun i := (i 0, i 2)
  invFun p := ValueIdx.ix3 p.1 (0 : Fin 1) p.2
  left_inv i := by
    funext a
    match a with
    | ⟨0, _⟩ => rfl
    | ⟨1, _⟩ => exact Fin.ext (by have h : (i 1).val < 1 := (i 1).isLt; show (0 : ℕ) = (i 1).val; omega)
    | ⟨2, _⟩ => rfl
  right_inv _ := rfl

/-- A sum over all indices of an [8, 1, 4096] array is the double sum over its first and last coordinates:
    Σ_i f(i) = Σ_{β<8} Σ_{j<4096} f(β, 0, j). -/
theorem sum_unit_mid (f : (⟨3, ![8, 1, 4096]⟩ : Shape).Idx → EReal) :
    ∑ i, f i = ∑ β : Fin 8, ∑ j : Fin 4096, f (ValueIdx.ix3 β 0 j) := by
  rw [← Equiv.sum_comp idxEquivUnitMid.symm f, Fintype.sum_prod_type]
  rfl

end Cert.LibBlockExtrema
-- ==== Proof.Ideal.HostTail.lean ====
/-
  The host operations after the kernel: from the two arrays of least squared distances to the loss.

  After the kernel has produced the two [8, 1, 4096] arrays D0 and D1 of least squared distances, the program clamps
  each below by ε, takes square roots, sums all 8·4096 entries from the zero word, divides by 32768, adds the two
  quotients and halves the sum. Written as one function of D0 and D1, this is ½ · (meanRoot D0 + meanRoot D1), where
  meanRoot d = (0 + Σ_β Σ_j √(max(d[β, j], ε))) / 32768: the sum over every index of an [8, 1, 4096] array is the
  double sum over its first and last coordinates.
-/
import proofs.«101472_j35115652612620_2_alg».proof.Proof.Gen.KernelIdeal
import proofs.«101472_j35115652612620_2_alg».proof.Proof.ChamferSpec
import proofs.«101472_j35115652612620_2_alg».proof.Proof.LibBlockExtrema
import Idealize.ShloMosaic.PureOps.Ideal.Laws
import Idealize.ShloMosaic.Lib.IdealHost

noncomputable section

namespace Cert.KernelIdeal.HostTail

open Idealize.ShloMosaic Idealize.ShloMosaic.ValueIdx Idealize.SL.Sem
open Cert.KernelIdeal.Facts₀

variable [Cert.KernelIdeal.Facts]

/-- One direction's mean root distance as the program computes it: clamp below by ε, square root, sum of all entries
    from the zero word, quotient by the word of 32768. -/
def meanRootOps (D : FVec Ideal S8x1x4096 .f32) : FVec Ideal S_ .f32 :=
  Host.divf (F := Ideal)
    (Host.reduceAdd (F := Ideal)
      (Host.sqrt (F := Ideal)
        (maximumf D (broadcastInDim S8x1x4096 ![] bcast_S_S8x1x4096 (constant (F := Ideal) S_ .f32 0x2B8CBCCC#32))))
      (constant (F := Ideal) S_ .f32 0x00000000#32) reducesTo_S8x1x4096_S_d0_1_2 h_S_)
    (constant (F := Ideal) S_ .f32 0x47000000#32)

/-- The host operations after the kernel, as one function of the kernel's two result arrays. -/
def tail (D0 D1 : FVec Ideal S8x1x4096 .f32) : FVec Ideal S_ .f32 :=
  mulf (constant (F := Ideal) S_ .f32 0x3F000000#32) (addf
    (Host.divf (F := Ideal) (Host.reduceAdd (F := Ideal) (Host.sqrt (F := Ideal) (maximumf D0 (broadcastInDim S8x1x4096 ![] bcast_S_S8x1x4096 (constant (F := Ideal) S_ .f32 0x2B8CBCCC#32)))) (constant (F := Ideal) S_ .f32 0x00000000#32) reducesTo_S8x1x4096_S_d0_1_2 h_S_) (constant (F := Ideal) S_ .f32 0x47000000#32))
    (Host.divf (F := Ideal) (Host.reduceAdd (F := Ideal) (Host.sqrt (F := Ideal) (maximumf D1 (broadcastInDim S8x1x4096 ![] bcast_S_S8x1x4096 (constant (F := Ideal) S_ .f32 0x2B8CBCCC#32)))) (constant (F := Ideal) S_ .f32 0x00000000#32) reducesTo_S8x1x4096_S_d0_1_2 h_S_) (constant (F := Ideal) S_ .f32 0x47000000#32)))

/-- The program's mean root distance of an [8, 1, 4096] array is the specification's, of the array read at (β, 0, j):
    the sum over all indices is the double sum over β and j. -/
theorem meanRootOps_apply (D : FVec Ideal S8x1x4096 .f32) (i : S_.Idx) :
    meanRootOps D i = Cert.Chamfer.meanRoot (fun β j => D (ix3 β 0 j)) := by
  unfold meanRootOps Cert.Chamfer.meanRoot
  rw [hostDivf_apply]
  refine congrArg₂ Ideal.div ?_ rfl
  rw [hostReduceAdd_apply, Ideal.hostReduceAdd_total _ (fun b => b.elim0)]
  refine congrArg₂ (· + ·) rfl ?_
  rw [Cert.LibBlockExtrema.sum_unit_mid]
  refine Finset.sum_congr rfl fun β _ => Finset.sum_congr rfl fun j _ => ?_
  show Ideal.sqrt (max (D (ix3 β 0 j)) (broadcastInDim S8x1x4096 ![] bcast_S_S8x1x4096
    (constant (F := Ideal) S_ .f32 0x2B8CBCCC#32) (ix3 β 0 j))) = _
  rw [broadcastInDim_scalar_apply]
  rfl

/-- The host operations after the kernel give ½ · (meanRoot D0 + meanRoot D1). -/
theorem tail_apply (D0 D1 : FVec Ideal S8x1x4096 .f32) :
    tail D0 D1 = fun _ => Ideal.ofBits .f32 0x3F000000#32
      * (Cert.Chamfer.meanRoot (fun β j => D0 (ix3 β 0 j)) + Cert.Chamfer.meanRoot (fun β j => D1 (ix3 β 0 j))) := by
  funext i
  show Ideal.ofBits .f32 0x3F000000#32 * (meanRootOps D0 i + meanRootOps D1 i) = _
  rw [meanRootOps_apply, meanRootOps_apply]

end Cert.KernelIdeal.HostTail

end
-- ==== Proof.Ideal.HostPrefix.lean ====
/-
  The host operations before the kernel: the two projected planes, as the reference computes them.

  Before the kernel runs, the program projects both point clouds with the same operations, in the same order, as the
  reference: [x | 1] · Pᵀ, the first two coordinates divided by the third, minus 112, divided by 224. So the array the
  kernel reads as the target plane is the reference's target plane, and the array it reads as the predicted plane,
  which the program stores transposed ([8, 2, 4096]: coordinate k of point j of batch β at (β, k, j)), is the
  reference's predicted plane read at (β, j, k).
-/
import proofs.«101472_j35115652612620_2_alg».proof.Proof.Gen.KernelIdeal.Frame
import proofs.«101472_j35115652612620_2_alg».proof.Proof.Gen.ReferenceIdeal.Read
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostPrefix

open Idealize.ShloMosaic Idealize.ShloMosaic.ValueIdx Idealize.ShloMosaic.TcCoe Idealize.SL.Sem Idealize.ShloMosaic.StableHlo
open Cert.KernelIdeal

variable (m : (ℓ : Loc nD τ sig) → Buf (Elt Ideal) ℓ) (c : Dev nD)

set_option maxRecDepth 8192 in
set_option maxHeartbeats 4000000 in
/-- The target plane the kernel reads is the reference's target plane of the same arguments. -/
theorem gtPlane_eq :
    (Gen.V m c main_v10 : S8x4096x2.Idx → EReal)
      = Cert.ReferenceIdeal.Read.val_main_v10 (F := Ideal) (m ((c.tc : Thread nD τ).loc main_arg1))
          (m ((c.tc : Thread nD τ).loc main_arg2)) := by
  show StableHlo.after Gen.hostOps0 (fun b => m (c, b)) (Proc.devRef .tc main_v10) = _
  after_results_simp
  repeat (first
    | rw [nullary_result] | rw [unary_result]
    | (rw [nullary_result_ne]; rotate_left; decide)
    | (rw [unary_result_ne]; rotate_left; decide))
  rfl

set_option maxRecDepth 8192 in
set_option maxHeartbeats 4000000 in
/-- The predicted plane the kernel reads is the reference's predicted plane of the same arguments, transposed in its
    last two axes. -/
theorem predPlaneT_eq :
    (Gen.V m c main_v22 : S8x2x4096.Idx → EReal)
      = transpose S8x2x4096 [0, 2, 1]
          (Cert.ReferenceIdeal.Read.val_main_v21 (F := Ideal) (m ((c.tc : Thread nD τ).loc main_arg0))
            (m ((c.tc : Thread nD τ).loc main_arg2)))
          Gen.transposes_S8x4096x2_S8x2x4096_0_2_1 := by
  show StableHlo.after Gen.hostOps0 (fun b => m (c, b)) (Proc.devRef .tc main_v22) = _
  after_results_simp
  repeat (first
    | rw [nullary_result] | rw [unary_result]
    | (rw [nullary_result_ne]; rotate_left; decide)
    | (rw [unary_result_ne]; rotate_left; decide))
  rfl

/-- Entry (β, k, j) of the predicted plane the kernel reads is coordinate k of point j of batch β of the reference's
    predicted plane. -/
theorem predPlaneT_apply (β : Fin 8) (k : Fin 2) (j : Fin 4096) :
    (Gen.V m c main_v22 : S8x2x4096.Idx → EReal) (ix3 β k j)
      = Cert.ReferenceIdeal.Read.val_main_v21 (F := Ideal) (m ((c.tc : Thread nD τ).loc main_arg0))
          (m ((c.tc : Thread nD τ).loc main_arg2)) (ix3 β j k) := by
  rw [predPlaneT_eq]
  exact transpose_ix3_021_apply _ _ β k j

end Cert.KernelIdeal.HostPrefix

end
-- ==== Proof.Ideal.TileBlocks.lean ====
/-
  The two input blocks of the tiled kernel at a grid point, entry by entry, as entries of the two planes of points.

  The grid point of batch β, row tile n and column tile q has number 16 β + 4 n + q.  There the first input's block is
  rows 1024 n … 1024 n + 1023 of batch β of the first plane (1024 points, 2 coordinates), and the second input's block is
  columns 1024 q … 1024 q + 1023 of batch β of the transposed second plane (2 coordinates, 1024 points): a block's
  coordinate on an axis is the block index times the block size plus the coordinate inside the block.
-/
import proofs.«101472_j35115652612620_2_alg».proof.Proof.Ideal.Tracked
import proofs.«101472_j35115652612620_2_alg».proof.Proof.ChamferSpec

set_option maxRecDepth 16384

noncomputable section

namespace Cert.KernelIdeal.TileValues

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen
open ValueIdx

variable (m : (ℓ : Loc nD τ sig) → Buf (Elt Ideal) ℓ) (c : Dev nD)

/-- The first plane of points as the region finds it: 8 batches of 4096 points with 2 coordinates. -/
def ptsA : Cert.Chamfer.Pts := fun β n k => (V m c main_v10 : S8x4096x2.Idx → EReal) (ix3 β n k)

/-- The second plane of points, which the region finds transposed (coordinate before point): read through the transpose. -/
def ptsB : Cert.Chamfer.Pts := fun β j k => (V m c main_v22 : S8x2x4096.Idx → EReal) (ix3 β k j)

/-- Where the first input's block sits at point `t`: batch `t / 16`, row tile `(t % 16) / 4`, both coordinates. -/
theorem blockIndexA : ∀ t : Fin cfg0.N, win0_0.index t (0 : Fin 3) = t.val / 16 ∧ win0_0.index t (1 : Fin 3) = t.val % 16 / 4
    ∧ win0_0.index t (2 : Fin 3) = 0 :=
  (by decide +kernel : ∀ t : Fin grid0.N, _)

/-- Where the second input's block sits at point `t`: batch `t / 16`, both coordinates, column tile `t % 4`. -/
theorem blockIndexB : ∀ t : Fin cfg0.N, win0_1.index t (0 : Fin 3) = t.val / 16 ∧ win0_1.index t (1 : Fin 3) = 0
    ∧ win0_1.index t (2 : Fin 3) = t.val % 4 :=
  (by decide +kernel : ∀ t : Fin grid0.N, _)

/-- The point of batch `β`, row tile `n`, column tile `q` has number `16 β + 4 n + q`. -/
theorem pt_val_of (β : Fin 8) (n q : Fin 4) :
    (Tile.pt (16 * β.val + 4 * n.val + q.val)).val = 16 * β.val + 4 * n.val + q.val := by
  have hβ := β.isLt; have hn := n.isLt; have hq := q.isLt
  show (16 * β.val + 4 * n.val + q.val) % 128 = _; omega

/-- Row `r` of the first input's block at the point (β, n, q) is point `1024 n + r` of batch `β`. -/
theorem blkA_apply (β : Fin 8) (n q : Fin 4) (r : Fin 1024) (k : Fin 2) :
    Tile.blkA m c (Tile.pt (16 * β.val + 4 * n.val + q.val)) (ix3 0 r k)
      = ptsA m c β ⟨1024 * n.val + r.val, by omega⟩ k := by
  have hβ := β.isLt; have hn := n.isLt; have hq := q.isLt; have hr := r.isLt; have hk := k.isLt
  obtain ⟨e0, e1, e2⟩ := blockIndexA (Tile.pt (16 * β.val + 4 * n.val + q.val))
  rw [pt_val_of] at e0 e1
  show (V m c main_v10 : S8x4096x2.Idx → EReal) (((cfg0.win 0).blk (Tile.pt (16 * β.val + 4 * n.val + q.val))).view.emb (ix3 0 r k)) = _
  refine congrArg (V m c main_v10 : S8x4096x2.Idx → EReal) ?_
  funext a; apply Fin.ext
  match a with
  | ⟨0, _⟩ =>
    show win0_0.index (Tile.pt (16 * β.val + 4 * n.val + q.val)) (0 : Fin 3) * 1 + 1 * 0 = β.val
    rw [e0]; omega
  | ⟨1, _⟩ =>
    show win0_0.index (Tile.pt (16 * β.val + 4 * n.val + q.val)) (1 : Fin 3) * 1024 + 1 * r.val = 1024 * n.val + r.val
    rw [e1]; omega
  | ⟨2, _⟩ =>
    show win0_0.index (Tile.pt (16 * β.val + 4 * n.val + q.val)) (2 : Fin 3) * 2 + 1 * k.val = k.val
    rw [e2]; omega

/-- Column `x` of the second input's block at the point (β, n, q) is point `1024 q + x` of batch `β`. -/
theorem blkB_apply (β : Fin 8) (n q : Fin 4) (k : Fin 2) (x : Fin 1024) :
    Tile.blkB m c (Tile.pt (16 * β.val + 4 * n.val + q.val)) (ix3 0 k x)
      = ptsB m c β ⟨1024 * q.val + x.val, by omega⟩ k := by
  have hβ := β.isLt; have hn := n.isLt; have hq := q.isLt; have hx := x.isLt; have hk := k.isLt
  obtain ⟨e0, e1, e2⟩ := blockIndexB (Tile.pt (16 * β.val + 4 * n.val + q.val))
  rw [pt_val_of] at e0 e2
  show (V m c main_v22 : S8x2x4096.Idx → EReal) (((cfg0.win 1).blk (Tile.pt (16 * β.val + 4 * n.val + q.val))).view.emb (ix3 0 k x)) = _
  refine congrArg (V m c main_v22 : S8x2x4096.Idx → EReal) ?_
  funext a; apply Fin.ext
  match a with
  | ⟨0, _⟩ =>
    show win0_1.index (Tile.pt (16 * β.val + 4 * n.val + q.val)) (0 : Fin 3) * 1 + 1 * 0 = β.val
    rw [e0]; omega
  | ⟨1, _⟩ =>
    show win0_1.index (Tile.pt (16 * β.val + 4 * n.val + q.val)) (1 : Fin 3) * 2 + 1 * k.val = k.val
    rw [e1]; omega
  | ⟨2, _⟩ =>
    show win0_1.index (Tile.pt (16 * β.val + 4 * n.val + q.val)) (2 : Fin 3) * 1024 + 1 * x.val = 1024 * q.val + x.val
    rw [e2]; omega

end Cert.KernelIdeal.TileValues

end
-- ==== Proof.TilePayloads.lean ====
/-
  The kernel body's values, read at an index.

  The body takes a block of 1024 target points (a [1, 1024, 2] array: point r has coordinates ax[r], ay[r]) and a block
  of 1024 predicted points (a [1, 2, 1024] array: point c has coordinates bx[c], by[c]), and forms the 1024 × 1024 tile
  d[r, c] = (ax[r] - bx[c])² + (ay[r] - by[c])² of squared distances, the minimum of every column (over r) and the
  minimum of every row (over c), both folded from +∞. It then lays the column minima out as a [1, 1024] block and the
  row minima as a [1, 1, 1024] block, either as they are or as the entrywise minimum with a running block. This file
  reads each of these values at an index given by coordinates: the layout operations (dropping or adding a unit axis,
  cutting one column or one row, spreading a column along the rows or a row down the columns) each pick one entry of
  their operand, and a minimum over one axis from +∞ is the infimum over that axis's coordinate.
-/
import proofs.«101472_j35115652612620_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.TilePayloads

open Idealize.ShloMosaic Idealize.ShloMosaic.ValueIdx Idealize.SL.Sem Cert.KernelIdeal Cert.KernelIdeal.Gen

/-! ### Layout operations and a minimum over one axis, read at an index -/

section General
variable {α : Type}

/-- A column [a, 1] broadcast to [a, b] reads, at (p, c), the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The fold of min from +∞ over a finite set is the infimum over the set. -/
theorem fold_min_top_eq_inf {ι : Type} (s : Finset ι) (f : ι → EReal) : s.fold min ⊤ f = s.inf f := by
  classical
  induction s using Finset.induction_on with
  | empty => rfl
  | insert a s ha ih => rw [Finset.fold_insert ha, Finset.inf_insert, ih]

/-- The word 0x7F800000 of the 32-bit format denotes +∞. -/
theorem ofBits_inf_f32 : Ideal.ofBits .f32 0x7F800000#32 = ⊤ := by
  simp [Ideal.ofBits, Ideal.ieee]

/-- A minimum reduction over ONE axis from the accumulator +∞, on the extended reals, read at a result index: the
    infimum, over that axis's coordinates k, of the source at the result index with k inserted on the reduced axis. -/
theorem multiReduction_minimumf_inf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j
      = (Finset.univ : Finset (Fin (s.size a))).inf fun k => src (h.lift j k) := by
  rw [multiReduction_minimumf_eq_fold]
  refine (h.fold_filter_drop_single _ _ src j).trans ?_
  show (Finset.univ : Finset (Fin (s.size a))).fold min (Ideal.ofBits .f32 0x7F800000#32) (src ∘ h.lift j) = _
  rw [ofBits_inf_f32, fold_min_top_eq_inf]
  rfl

end General

/-! ### The tile of squared distances and its minima

A block of 1024 target points (ax[r], ay[r]) and a block of 1024 predicted points (bx[c], by[c]) give the tile
d[r, c] = (ax[r] - bx[c])² + (ay[r] - by[c])². The body computes the tile, its column minima min_r d[r, c] and its
row minima min_c d[r, c], and either stores them or lowers a running minimum by them. -/

/-- The squared distance between target point r and predicted point c of the two blocks. -/
def tileDist (xa : Vec Ideal S1x1024x2 .f32) (xb : Vec Ideal S1x2x1024 .f32) (r cc : Fin 1024) : EReal :=
  (xa (ix3 0 r 0) - xb (ix3 0 0 cc)) * (xa (ix3 0 r 0) - xb (ix3 0 0 cc))
    + (xa (ix3 0 r 1) - xb (ix3 0 1 cc)) * (xa (ix3 0 r 1) - xb (ix3 0 1 cc))

/-- Column k of the target block, spread along the tile's rows: at (r, c) it is coordinate k of target point r. -/
theorem rowCoord_apply (xa : Vec Ideal S1x1024x2 .f32) (o : ℕ) (k : Fin 2) (hk : k.val = o + 0)
    (hs : S1024x2.Slices ![0, o] S1024x1) (r cc : Fin 1024) :
    broadcastTo S1024x1024
        (extractStridedSlice S1024x1 ![0, o] (shapeCast S1024x2 xa shapeCasts_S1x1024x2_S1024x2) hs)
        broadcasts_S1024x1_S1024x1024 (ix2 r cc) = xa (ix3 0 r k) := by
  refine (broadcastTo_a1_ab_apply _ _ r cc).trans ?_
  refine (slice2_axis1_apply o _ _ r (0 : Fin 1) k hk).trans ?_
  exact shapeCast_1ab_ab_apply xa _ r k

/-- Row k of the predicted block, spread down the tile's columns: at (r, c) it is coordinate k of predicted point c. -/
theorem colCoord_apply (xb : Vec Ideal S1x2x1024 .f32) (o : ℕ) (k : Fin 2) (hk : k.val = o + 0)
    (hs : S2x1024.Slices ![o, 0] S1x1024) (r cc : Fin 1024) :
    broadcastTo S1024x1024
        (extractStridedSlice S1x1024 ![o, 0] (shapeCast S2x1024 xb shapeCasts_S1x2x1024_S2x1024) hs)
        broadcasts_S1x1024_S1024x1024 (ix2 r cc) = xb (ix3 0 k cc) := by
  refine (broadcastTo_1b_ab_apply _ _ r cc).trans ?_
  refine (slice2_axis0_apply o _ _ (0 : Fin 1) cc k hk).trans ?_
  exact shapeCast_1ab_ab_apply xb _ k cc

/-- The tile at (r, c) is the squared distance between target point r and predicted point c. -/
theorem pay2_apply (xa : Vec Ideal S1x1024x2 .f32) (xb : Vec Ideal S1x2x1024 .f32) (r cc : Fin 1024) :
    k0_pay2 (F := Ideal) xa xb (ix2 r cc) = tileDist xa xb r cc := by
  have a0 := rowCoord_apply xa 0 0 rfl slices_S1024x2_o0_0_S1024x1 r cc
  have a1 := rowCoord_apply xa 1 1 rfl slices_S1024x2_o0_1_S1024x1 r cc
  have b0 := colCoord_apply xb 0 0 rfl slices_S2x1024_o0_0_S1x1024 r cc
  have b1 := colCoord_apply xb 1 1 rfl slices_S2x1024_o1_0_S1x1024 r cc
  dsimp only [k0_pay2]
  simp only [addf_apply, mulf_apply, subf_apply]
  rw [a0, a1, b0, b1]
  rfl

/-- The minimum down column c of the tile: the infimum over the target points r of d[r, c]. -/
theorem colMin_apply (xa : Vec Ideal S1x1024x2 .f32) (xb : Vec Ideal S1x2x1024 .f32) (cc : Fin 1024) :
    k0_pay3 (F := Ideal) xa xb (ix1 cc) = Finset.univ.inf fun r : Fin 1024 => tileDist xa xb r cc := by
  dsimp only [k0_pay3]
  refine (multiReduction_minimumf_inf (k0_pay2 (F := Ideal) xa xb) reduces_S1024x1024_S1024 _ _ (ix1 cc)).trans ?_
  show (Finset.univ : Finset (Fin 1024)).inf _ = _
  refine Finset.inf_congr rfl fun r _ => ?_
  have e : reduces_S1024x1024_S1024.lift (ix1 cc) r = ix2 r cc :=
    funext fun a => Fin.ext (by match a with | ⟨0, _⟩ => rfl | ⟨1, _⟩ => rfl)
  rw [e]
  exact pay2_apply xa xb r cc

/-- The minimum along row r of the tile: the infimum over the predicted points c of d[r, c]. -/
theorem rowMin_apply (xa : Vec Ideal S1x1024x2 .f32) (xb : Vec Ideal S1x2x1024 .f32) (r : Fin 1024) :
    k0_pay4 (F := Ideal) xa xb (ix1 r) = Finset.univ.inf fun cc : Fin 1024 => tileDist xa xb r cc := by
  dsimp only [k0_pay4]
  refine (multiReduction_minimumf_inf (k0_pay2 (F := Ideal) xa xb) reduces_S1024x1024_S1024_2 _ _ (ix1 r)).trans ?_
  show (Finset.univ : Finset (Fin 1024)).inf _ = _
  refine Finset.inf_congr rfl fun cc _ => ?_
  have e : reduces_S1024x1024_S1024_2.lift (ix1 r) cc = ix2 r cc :=
    funext fun a => Fin.ext (by match a with | ⟨0, _⟩ => rfl | ⟨1, _⟩ => rfl)
  rw [e]
  exact pay2_apply xa xb r cc

/-- The column minima as a one-row block: entry (0, c) is the minimum down column c. -/
theorem pay5_apply (xa : Vec Ideal S1x1024x2 .f32) (xb : Vec Ideal S1x2x1024 .f32) (cc : Fin 1024) :
    k0_pay5 (F := Ideal) xa xb (ix2 0 cc) = Finset.univ.inf fun r : Fin 1024 => tileDist xa xb r cc := by
  dsimp only [k0_pay5]
  refine (congrFun (shapeCast_self _ _) _).trans ?_
  exact (shapeCast_a_1a_apply _ _ (0 : Fin 1) cc).trans (colMin_apply xa xb cc)

/-- A running one-row block of minima lowered by the column minima: entry (0, c) is min(v[0, c], min_r d[r, c]). -/
theorem pay6_apply (xa : Vec Ideal S1x1024x2 .f32) (xb : Vec Ideal S1x2x1024 .f32) (v : Vec Ideal S1x1024 .f32)
    (cc : Fin 1024) :
    k0_pay6 (F := Ideal) xa xb v (ix2 0 cc)
      = min (v (ix2 0 cc)) (Finset.univ.inf fun r : Fin 1024 => tileDist xa xb r cc) := by
  dsimp only [k0_pay6]
  refine (congrFun (shapeCast_self _ _) _).trans ?_
  exact congrArg (min (v (ix2 0 cc))) ((shapeCast_a_1a_apply _ _ (0 : Fin 1) cc).trans (colMin_apply xa xb cc))

/-- The row minima as a [1, 1, 1024] block: entry (0, 0, r) is the minimum along row r. -/
theorem pay7_apply (xa : Vec Ideal S1x1024x2 .f32) (xb : Vec Ideal S1x2x1024 .f32) (r : Fin 1024) :
    k0_pay7 (F := Ideal) xa xb (ix3 0 0 r) = Finset.univ.inf fun cc : Fin 1024 => tileDist xa xb r cc := by
  dsimp only [k0_pay7]
  refine (shapeCast_ab_1ab_apply _ _ (0 : Fin 1) (0 : Fin 1) r).trans ?_
  exact (shapeCast_a_1a_apply _ _ (0 : Fin 1) r).trans (rowMin_apply xa xb r)

/-- A running [1, 1, 1024] block of minima lowered by the row minima: entry (0, 0, r) is min(w[0, 0, r], min_c d[r, c]). -/
theorem pay8_apply (xa : Vec Ideal S1x1024x2 .f32) (xb : Vec Ideal S1x2x1024 .f32) (w : Vec Ideal S1x1x1024 .f32)
    (r : Fin 1024) :
    k0_pay8 (F := Ideal) xa xb w (ix3 0 0 r)
      = min (w (ix3 0 0 r)) (Finset.univ.inf fun cc : Fin 1024 => tileDist xa xb r cc) := by
  dsimp only [k0_pay8]
  refine (shapeCast_ab_1ab_apply _ _ (0 : Fin 1) (0 : Fin 1) r).trans ?_
  exact congrArg₂ min (shapeCast_1ab_ab_apply w _ (0 : Fin 1) r)
    ((shapeCast_a_1a_apply _ _ (0 : Fin 1) r).trans (rowMin_apply xa xb r))

/-- A [1, 4096] row viewed as a [1, 1, 4096] block keeps its entries: entry (0, 0, j) is v[0, j]. -/
theorem pay1_apply (v : Vec Ideal S1x4096 .f32) (j : Fin 4096) :
    k0_pay1 (F := Ideal) v (ix3 0 0 j) = v (ix2 0 j) := by
  dsimp only [k0_pay1]
  exact shapeCast_ab_1ab_apply v _ (0 : Fin 1) (0 : Fin 1) j

end Cert.TilePayloads

end
-- ==== Proof.Ideal.TileValues.lean ====
/-
  What the tiled kernel's two running minima hold, in terms of the two planes of points.

  Inside the tile of batch β, row tile n and column tile q the entry (r, x) is the squared distance between point
  1024 n + r of the first plane and point 1024 q + x of the second.  The column accumulator of batch β lowers each column
  by the column minima of the four row tiles in turn, so after the batch its entry j is the least squared distance from
  point j of the second plane to any point of the first: the four row tiles cut the 4096 points of the first plane into
  four consecutive blocks of 1024.  Likewise the row-minimum block after the fourth column tile of row tile n holds, at
  row r, the least squared distance from point 1024 n + r of the first plane to any point of the second.
-/
import proofs.«101472_j35115652612620_2_alg».proof.Proof.Ideal.TileBlocks
import proofs.«101472_j35115652612620_2_alg».proof.Proof.ChamferSpec
import proofs.«101472_j35115652612620_2_alg».proof.Proof.TilePayloads
import proofs.«101472_j35115652612620_2_alg».proof.Proof.LibBlockExtrema

set_option maxRecDepth 16384

noncomputable section

namespace Cert.KernelIdeal.TileValues

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen
open ValueIdx

variable (m : (ℓ : Loc nD τ sig) → Buf (Elt Ideal) ℓ) (c : Dev nD)

open Cert.TilePayloads Cert.Chamfer

/-- Inside the tile of batch β, row tile n, column tile q the entry (r, x) is the squared distance between point
    `1024 n + r` of the first plane and point `1024 q + x` of the second. -/
theorem tile_eq (β : Fin 8) (n q : Fin 4) (r x : Fin 1024) :
    tileDist (Tile.blkA m c (Tile.pt (16 * β.val + 4 * n.val + q.val))) (Tile.blkB m c (Tile.pt (16 * β.val + 4 * n.val + q.val))) r x
      = sqDist (ptsA m c) (ptsB m c) β ⟨1024 * n.val + r.val, by omega⟩ ⟨1024 * q.val + x.val, by omega⟩ := by
  unfold tileDist sqDist
  rw [blkA_apply m c β n q r 0, blkA_apply m c β n q r 1, blkB_apply m c β n q 0 x, blkB_apply m c β n q 1 x]

/-- The minimum of four block minima, nested to the left, is the minimum over all 4096 indices. -/
theorem min_four_blocks (g : Fin 4096 → EReal) :
    min (min (min (Finset.univ.inf fun x : Fin 1024 => g ⟨1024 * 0 + x.val, by omega⟩)
                  (Finset.univ.inf fun x : Fin 1024 => g ⟨1024 * 1 + x.val, by omega⟩))
             (Finset.univ.inf fun x : Fin 1024 => g ⟨1024 * 2 + x.val, by omega⟩))
        (Finset.univ.inf fun x : Fin 1024 => g ⟨1024 * 3 + x.val, by omega⟩)
      = Finset.univ.inf g := by
  rw [Cert.LibBlockExtrema.inf_four_blocks g]
  have e0 : (fun x : Fin 1024 => g ⟨1024 * 0 + x.val, by omega⟩) = fun x : Fin 1024 => g ⟨x.val, by omega⟩ :=
    funext fun x => congrArg g (Fin.ext (by show 1024 * 0 + x.val = x.val; omega))
  rw [e0]

/-- Column tile q of batch β after all four row tiles: at column x, the least squared distance from point
    `1024 q + x` of the second plane to the first plane. -/
theorem colRun_apply (β : Fin 8) (q : Fin 4) (x : Fin 1024) :
    Tile.colRun m c β.val q.val 3 (ix2 (0 : Fin 1) x)
      = toNearestA (ptsA m c) (ptsB m c) β ⟨1024 * q.val + x.val, by omega⟩ := by
  have hβ := β.isLt; have hq := q.isLt; have hx := x.isLt
  have U : ∀ (n : ℕ) (hn : n < 4),
      (Finset.univ.inf fun r : Fin 1024 => tileDist (Tile.blkA m c (Tile.pt (16 * β.val + 4 * n + q.val)))
          (Tile.blkB m c (Tile.pt (16 * β.val + 4 * n + q.val))) r x)
        = Finset.univ.inf fun r : Fin 1024 =>
            sqDist (ptsA m c) (ptsB m c) β ⟨1024 * n + r.val, by omega⟩ ⟨1024 * q.val + x.val, by omega⟩ :=
    fun n hn => congrArg Finset.univ.inf (funext fun r => tile_eq m c β ⟨n, hn⟩ q r x)
  have C0 : Tile.colRun m c β.val q.val 0 (ix2 (0 : Fin 1) x)
      = Finset.univ.inf fun r : Fin 1024 =>
          sqDist (ptsA m c) (ptsB m c) β ⟨1024 * 0 + r.val, by omega⟩ ⟨1024 * q.val + x.val, by omega⟩ :=
    (pay5_apply _ _ x).trans (U 0 (by norm_num))
  have C1 : Tile.colRun m c β.val q.val 1 (ix2 (0 : Fin 1) x)
      = min (Tile.colRun m c β.val q.val 0 (ix2 (0 : Fin 1) x)) (Finset.univ.inf fun r : Fin 1024 =>
          sqDist (ptsA m c) (ptsB m c) β ⟨1024 * 1 + r.val, by omega⟩ ⟨1024 * q.val + x.val, by omega⟩) :=
    (pay6_apply _ _ _ x).trans (congrArg (min _) (U 1 (by norm_num)))
  have C2 : Tile.colRun m c β.val q.val 2 (ix2 (0 : Fin 1) x)
      = min (Tile.colRun m c β.val q.val 1 (ix2 (0 : Fin 1) x)) (Finset.univ.inf fun r : Fin 1024 =>
          sqDist (ptsA m c) (ptsB m c) β ⟨1024 * 2 + r.val, by omega⟩ ⟨1024 * q.val + x.val, by omega⟩) :=
    (pay6_apply _ _ _ x).trans (congrArg (min _) (U 2 (by norm_num)))
  have C3 : Tile.colRun m c β.val q.val 3 (ix2 (0 : Fin 1) x)
      = min (Tile.colRun m c β.val q.val 2 (ix2 (0 : Fin 1) x)) (Finset.univ.inf fun r : Fin 1024 =>
          sqDist (ptsA m c) (ptsB m c) β ⟨1024 * 3 + r.val, by omega⟩ ⟨1024 * q.val + x.val, by omega⟩) :=
    (pay6_apply _ _ _ x).trans (congrArg (min _) (U 3 (by norm_num)))
  rw [C3, C2, C1, C0]
  exact min_four_blocks fun n' => sqDist (ptsA m c) (ptsB m c) β n' ⟨1024 * q.val + x.val, by omega⟩

/-- The whole accumulator row at the end of batch β: at column j, the least squared distance from point j of the
    second plane to the first plane. -/
theorem colFull_apply (β : Fin 8) (j : Fin 4096) :
    Tile.colFull m c β.val (ix2 (0 : Fin 1) j) = toNearestA (ptsA m c) (ptsB m c) β j := by
  have hj := j.isLt
  have h := colRun_apply m c β ⟨j.val / 1024, by omega⟩ ⟨j.val % 1024, Nat.mod_lt _ (by norm_num)⟩
  have e : (⟨1024 * (j.val / 1024) + j.val % 1024, by omega⟩ : Fin 4096) = j := Fin.ext (by show 1024 * (j.val / 1024) + j.val % 1024 = j.val; omega)
  exact h.trans (congrArg (toNearestA (ptsA m c) (ptsB m c) β) e)

/-- The row-minimum block after the last column tile of row tile n of batch β: at row r, the least squared distance
    from point `1024 n + r` of the first plane to the second plane. -/
theorem rowAt_apply (β : Fin 8) (n : Fin 4) (r : Fin 1024) :
    Tile.rowAt m c (16 * β.val + 4 * n.val + 3) (ix3 (0 : Fin 1) (0 : Fin 1) r)
      = toNearestB (ptsA m c) (ptsB m c) β ⟨1024 * n.val + r.val, by omega⟩ := by
  have hβ := β.isLt; have hn := n.isLt; have hr := r.isLt
  have U : ∀ (q : ℕ) (hq : q < 4),
      (Finset.univ.inf fun x : Fin 1024 => tileDist (Tile.blkA m c (Tile.pt (16 * β.val + 4 * n.val + q)))
          (Tile.blkB m c (Tile.pt (16 * β.val + 4 * n.val + q))) r x)
        = Finset.univ.inf fun x : Fin 1024 =>
            sqDist (ptsA m c) (ptsB m c) β ⟨1024 * n.val + r.val, by omega⟩ ⟨1024 * q + x.val, by omega⟩ :=
    fun q hq => congrArg Finset.univ.inf (funext fun x => tile_eq m c β n ⟨q, hq⟩ r x)
  have d1 : 16 * β.val + 4 * n.val + 1 - 1 = 16 * β.val + 4 * n.val + 0 := by omega
  have d2 : 16 * β.val + 4 * n.val + 2 - 1 = 16 * β.val + 4 * n.val + 1 := by omega
  have d3 : 16 * β.val + 4 * n.val + 3 - 1 = 16 * β.val + 4 * n.val + 2 := by omega
  have R0 : Tile.rowAt m c (16 * β.val + 4 * n.val + 0) (ix3 (0 : Fin 1) (0 : Fin 1) r)
      = Finset.univ.inf fun x : Fin 1024 =>
          sqDist (ptsA m c) (ptsB m c) β ⟨1024 * n.val + r.val, by omega⟩ ⟨1024 * 0 + x.val, by omega⟩ :=
    (congrFun (Tile.rowAt_first m c (16 * β.val + 4 * n.val + 0) (by omega)) _).trans
      ((pay7_apply _ _ r).trans (U 0 (by norm_num)))
  have R1 : Tile.rowAt m c (16 * β.val + 4 * n.val + 1) (ix3 (0 : Fin 1) (0 : Fin 1) r)
      = min (Tile.rowAt m c (16 * β.val + 4 * n.val + 0) (ix3 (0 : Fin 1) (0 : Fin 1) r)) (Finset.univ.inf fun x : Fin 1024 =>
          sqDist (ptsA m c) (ptsB m c) β ⟨1024 * n.val + r.val, by omega⟩ ⟨1024 * 1 + x.val, by omega⟩) := by
    refine (congrFun (Tile.rowAt_later m c (16 * β.val + 4 * n.val + 1) (by omega)) _).trans ?_
    rw [d1]
    exact (pay8_apply _ _ _ r).trans (congrArg (min _) (U 1 (by norm_num)))
  have R2 : Tile.rowAt m c (16 * β.val + 4 * n.val + 2) (ix3 (0 : Fin 1) (0 : Fin 1) r)
      = min (Tile.rowAt m c (16 * β.val + 4 * n.val + 1) (ix3 (0 : Fin 1) (0 : Fin 1) r)) (Finset.univ.inf fun x : Fin 1024 =>
          sqDist (ptsA m c) (ptsB m c) β ⟨1024 * n.val + r.val, by omega⟩ ⟨1024 * 2 + x.val, by omega⟩) := by
    refine (congrFun (Tile.rowAt_later m c (16 * β.val + 4 * n.val + 2) (by omega)) _).trans ?_
    rw [d2]
    exact (pay8_apply _ _ _ r).trans (congrArg (min _) (U 2 (by norm_num)))
  have R3 : Tile.rowAt m c (16 * β.val + 4 * n.val + 3) (ix3 (0 : Fin 1) (0 : Fin 1) r)
      = min (Tile.rowAt m c (16 * β.val + 4 * n.val + 2) (ix3 (0 : Fin 1) (0 : Fin 1) r)) (Finset.univ.inf fun x : Fin 1024 =>
          sqDist (ptsA m c) (ptsB m c) β ⟨1024 * n.val + r.val, by omega⟩ ⟨1024 * 3 + x.val, by omega⟩) := by
    refine (congrFun (Tile.rowAt_later m c (16 * β.val + 4 * n.val + 3) (by omega)) _).trans ?_
    rw [d3]
    exact (pay8_apply _ _ _ r).trans (congrArg (min _) (U 3 (by norm_num)))
  rw [R3, R2, R1, R0]
  exact min_four_blocks fun j' => sqDist (ptsA m c) (ptsB m c) β ⟨1024 * n.val + r.val, by omega⟩ j'

end Cert.KernelIdeal.TileValues

end
-- ==== Proof.SquaredDistanceLaw.lean ====
/-
  The algebra behind the reference's nearest-neighbour loss, free of any program.

  For real coordinates the expanded squared distance  (a₀² + a₁²) + (b₀² + b₁²) − 2·(a₀b₀ + a₁b₁), each sum of squares
  started from the zero word and the factor two given as its binary32 word, is the sum of the two squared coordinate
  differences  (a₀ − b₀)² + (a₁ − b₁)².  Clamping from below, x ↦ max x ε, preserves binary minima and fixes ⊤, so it
  commutes with a minimum over a finite index set; and a fold of min started from the +∞ word is that minimum.
-/
import Idealize.ShloMosaic.PureOps.Ideal.Laws
import Mathlib.Data.EReal.Operations
import Mathlib.Order.Lattice
import Mathlib.Data.Finset.Lattice.Fold
import Mathlib.Tactic.Ring
import Mathlib.Tactic.NormNum

noncomputable section

namespace Cert.RefLoss

open Idealize.ShloMosaic

/-- The binary32 word `0x40000000` denotes the real number two. -/
theorem ofBits_two_f32 : Ideal.ofBits .f32 0x40000000#32 = ((2 : ℝ) : EReal) := by
  simp [Ideal.ofBits, Ideal.ieee]
  norm_cast
  norm_num

/-- The binary32 word `0x7F800000` denotes `+∞`. -/
theorem ofBits_posInf_f32 : Ideal.ofBits .f32 0x7F800000#32 = (⊤ : EReal) := by
  simp [Ideal.ofBits, Ideal.ieee]

/-- For real coordinates, `|a|² + |b|² − 2 a·b = |a − b|²`, the sums written as the reference writes them. -/
theorem expanded_eq_diffSquares (a b : Fin 2 → EReal) (ha : ∀ k, ∃ r : ℝ, a k = (r : EReal))
    (hb : ∀ k, ∃ r : ℝ, b k = (r : EReal)) :
    (Ideal.ofBits .f32 0x00000000#32 + ∑ k : Fin 2, a k * a k)
        + (Ideal.ofBits .f32 0x00000000#32 + ∑ k : Fin 2, b k * b k)
        - Ideal.ofBits .f32 0x40000000#32 * ∑ k : Fin 2, a k * b k
      = (a 0 - b 0) * (a 0 - b 0) + (a 1 - b 1) * (a 1 - b 1) := by
  obtain ⟨p0, h0⟩ := ha 0
  obtain ⟨p1, h1⟩ := ha 1
  obtain ⟨q0, g0⟩ := hb 0
  obtain ⟨q1, g1⟩ := hb 1
  rw [Ideal.ofBits_zero_f32, ofBits_two_f32]
  simp only [Fin.sum_univ_two, h0, h1, g0, g1, zero_add]
  norm_cast
  ring_nf

/-- Clamping from below commutes with the minimum over a finite index type. -/
theorem inf_max_eq_max_inf {ι : Type*} [Fintype ι] (f : ι → EReal) (e : EReal) :
    (Finset.univ.inf fun n => max (f n) e) = max (Finset.univ.inf f) e := by
  have h := Finset.comp_inf_eq_inf_comp (s := (Finset.univ : Finset ι)) (f := f) (fun x : EReal => max x e)
    (fun x y => max_min_distrib_right x y e) (by simp)
  exact h.symm

/-- A fold of `min` from `⊤` over a finite index set is the infimum over it. -/
theorem fold_min_top_eq_inf {ι : Type*} (s : Finset ι) (f : ι → EReal) : s.fold min ⊤ f = s.inf f := rfl

end Cert.RefLoss

end
-- ==== Proof.ReferenceDistances.lean ====
/-
  The reference's array of clamped squared distances, read one entry at a time, and its two minima.

  Write a = the first plane of points (from the second argument) and b = the second plane (from the first argument),
  both 8 × 4096 × 2.  At (β, n, j) the reference forms  (0 + Σₖ a[β,n,k]²) + (0 + Σₖ b[β,j,k]²) − 2·Σₖ a[β,n,k]·b[β,j,k]
  and clamps it from below by ε; for real coordinates this is max (|a[β,n] − b[β,j]|², ε).  Its minimum along the second
  axis (over n, from +∞) is therefore max (minₙ |a[β,n] − b[β,j]|², ε), and along the third axis (over j) likewise.
-/
import proofs.«101472_j35115652612620_2_alg».proof.Proof.Gen.ReferenceIdeal.Read
import proofs.«101472_j35115652612620_2_alg».proof.Proof.ChamferSpec
import proofs.«101472_j35115652612620_2_alg».proof.Proof.SquaredDistanceLaw

noncomputable section

namespace Cert.RefLoss

open Cert.ReferenceIdeal Cert.ReferenceIdeal.Gen Cert.ReferenceIdeal.Read Idealize.ShloMosaic Idealize.ShloMosaic.ValueIdx

/-- The first plane of points: the reference's normalized projection of its second argument. -/
def ptsA (x1 : (⟨S8x4096x3, .f32⟩ : BufTy).Contents (Elt Ideal)) (x2 : (⟨S8x3x4, .f32⟩ : BufTy).Contents (Elt Ideal)) : Cert.Chamfer.Pts :=
  fun β n k => val_main_v10 (F := Ideal) x1 x2 (ix3 β n k)

/-- The second plane of points: the reference's normalized projection of its first argument. -/
def ptsB (x0 : (⟨S8x4096x3, .f32⟩ : BufTy).Contents (Elt Ideal)) (x2 : (⟨S8x3x4, .f32⟩ : BufTy).Contents (Elt Ideal)) : Cert.Chamfer.Pts :=
  fun β n k => val_main_v21 (F := Ideal) x0 x2 (ix3 β n k)

/-- The squared norm of point `n` of the first plane, as the reference sums it: from the zero word, over the two coordinates. -/
theorem sumSquaresA (x1 : (⟨S8x4096x3, .f32⟩ : BufTy).Contents (Elt Ideal)) (x2 : (⟨S8x3x4, .f32⟩ : BufTy).Contents (Elt Ideal)) (β : Fin 8) (n : Fin 4096) :
    val_main_v23 (F := Ideal) x1 x2 (ix2 β n)
      = Ideal.ofBits .f32 0x00000000#32 + ∑ k : Fin 2, ptsA x1 x2 β n k * ptsA x1 x2 β n k := by
  rw [val_main_v23_apply]
  refine congrArg₂ (· + ·) rfl (Finset.sum_congr rfl fun k _ => ?_)
  rw [val_main_v22_apply]
  have e : idx_main_v23 (ix2 β n) k = ix3 β n k := funext fun a => by match a with | ⟨0, _⟩ => rfl | ⟨1, _⟩ => rfl | ⟨2, _⟩ => rfl
  rw [e]; rfl

/-- The squared norm of point `j` of the second plane, likewise. -/
theorem sumSquaresB (x0 : (⟨S8x4096x3, .f32⟩ : BufTy).Contents (Elt Ideal)) (x2 : (⟨S8x3x4, .f32⟩ : BufTy).Contents (Elt Ideal)) (β : Fin 8) (j : Fin 4096) :
    val_main_v26 (F := Ideal) x0 x2 (ix2 β j)
      = Ideal.ofBits .f32 0x00000000#32 + ∑ k : Fin 2, ptsB x0 x2 β j k * ptsB x0 x2 β j k := by
  rw [val_main_v26_apply]
  refine congrArg₂ (· + ·) rfl (Finset.sum_congr rfl fun k _ => ?_)
  rw [val_main_v25_apply]
  have e : idx_main_v26 (ix2 β j) k = ix3 β j k := funext fun a => by match a with | ⟨0, _⟩ => rfl | ⟨1, _⟩ => rfl | ⟨2, _⟩ => rfl
  rw [e]; rfl

/-- The inner product of point `n` of the first plane with point `j` of the second. -/
theorem innerProduct (x0 x1 : (⟨S8x4096x3, .f32⟩ : BufTy).Contents (Elt Ideal)) (x2 : (⟨S8x3x4, .f32⟩ : BufTy).Contents (Elt Ideal)) (β : Fin 8) (n j : Fin 4096) :
    val_main_v31 (F := Ideal) x0 x1 x2 (ix3 β n j) = ∑ k : Fin 2, ptsA x1 x2 β n k * ptsB x0 x2 β j k := by
  rw [val_main_v31_apply]
  refine Finset.sum_congr rfl fun k _ => ?_
  have el : lidx_main_v31 (ix3 β n j) k = ix3 β n k := funext fun a => by match a with | ⟨0, _⟩ => rfl | ⟨1, _⟩ => rfl | ⟨2, _⟩ => rfl
  have er : ridx_main_v31 (ix3 β n j) k = ix3 β j k := funext fun a => by match a with | ⟨0, _⟩ => rfl | ⟨1, _⟩ => rfl | ⟨2, _⟩ => rfl
  rw [el, er]; rfl

/-- The clamped entry at `(β, n, j)` in the reference's own arrangement: norms added, twice the inner product subtracted. -/
theorem clampedExpanded_apply (x0 x1 : (⟨S8x4096x3, .f32⟩ : BufTy).Contents (Elt Ideal)) (x2 : (⟨S8x3x4, .f32⟩ : BufTy).Contents (Elt Ideal)) (β : Fin 8) (n j : Fin 4096) :
    val_main_v36 (F := Ideal) x0 x1 x2 (ix3 β n j)
      = max ((Ideal.ofBits .f32 0x00000000#32 + ∑ k : Fin 2, ptsA x1 x2 β n k * ptsA x1 x2 β n k)
              + (Ideal.ofBits .f32 0x00000000#32 + ∑ k : Fin 2, ptsB x0 x2 β j k * ptsB x0 x2 β j k)
              - Ideal.ofBits .f32 0x40000000#32 * ∑ k : Fin 2, ptsA x1 x2 β n k * ptsB x0 x2 β j k)
          Cert.Chamfer.eps := by
  rw [val_main_v36_apply, val_main_v34_apply, val_main_v30_apply, val_main_v33_apply, val_main_v28_apply,
    val_main_v24_apply, val_main_v29_apply, val_main_v27_apply]
  have e1 : idx_main_v24 (idx_main_v28 (ix3 β n j)) = ix2 β n := funext fun a => by match a with | ⟨0, _⟩ => rfl | ⟨1, _⟩ => rfl
  have e2 : idx_main_v27 (idx_main_v29 (ix3 β n j)) = ix2 β j := funext fun a => by match a with | ⟨0, _⟩ => rfl | ⟨1, _⟩ => rfl
  rw [e1, e2, sumSquaresA, sumSquaresB, innerProduct]
  rfl

/-- For real coordinates the clamped entry is the clamped squared distance. -/
theorem clampedDistance_apply (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal))
    (β : Fin 8) (n j : Fin 4096) :
    val_main_v36 (F := Ideal) x0 x1 x2 (ix3 β n j)
      = max (Cert.Chamfer.sqDist (ptsA x1 x2) (ptsB x0 x2) β n j) Cert.Chamfer.eps := by
  rw [clampedExpanded_apply, expanded_eq_diffSquares (ptsA x1 x2 β n) (ptsB x0 x2 β j) (hA β n) (hB β j)]
  rfl

/-- A minimum from the `+∞` word along the second axis of an 8 × 4096 × 4096 array, at `(β, j)`: the infimum over `n`. -/
theorem minAlongSecondAxis (y : (⟨S8x4096x4096, .f32⟩ : BufTy).Contents (Elt Ideal)) (β : Fin 8) (j : Fin 4096) :
    (Host.reduce (FloatOps.minimumf (F := Ideal) (φ := .f32)) y (val_main_cst_9 (F := Ideal)) reducesTo_S8x4096x4096_S8x4096_d1 h_S_
        : (⟨S8x4096, .f32⟩ : BufTy).Contents (Elt Ideal)) (ix2 β j)
      = Finset.univ.inf fun n : Fin 4096 => y (ix3 β n j) := by
  have h : S8x4096x4096.Reduces [1] S8x4096 := by decide
  refine (Host.reduce_eq_fold_single (FloatOps.minimumf (F := Ideal) (φ := .f32)) y (val_main_cst_9 (F := Ideal))
    reducesTo_S8x4096x4096_S8x4096_d1 h h_S_ (ix2 β j)).trans ?_
  show (Finset.univ : Finset (Fin 4096)).fold min (Ideal.ofBits .f32 0x7F800000#32) (fun n => y (h.lift (ix2 β j) n)) = _
  rw [ofBits_posInf_f32]
  refine (fold_min_top_eq_inf Finset.univ (fun n : Fin 4096 => y (h.lift (ix2 β j) n))).trans ?_
  refine congrArg (Finset.univ.inf) (funext fun n => congrArg y ?_)
  exact funext fun a => Fin.ext (by match a with | ⟨0, _⟩ => rfl | ⟨1, _⟩ => rfl | ⟨2, _⟩ => rfl)

/-- A minimum from the `+∞` word along the third axis, at `(β, n)`: the infimum over `j`. -/
theorem minAlongThirdAxis (y : (⟨S8x4096x4096, .f32⟩ : BufTy).Contents (Elt Ideal)) (β : Fin 8) (n : Fin 4096) :
    (Host.reduce (FloatOps.minimumf (F := Ideal) (φ := .f32)) y (val_main_cst_10 (F := Ideal)) reducesTo_S8x4096x4096_S8x4096_d2 h_S_
        : (⟨S8x4096, .f32⟩ : BufTy).Contents (Elt Ideal)) (ix2 β n)
      = Finset.univ.inf fun j : Fin 4096 => y (ix3 β n j) := by
  have h : S8x4096x4096.Reduces [2] S8x4096 := by decide
  refine (Host.reduce_eq_fold_single (FloatOps.minimumf (F := Ideal) (φ := .f32)) y (val_main_cst_10 (F := Ideal))
    reducesTo_S8x4096x4096_S8x4096_d2 h h_S_ (ix2 β n)).trans ?_
  show (Finset.univ : Finset (Fin 4096)).fold min (Ideal.ofBits .f32 0x7F800000#32) (fun j => y (h.lift (ix2 β n) j)) = _
  rw [ofBits_posInf_f32]
  refine (fold_min_top_eq_inf Finset.univ (fun j : Fin 4096 => y (h.lift (ix2 β n) j))).trans ?_
  refine congrArg (Finset.univ.inf) (funext fun j => congrArg y ?_)
  exact funext fun a => Fin.ext (by match a with | ⟨0, _⟩ => rfl | ⟨1, _⟩ => rfl | ⟨2, _⟩ => rfl)

/-- The reference's minimum over `n` at `(β, j)`: the clamped least squared distance from point `j` of the second plane to the first. -/
theorem nearestA_apply (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal))
    (β : Fin 8) (j : Fin 4096) :
    val_main_v37 (F := Ideal) x0 x1 x2 (ix2 β j)
      = max (Cert.Chamfer.toNearestA (ptsA x1 x2) (ptsB x0 x2) β j) Cert.Chamfer.eps := by
  refine (minAlongSecondAxis (val_main_v36 (F := Ideal) x0 x1 x2) β j).trans ?_
  simp only [clampedDistance_apply x0 x1 x2 hA hB]
  exact inf_max_eq_max_inf _ _

/-- The reference's minimum over `j` at `(β, n)`: the clamped least squared distance from point `n` of the first plane to the second. -/
theorem nearestB_apply (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal))
    (β : Fin 8) (n : Fin 4096) :
    val_main_v38 (F := Ideal) x0 x1 x2 (ix2 β n)
      = max (Cert.Chamfer.toNearestB (ptsA x1 x2) (ptsB x0 x2) β n) Cert.Chamfer.eps := by
  refine (minAlongThirdAxis (val_main_v36 (F := Ideal) x0 x1 x2) β n).trans ?_
  simp only [clampedDistance_apply x0 x1 x2 hA hB]
  exact inf_max_eq_max_inf _ _

end Cert.RefLoss

end
-- ==== Proof.ReferenceLoss.lean ====
/-
  The reference's result is the bidirectional nearest-neighbour loss of its two planes of points.

  The two minima of the clamped squared distances (over the points of the first plane, and over the points of the
  second) are square-rooted entry by entry, each summed over all 8 · 4096 entries from the zero word and divided by
  32768, and the two means are added and halved.  A sum over the index set of an 8 × 4096 array is the double sum over
  its two coordinates, so each mean is the specification's mean root distance, and the result is the loss.
-/
import proofs.«101472_j35115652612620_2_alg».proof.Proof.Gen.ReferenceIdeal.Read
import proofs.«101472_j35115652612620_2_alg».proof.Proof.ChamferSpec
import proofs.«101472_j35115652612620_2_alg».proof.Proof.ReferenceDistances

noncomputable section

namespace Cert.RefLoss

open Cert.ReferenceIdeal Cert.ReferenceIdeal.Gen Cert.ReferenceIdeal.Read Idealize.ShloMosaic Idealize.ShloMosaic.ValueIdx

/-- The mean root distance from the points of the second plane to the first plane. -/
theorem meanRootA_apply (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal))
    (i : S_.Idx) :
    val_main_v41 (F := Ideal) x0 x1 x2 i
      = Cert.Chamfer.meanRoot (Cert.Chamfer.toNearestA (ptsA x1 x2) (ptsB x0 x2)) := by
  rw [val_main_v41_apply, val_main_v40_apply, sum_idx2]
  unfold Cert.Chamfer.meanRoot
  refine congrArg₂ Ideal.div (congrArg₂ (· + ·) rfl ?_) rfl
  refine Finset.sum_congr rfl fun β _ => Finset.sum_congr rfl fun j _ => ?_
  rw [val_main_v39_apply, nearestA_apply x0 x1 x2 hA hB]
  rfl

/-- The mean root distance from the points of the first plane to the second plane. -/
theorem meanRootB_apply (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal))
    (i : S_.Idx) :
    val_main_v44 (F := Ideal) x0 x1 x2 i
      = Cert.Chamfer.meanRoot (Cert.Chamfer.toNearestB (ptsA x1 x2) (ptsB x0 x2)) := by
  rw [val_main_v44_apply, val_main_v43_apply, sum_idx2]
  unfold Cert.Chamfer.meanRoot
  refine congrArg₂ Ideal.div (congrArg₂ (· + ·) rfl ?_) rfl
  refine Finset.sum_congr rfl fun β _ => Finset.sum_congr rfl fun n _ => ?_
  rw [val_main_v42_apply, nearestB_apply x0 x1 x2 hA hB]
  rfl

/-- For real coordinates of both planes the reference's result is the loss of the two planes. -/
theorem reference_loss (x0 x1 : (⟨S8x4096x3, .f32⟩ : BufTy).Contents (Elt Ideal)) (x2 : (⟨S8x3x4, .f32⟩ : BufTy).Contents (Elt Ideal))
    (hA : ∀ β n k, ∃ r : ℝ, ptsA x1 x2 β n k = (r : EReal)) (hB : ∀ β n k, ∃ r : ℝ, ptsB x0 x2 β n k = (r : EReal)) :
    val_main_v46 (F := Ideal) x0 x1 x2 = fun _ => Cert.Chamfer.loss (ptsA x1 x2) (ptsB x0 x2) := by
  funext i
  rw [val_main_v46_apply, val_main_v45_apply, meanRootA_apply x0 x1 x2 hA hB, meanRootB_apply x0 x1 x2 hA hB]
  unfold Cert.Chamfer.loss
  rfl

end Cert.RefLoss

end
-- ==== Proof.Ideal.KernelValue.lean ====
/-
  The kernel program's result on the extended reals.  After the run the column-minimum array holds, at `(β, 0, j)`,
  the least squared distance from point `j` of the second cloud's plane to a point of the first cloud's plane, and
  the row-minimum array the least squared distance from each point of the first plane to the second; the host lines
  after the kernel clamp, root, average and halve them: the chamfer loss of the two planes.  The planes the region
  finds are the reference's own projected planes of the two argument clouds.
-/
import proofs.«101472_j35115652612620_2_alg».proof.Proof.Ideal.FinalArrays
import proofs.«101472_j35115652612620_2_alg».proof.Proof.Ideal.HostTail
import proofs.«101472_j35115652612620_2_alg».proof.Proof.Ideal.HostPrefix
import proofs.«101472_j35115652612620_2_alg».proof.Proof.Ideal.TileValues
import proofs.«101472_j35115652612620_2_alg».proof.Proof.ReferenceLoss
import Idealize.ShloMosaic.Lib.StableHlo.Run

set_option maxRecDepth 16384

noncomputable section

namespace Cert.KernelIdeal.ChamferValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Tile
open ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

/-- The result buffer after the host lines that follow the kernel: those lines applied to the two result arrays. -/
theorem result_eq_tail (c : Dev nD) :
    Pipeline.afterTail₀ cfgs (dats m) 0 (V0 m) [hostOps1] c main_v35
      = Cert.KernelIdeal.HostTail.tail (colArray m c) (rowArray m c) := by
  unfold Pipeline.afterTail₀
  show StableHlo.after hostOps1 _ (Proc.devRef .tc main_v35) = _
  after_results
  have e2 := (Pipeline.withArrays_arr spec0 launch0.win.arr_inj c (V0 m c) (fun w => (dats m 0 c).arrAt w (cfgs 0).N) 2).trans (colFinal m c)
  have e3 := (Pipeline.withArrays_arr spec0 launch0.win.arr_inj c (V0 m c) (fun w => (dats m 0 c).arrAt w (cfgs 0).N) 3).trans (rowFinal m c)
  exact congrArg₂ Cert.KernelIdeal.HostTail.tail e2 e3

/-- Entry `(β, 0, j)` of the column-minimum array: the nearest point of the first plane to point `j` of the second. -/
theorem colArray_apply (c : Dev nD) (β : Fin 8) (j : Fin 4096) :
    colArray m c (ix3 β (0 : Fin 1) j) = Cert.Chamfer.toNearestA (TileValues.ptsA m c) (TileValues.ptsB m c) β j := by
  show k0_pay1 (F := Ideal) (colFull m c β.val) (ix3 (0 : Fin 1) (0 : Fin 1) j) = _
  rw [Cert.TilePayloads.pay1_apply]
  exact TileValues.colFull_apply m c β j

/-- Entry `(β, 0, n)` of the row-minimum array: the nearest point of the second plane to point `n` of the first. -/
theorem rowArray_apply (c : Dev nD) (β : Fin 8) (j : Fin 4096) :
    rowArray m c (ix3 β (0 : Fin 1) j) = Cert.Chamfer.toNearestB (TileValues.ptsA m c) (TileValues.ptsB m c) β j := by
  have hj := j.isLt
  show rowAt m c (16 * β.val + 4 * (j.val / 1024) + 3) (ix3 (0 : Fin 1) (0 : Fin 1) (⟨j.val % 1024, Nat.mod_lt _ (by norm_num)⟩ : Fin 1024)) = _
  have h := TileValues.rowAt_apply m c β (⟨j.val / 1024, by omega⟩ : Fin 4) (⟨j.val % 1024, Nat.mod_lt _ (by norm_num)⟩ : Fin 1024)
  refine h.trans ?_
  congr 1
  apply Fin.ext
  show 1024 * (j.val / 1024) + j.val % 1024 = j.val
  omega

/-- The planes the region finds are the reference's projected planes of the argument clouds. -/
theorem ptsA_eq (c : Dev nD) :
    TileValues.ptsA m c = Cert.RefLoss.ptsA (m ((c.tc : Thread nD τ).loc main_arg1)) (m ((c.tc : Thread nD τ).loc main_arg2)) := by
  funext β n k
  show (V m c main_v10 : S8x4096x2.Idx → EReal) (ix3 β n k) = _
  rw [Cert.KernelIdeal.HostPrefix.gtPlane_eq m c]
  rfl
theorem ptsB_eq (c : Dev nD) :
    TileValues.ptsB m c = Cert.RefLoss.ptsB (m ((c.tc : Thread nD τ).loc main_arg0)) (m ((c.tc : Thread nD τ).loc main_arg2)) := by
  funext β j k
  show (V m c main_v22 : S8x2x4096.Idx → EReal) (ix3 β k j) = _
  rw [Cert.KernelIdeal.HostPrefix.predPlaneT_apply m c β k j]
  rfl

/-- THE KERNEL PROGRAM'S RESULT: the chamfer loss of the two projected planes. -/
theorem result_eq (c : Dev nD) :
    Pipeline.afterTail₀ cfgs (dats m) 0 (V0 m) [hostOps1] c main_v35
      = fun _ => Cert.Chamfer.loss (Cert.RefLoss.ptsA (m ((c.tc : Thread nD τ).loc main_arg1)) (m ((c.tc : Thread nD τ).loc main_arg2)))
          (Cert.RefLoss.ptsB (m ((c.tc : Thread nD τ).loc main_arg0)) (m ((c.tc : Thread nD τ).loc main_arg2))) := by
  rw [result_eq_tail, Cert.KernelIdeal.HostTail.tail_apply, ← ptsA_eq m c, ← ptsB_eq m c]
  funext _
  unfold Cert.Chamfer.loss
  have eA : (fun (β : Fin 8) (j : Fin 4096) => colArray m c (ix3 β (0 : Fin 1) j)) = Cert.Chamfer.toNearestA (TileValues.ptsA m c) (TileValues.ptsB m c) :=
    funext fun β => funext fun j => colArray_apply m c β j
  have eB : (fun (β : Fin 8) (j : Fin 4096) => rowArray m c (ix3 β (0 : Fin 1) j)) = Cert.Chamfer.toNearestB (TileValues.ptsA m c) (TileValues.ptsB m c) :=
    funext fun β => funext fun j => rowArray_apply m c β j
  rw [eA, eB]

/-- The kernel program's run, read: it ends with the result at the chamfer loss and its arguments unchanged. -/
theorem run : θ_run defs (onTc (τ := τ) (main (F := Ideal))) ⟨m, fun _ => 0, ρ⟩ (fun r => ∀ c : Dev nD,
      r.2.mem ((c.tc : Thread nD τ).loc main_v35)
        = (fun _ => Cert.Chamfer.loss (Cert.RefLoss.ptsA (m ((c.tc : Thread nD τ).loc main_arg1)) (m ((c.tc : Thread nD τ).loc main_arg2)))
            (Cert.RefLoss.ptsB (m ((c.tc : Thread nD τ).loc main_arg0)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v35 (Pipeline.mem_restRefs_of main_v35 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ChamferValue

end
-- ==== Proof.PlanesReal.lean ====
/-
  Both projected planes are real-valued under the precondition.

  The reference projects each point cloud x (pred and gt, 8 × 4096 points of 3 coordinates) with the matrices P
  (8 matrices, 3 × 4): posed = [x | 1] · Pᵀ, plane = ((posed_xy / posed_z) - 112) / 224, on the extended reals.
  The precondition says that every entry of pred, gt and P has |·| < +∞ and that no depth posed_z is 0, for either
  cloud. This file reads the precondition back into those facts, and then follows the projection one entry at a time:
  an entry of [x | 1] is an entry of x or 1; a posed coordinate is a sum of four products of reals; a real divided by
  a real that is not 0 is real; subtracting 112 and dividing by 224 keep a real real. Hence every entry of the two
  planes is (the coercion of) a real number.
-/
import proofs.«101472_j35115652612620_2_alg».proof.Proof.Gen.ReferenceIdeal.Read
import proofs.«101472_j35115652612620_2_alg».proof.Proof.Gen.Pre_finite_inputs
import Idealize.ShloMosaic.Lib.ReduceAll
import Idealize.ShloMosaic.Lib.IdealHost

noncomputable section

namespace Cert.PlanesReal

open Idealize.ShloMosaic Idealize.ShloMosaic.ValueIdx Idealize.SL.Sem Idealize.ShloMosaic.StableHlo
open Cert.ReferenceIdeal Cert.ReferenceIdeal.Gen Cert.ReferenceIdeal.Read

/-! ### Real-valued extended reals -/

/-- An extended real is *real* when it is the coercion of a real number (neither +∞ nor -∞). -/
abbrev RealValued (x : EReal) : Prop := ∃ r : ℝ, x = (r : EReal)

theorem RealValued.add {x y : EReal} (hx : RealValued x) (hy : RealValued y) : RealValued (x + y) := by
  obtain ⟨a, rfl⟩ := hx; obtain ⟨b, rfl⟩ := hy
  exact ⟨a + b, (EReal.coe_add a b).symm⟩

theorem RealValued.sub {x y : EReal} (hx : RealValued x) (hy : RealValued y) : RealValued (x - y) := by
  obtain ⟨a, rfl⟩ := hx; obtain ⟨b, rfl⟩ := hy
  exact ⟨a - b, (EReal.coe_sub a b).symm⟩

theorem RealValued.mul {x y : EReal} (hx : RealValued x) (hy : RealValued y) : RealValued (x * y) := by
  obtain ⟨a, rfl⟩ := hx; obtain ⟨b, rfl⟩ := hy
  exact ⟨a * b, (EReal.coe_mul a b).symm⟩

/-- A finite sum of real extended reals is real. -/
theorem RealValued.sum {ι : Type} [Fintype ι] (f : ι → EReal) (hf : ∀ i, RealValued (f i)) : RealValued (∑ i, f i) := by
  classical
  have : ∀ s : Finset ι, RealValued (∑ i ∈ s, f i) := fun s => by
    induction s using Finset.induction_on with
    | empty => exact ⟨0, by rw [Finset.sum_empty, EReal.coe_zero]⟩
    | insert a s ha ih => rw [Finset.sum_insert ha]; exact (hf a).add ih
  exact this Finset.univ

/-- A real divided by a real that is not 0 is real: x / y = x · (1 / y). -/
theorem RealValued.div {x y : EReal} (hx : RealValued x) (hy : RealValued y) (h0 : y ≠ 0) : RealValued (Ideal.div x y) := by
  obtain ⟨a, rfl⟩ := hx; obtain ⟨b, rfl⟩ := hy
  have hb : b ≠ 0 := fun e => h0 (by rw [e, EReal.coe_zero])
  exact ⟨a * (1 / b), by rw [Ideal.div_coe hb, ← EReal.coe_mul]⟩

/-- The word 0x42E00000 of the 32-bit format denotes 112. -/
theorem ofBits_112_f32 : Ideal.ofBits .f32 0x42E00000#32 = ((112 : ℝ) : EReal) := by
  simp [Ideal.ofBits, Ideal.ieee, -EReal.coe_mul]; norm_num

/-- The word 0x43600000 of the 32-bit format denotes 224. -/
theorem ofBits_224_f32 : Ideal.ofBits .f32 0x43600000#32 = ((224 : ℝ) : EReal) := by
  simp [Ideal.ofBits, Ideal.ieee, -EReal.coe_mul]; norm_num

/-! ### Reading the precondition -/

local instance : Subsingleton S_.Idx := ⟨fun a b => funext fun d => d.elim0⟩

/-- The word 0x7F800000 of the 32-bit format denotes +∞. -/
theorem ofBits_inf_f32 : Ideal.ofBits .f32 0x7F800000#32 = ⊤ := by
  simp [Ideal.ofBits, Ideal.ieee]

/-- The test |x| < +∞ at an entry: if the comparison max(x, -x) < +∞ answers true, the entry is a real number. -/
theorem real_of_abs_lt_inf {s : Shape} (hb : S_.BroadcastsInDim s ![]) (x : FVec Ideal s .f32) (i : s.Idx)
    (h : cmpf .olt (Host.absf x) (broadcastInDim s ![] hb (constant (F := Ideal) S_ .f32 0x7F800000#32)) i = 1#1) :
    ∃ r : ℝ, x i = (r : EReal) := by
  rw [cmpf_apply, broadcastInDim_scalar_apply] at h
  change Ideal.cmp .olt (max (x i) (-(x i))) (Ideal.ofBits .f32 0x7F800000#32) = 1#1 at h
  rw [ofBits_inf_f32] at h
  generalize x i = y at h ⊢
  induction y using EReal.rec with
  | bot => simp [Ideal.cmp] at h
  | top => simp [Ideal.cmp] at h
  | coe r => exact ⟨r, rfl⟩

/-- The test d ≠ 0 at an entry: if the comparison d ≠ 0 answers true, the entry is not 0. -/
theorem ne_zero_of_une_zero {s : Shape} (hb : S_.BroadcastsInDim s ![]) (d : FVec Ideal s .f32) (i : s.Idx)
    (h : cmpf .une d (broadcastInDim s ![] hb (constant (F := Ideal) S_ .f32 0x00000000#32)) i = 1#1) :
    d i ≠ 0 := by
  rw [cmpf_apply, broadcastInDim_scalar_apply] at h
  change Ideal.cmp .une (d i) (Ideal.ofBits .f32 0x00000000#32) = 1#1 at h
  rw [Ideal.ofBits_zero_f32] at h
  intro h0
  simp [Ideal.cmp, h0] at h

/-- A conjunction of two one-bit arrays that is 1 at an index has both operands 1 there. -/
theorem andi_eq_one_at {s : Shape} (a b : IVec s 1) (i : s.Idx) (h : andi a b i = 1#1) : a i = 1#1 ∧ b i = 1#1 :=
  IntOp.andi_eq_one.1 h

/-- The precondition read back: it is the conjunction of five tests taken over all entries, |pred| < +∞, |gt| < +∞,
    |proMatrix| < +∞, depth(gt) ≠ 0 and depth(pred) ≠ 0, where depth(x) is column 2 of [x | 1] · proMatrixᵀ, the array
    the reference divides by. So every input entry is real and no depth is 0. -/
theorem inputs_real_depths_ne_zero [Cert.Pre_finite_inputs.Facts]
    (x0 x1 : (⟨S8x4096x3, .f32⟩ : BufTy).Contents (Elt Ideal)) (x2 : (⟨S8x3x4, .f32⟩ : BufTy).Contents (Elt Ideal))
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) ∧
    (∀ j, val_main_v4 (F := Ideal) x1 x2 j ≠ 0) ∧ (∀ j, val_main_v4 (F := Ideal) x0 x2 j ≠ 0) := by
  have h0 := congrFun h ValueIdx.ix0
  dsimp only [Cert.Pre_finite_inputs.fn, Cert.Pre_finite_inputs.fn_part1] at h0
  obtain ⟨h0, e5⟩ := andi_eq_one_at _ _ _ h0
  obtain ⟨h0, e4⟩ := andi_eq_one_at _ _ _ h0
  obtain ⟨h0, e3⟩ := andi_eq_one_at _ _ _ h0
  obtain ⟨e1, e2⟩ := andi_eq_one_at _ _ _ h0
  refine ⟨fun i => ?_, fun i => ?_, fun i => ?_, fun j => ?_, fun j => ?_⟩
  · exact real_of_abs_lt_inf _ x0 i (Host.reduce_andi_all _ _ _ _ _ e1 i)
  · exact real_of_abs_lt_inf _ x1 i (Host.reduce_andi_all _ _ _ _ _ e2 i)
  · exact real_of_abs_lt_inf _ x2 i (Host.reduce_andi_all _ _ _ _ _ e3 i)
  · exact ne_zero_of_une_zero _ _ j (Host.reduce_andi_all _ _ _ _ _ e4 j)
  · exact ne_zero_of_une_zero _ _ j (Host.reduce_andi_all _ _ _ _ _ e5 j)

/-! ### The projected plane is real

For a point array x and the projection matrices P, the reference computes [x | 1] · Pᵀ (the posed points, three
coordinates each), divides the first two coordinates by the third (the depth), subtracts 112 and divides by 224.
When every entry of x and of P is real and no depth is 0, every step stays among the real numbers. -/

/-- The point-array coordinates of an entry of the joined array [x | 1] that lies in its first three columns. -/
abbrev pointIdx (j : S8x4096x4.Idx) (hj : (j 2).val < 3) : S8x4096x3.Idx := fun a => match a with
  | ⟨0, _⟩ => ⟨(j 0).val, (j 0).isLt⟩
  | ⟨1, _⟩ => ⟨(j 1).val, (j 1).isLt⟩
  | ⟨2, _⟩ => ⟨(j 2).val, hj⟩

/-- The coordinates, in the column of ones, of an entry of the joined array [x | 1] that lies in its last column. -/
abbrev onesIdx (j : S8x4096x4.Idx) : S8x4096x1.Idx := fun a => match a with
  | ⟨0, _⟩ => ⟨(j 0).val, (j 0).isLt⟩
  | ⟨1, _⟩ => ⟨(j 1).val, (j 1).isLt⟩
  | ⟨2, _⟩ => ⟨0, Nat.one_pos⟩

/-- Every entry of the joined array [x | 1] is an entry of x or the number 1: real when x is. -/
theorem joined_real (x : (⟨S8x4096x3, .f32⟩ : BufTy).Contents (Elt Ideal)) (hx : ∀ i, RealValued (x i))
    (j : S8x4096x4.Idx) : RealValued (val_main_v1 (F := Ideal) x j) := by
  unfold val_main_v1
  by_cases hj : (j 2).val < 3
  · rw [concatenate_pair_apply_left (2 : Fin S8x4096x4.rank) x (val_main_v0 (F := Ideal))
      concatenates_S8x4096x3_S8x4096x1_S8x4096x4_d2 j rfl (pointIdx j hj)
      (fun b => match b with | ⟨0, _⟩ => rfl | ⟨1, _⟩ => rfl | ⟨2, _⟩ => rfl)]
    exact hx _
  · have h4 : (j 2).val < 4 := (j 2).isLt
    rw [concatenate_pair_apply_right (2 : Fin S8x4096x4.rank) x (val_main_v0 (F := Ideal))
      concatenates_S8x4096x3_S8x4096x1_S8x4096x4_d2 j rfl rfl (onesIdx j)
      (fun b hb => match b, hb with
        | ⟨0, _⟩, _ => rfl
        | ⟨1, _⟩, _ => rfl
        | ⟨2, _⟩, hb => absurd rfl hb)
      (by show 0 + 3 = (j 2).val; omega)]
    rw [val_main_v0_apply, val_main_cst_apply]
    exact ⟨1, by rw [EReal.coe_one]; exact Ideal.ofBits_one_f32⟩

/-- Every coordinate of a posed point is a sum of four products of reals. -/
theorem posed_real (x : (⟨S8x4096x3, .f32⟩ : BufTy).Contents (Elt Ideal))
    (x2 : (⟨S8x3x4, .f32⟩ : BufTy).Contents (Elt Ideal)) (hx : ∀ i, RealValued (x i)) (h2 : ∀ i, RealValued (x2 i))
    (i : S8x4096x3.Idx) : RealValued (val_main_v2 (F := Ideal) x x2 i) := by
  rw [val_main_v2_apply]
  exact RealValued.sum _ fun k => (joined_real x hx _).mul (h2 _)

/-- The normalized projection ((posed_xy / depth) - 112) / 224 of real points with no depth 0 is real. -/
theorem plane_real (x : (⟨S8x4096x3, .f32⟩ : BufTy).Contents (Elt Ideal))
    (x2 : (⟨S8x3x4, .f32⟩ : BufTy).Contents (Elt Ideal)) (hx : ∀ i, RealValued (x i)) (h2 : ∀ i, RealValued (x2 i))
    (hd : ∀ j, val_main_v4 (F := Ideal) x x2 j ≠ 0) (i : S8x4096x2.Idx) :
    RealValued (val_main_v10 (F := Ideal) x x2 i) := by
  have h3 : RealValued (val_main_v3 (F := Ideal) x x2 i) := by
    rw [val_main_v3_apply]; exact posed_real x x2 hx h2 _
  have h5 : RealValued (val_main_v5 (F := Ideal) x x2 i) := by
    rw [val_main_v5_apply, val_main_v4_apply]; exact posed_real x x2 hx h2 _
  have h5' : val_main_v5 (F := Ideal) x x2 i ≠ 0 := by
    rw [val_main_v5_apply]; exact hd _
  have h6 : RealValued (val_main_v6 (F := Ideal) x x2 i) := by
    rw [val_main_v6_apply]; exact h3.div h5 h5'
  have h7 : val_main_v7 (F := Ideal) i = ((112 : ℝ) : EReal) := by
    rw [val_main_v7_apply, val_main_cst_0_apply]; exact ofBits_112_f32
  have h8 : RealValued (val_main_v8 (F := Ideal) x x2 i) := by
    rw [val_main_v8_apply, h7]; exact h6.sub ⟨112, rfl⟩
  have h9 : val_main_v9 (F := Ideal) i = ((224 : ℝ) : EReal) := by
    rw [val_main_v9_apply, val_main_cst_1_apply]; exact ofBits_224_f32
  rw [val_main_v10_apply, h9]
  exact h8.div ⟨224, rfl⟩ (EReal.coe_ne_zero.mpr (by norm_num))

/-- The prediction's plane is the same function of its point array as the target's plane. -/
theorem pred_plane_eq (x : (⟨S8x4096x3, .f32⟩ : BufTy).Contents (Elt Ideal))
    (x2 : (⟨S8x3x4, .f32⟩ : BufTy).Contents (Elt Ideal)) :
    val_main_v21 (F := Ideal) x x2 = val_main_v10 (F := Ideal) x x2 := rfl

/-- Under the precondition (all inputs finite, no projected depth 0) both projected planes are real-valued. -/
theorem planes_real [Cert.Pre_finite_inputs.Facts]
    (x0 x1 : (⟨S8x4096x3, .f32⟩ : BufTy).Contents (Elt Ideal)) (x2 : (⟨S8x3x4, .f32⟩ : BufTy).Contents (Elt Ideal))
    (h : Cert.Pre_finite_inputs.fn (F := Ideal) x0 x1 x2 = fun _ => 1#1) :
    (∀ i : S8x4096x2.Idx, ∃ r : ℝ, Cert.ReferenceIdeal.Read.val_main_v10 (F := Ideal) x1 x2 i = (r : EReal)) ∧
    (∀ i : S8x4096x2.Idx, ∃ r : ℝ, Cert.ReferenceIdeal.Read.val_main_v21 (F := Ideal) x0 x2 i = (r : EReal)) := by
  obtain ⟨r0, r1, r2, d1, d0⟩ := inputs_real_depths_ne_zero x0 x1 x2 h
  refine ⟨fun i => plane_real x1 x2 r1 r2 d1 i, fun i => ?_⟩
  rw [pred_plane_eq]
  exact plane_real x0 x2 r0 r2 d0 i

end Cert.PlanesReal

end
-- ==== Proof.lean ====
/-
  The bidirectional chamfer loss of two projected point clouds: a tiled kernel against its plain reference, on the
  extended reals, under the precondition that every input is finite and no projected point has depth zero.

  Both programs project the two clouds to the plane by the same host operations (a product with the projection
  matrix, the perspective division by the depth, a shift and a scale), so they agree on the two planes `a`, `b`; the
  precondition makes every plane coordinate a real number.  The reference forms `|a|² + |b|² − 2 a·b`, clamps it below
  by ε, takes the minimum along each axis, roots, averages and halves.  The kernel visits the 8 × 4 × 4 grid of
  1024 × 1024 distance tiles, forms `(a₀ − b₀)² + (a₁ − b₁)²` on each, and keeps two running minima — the rows' in an
  output block that stays in place while the column tile moves, the columns' in a scratch row whose quarter a point
  rewrites —, and the host lines after it clamp, root, average and halve.  For real coordinates the two distance
  forms are one number; clamping below commutes with a finite minimum; a minimum over 4096 is the minimum of the
  minima over its four blocks of 1024: the two results are the same extended real.

  The three frames: the kernel program at both instances by the body's obligation point by point (`Proof/Word`,
  `Proof/Ideal`), the reference by its run.  The idealization rewrote nothing, so `preserves` is trivial.
-/
import proofs.«101472_j35115652612620_2_alg».proof.Defs
import proofs.«101472_j35115652612620_2_alg».proof.Proof.Gen.Kernel
import proofs.«101472_j35115652612620_2_alg».proof.Proof.Gen.KernelIdeal
import proofs.«101472_j35115652612620_2_alg».proof.Proof.Gen.ReferenceIdeal
import proofs.«101472_j35115652612620_2_alg».proof.Proof.Gen.Pre_finite_inputs
import proofs.«101472_j35115652612620_2_alg».proof.Proof.Gen.ReferenceIdeal.Read
import proofs.«101472_j35115652612620_2_alg».proof.Proof.Word.Body
import proofs.«101472_j35115652612620_2_alg».proof.Proof.Ideal.KernelValue
import proofs.«101472_j35115652612620_2_alg».proof.Proof.PlanesReal
import proofs.«101472_j35115652612620_2_alg».proof.Proof.ReferenceLoss
import Idealize.ShloMosaic.Adequacy
import Idealize.ShloMosaic.Init

noncomputable section

namespace Cert.Proof

open Idealize.ShloMosaic Idealize.SL.Sem ValueIdx

theorem frame_kernel : Cert.frame_Kernel := fun m ρ _ => Cert.Kernel.Tile.frame m ρ

theorem frame_kernelIdeal : Cert.frame_KernelIdeal := fun m ρ _ => Cert.KernelIdeal.Tile.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end at the chamfer loss of the same two planes:
    the kernel program by its run read back, the reference by its run and the law joining the two distance forms,
    which needs the planes' coordinates real — what the precondition gives. -/
theorem algebraic : Cert.algebraic_KernelIdeal_ReferenceIdeal := by
  intro m ρ m' ρ' hpre hagree
  refine ⟨_, Cert.KernelIdeal.ChamferValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, (hagree c).1, (hagree c).2.1, (hagree c).2.2]
  obtain ⟨hA, hB⟩ := Cert.PlanesReal.planes_real _ _ _ (hpre c)
  exact Cert.RefLoss.reference_loss _ _ _ (fun β n k => hA (ix3 β n k)) (fun β n k => hB (ix3 β n k))

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
